-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg1 : IVec S2x262144 32) (main_v13 : IVec S_ 1) (main_v15 : IVec S2x262144 1) (main_c_5 : IVec S_ 1) : IVec S_ 1 :=
  let main_v16 : IVec S_ 1 := (fun x v => Host.reduce IntOp.andi x v reducesTo_S2x262144_S_d0_1 h_S_) main_v15 main_c_5
  let main_v17 : IVec S_ 1 := andi main_v13 main_v16
  let main_c_6 : IVec S_ 32 := constantI S_ 32 8192#32
  let main_v18 : IVec S2x262144 32 := broadcastInDim S2x262144 ![] bcast_S_S2x262144 main_c_6
  let main_v19 : IVec S2x262144 1 := cmpi .slt main_arg1 main_v18
  let main_c_7 : IVec S_ 1 := constantI S_ 1 1#1
  let main_v20 : IVec S_ 1 := (fun x v => Host.reduce IntOp.andi x v reducesTo_S2x262144_S_d0_1 h_S_) main_v19 main_c_7
  let main_v21 : IVec S_ 1 := andi main_v17 main_v20
  main_v21

def fn {F : FTy → Type} [FloatOps F] (main_arg0 : FVec F S8192x256 .f32) (main_arg1 : IVec S2x262144 32) (main_arg2 : FVec F S256x128 .f32) (main_arg3 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg1 main_v14
  let main_c_5 : IVec S_ 1 := constantI S_ 1 1#1
  fn_part1 (F := F) main_arg1 main_v13 main_v15 main_c_5
-- ==== Kernel.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S8192x128 : Shape := ⟨2, ![8192, 128]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x128 : Shape := ⟨2, ![1, 128]⟩
abbrev S1024x1024 : Shape := ⟨2, ![1024, 1024]⟩
abbrev S1024x128 : Shape := ⟨2, ![1024, 128]⟩

abbrev nBuf : Space → Nat
  | .hbm => 64
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S8192, .i32⟩
  | .hbm, ⟨10, _⟩ => ⟨S270336, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S8192, .f32⟩
  | .hbm, ⟨19, _⟩ => ⟨S_, .i32⟩
  | .hbm, ⟨20, _⟩ => ⟨S270336, .i32⟩
  | .hbm, ⟨21, _⟩ => ⟨S270336, .i1⟩
  | .hbm, ⟨22, _⟩ => ⟨S_, .i32⟩
  | .hbm, ⟨23, _⟩ => ⟨S270336, .i32⟩
  | .hbm, ⟨24, _⟩ => ⟨S270336, .i32⟩
  | .hbm, ⟨25, _⟩ => ⟨S270336, .i32⟩
  | .hbm, ⟨26, _⟩ => ⟨S270336x1, .i32⟩
  | .hbm, ⟨27, _⟩ => ⟨S270336, .f32⟩
  | .hbm, ⟨28, _⟩ => ⟨S_, .i32⟩
  | .hbm, ⟨29, _⟩ => ⟨S270336, .i32⟩
  | .hbm, ⟨30, _⟩ => ⟨S270336, .i1⟩
  | .hbm, ⟨31, _⟩ => ⟨S_, .i32⟩
  | .hbm, ⟨32, _⟩ => ⟨S270336, .i32⟩
  | .hbm, ⟨33, _⟩ => ⟨S270336, .i32⟩
  | .hbm, ⟨34, _⟩ => ⟨S270336, .i32⟩
  | .hbm, ⟨35, _⟩ => ⟨S270336x1, .i32⟩
  | .hbm, ⟨36, _⟩ => ⟨S270336, .f32⟩
  | .hbm, ⟨37, _⟩ => ⟨S270336, .f32⟩
  | .hbm, ⟨38, _⟩ => ⟨S_, .f32⟩
  | .hbm, ⟨39, _⟩ => ⟨S8192x8192, .f32⟩
  | .hbm, ⟨40, _⟩ => ⟨S_, .i32⟩
  | .hbm, ⟨41, _⟩ => ⟨S270336, .i32⟩
  | .hbm, ⟨42, _⟩ => ⟨S270336, .i1⟩
  | .hbm, ⟨43, _⟩ => ⟨S_, .i32⟩
  | .hbm, ⟨44, _⟩ => ⟨S270336, .i32⟩
  | .hbm, ⟨45, _⟩ => ⟨S270336, .i32⟩
  | .hbm, ⟨46, _⟩ => ⟨S270336, .i32⟩
  | .hbm, ⟨47, _⟩ => ⟨S_, .i32⟩
  | .hbm, ⟨48, _⟩ => ⟨S270336, .i32⟩
  | .hbm, ⟨49, _⟩ => ⟨S270336, .i1⟩
  | .hbm, ⟨50, _⟩ => ⟨S_, .i32⟩
  | .hbm, ⟨51, _⟩ => ⟨S270336, .i32⟩
  | .hbm, ⟨52, _⟩ => ⟨S270336, .i32⟩
  | .hbm, ⟨53, _⟩ => ⟨S270336, .i32⟩
  | .hbm, ⟨54, _⟩ => ⟨S270336x1, .i32⟩
  | .hbm, ⟨55, _⟩ => ⟨S270336x1, .i32⟩
  | .hbm, ⟨56, _⟩ => ⟨S270336x2, .i32⟩
  | .hbm, ⟨57, _⟩ => ⟨S8192x8192, .f32⟩
  | .hbm, ⟨58, _⟩ => ⟨S8192x8192, .bf16⟩
  | .hbm, ⟨59, _⟩ => ⟨S8192x128, .bf16⟩
  | .hbm, ⟨60, _⟩ => ⟨S1x128, .f32⟩
  | .hbm, ⟨61, _⟩ => ⟨S8192x128, .f32⟩
  | .hbm, ⟨62, _⟩ => ⟨S8192x128, .bf16⟩
  | .hbm, ⟨63, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S8192x256_S256x128_S8192x128_1_0_0_1_n_n_wf : DotDims.WF S8192x256 S256x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v43) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v47) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S8192x128 : Shape := ⟨2, ![8192, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S8192, .i32⟩
  | .hbm, ⟨6, _⟩ => ⟨S1x262144, .i32⟩
  | .hbm, ⟨7, _⟩ => ⟨S262144, .i32⟩
  | .hbm, ⟨8, _⟩ => ⟨S270336, .i32⟩
  | .hbm, ⟨9, _⟩ => ⟨S1x262144, .i32⟩
  | .hbm, ⟨10, _⟩ => ⟨S262144, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S8192, .f32⟩
  | .hbm, ⟨19, _⟩ => ⟨S_, .i32⟩
  | .hbm, ⟨20, _⟩ => ⟨S270336, .i32⟩
  | .hbm, ⟨21, _⟩ => ⟨S270336, .i1⟩
  | .hbm, ⟨22, _⟩ => ⟨S_, .i32⟩
  | .hbm, ⟨23, _⟩ => ⟨S270336, .i32⟩
  | .hbm, ⟨24, _⟩ => ⟨S270336, .i32⟩
  | .hbm, ⟨25, _⟩ => ⟨S270336, .i32⟩
  | .hbm, ⟨26, _⟩ => ⟨S270336x1, .i32⟩
  | .hbm, ⟨27, _⟩ => ⟨S270336, .f32⟩
  | .hbm, ⟨28, _⟩ => ⟨S_, .i32⟩
  | .hbm, ⟨29, _⟩ => ⟨S270336, .i32⟩
  | .hbm, ⟨30, _⟩ => ⟨S270336, .i1⟩
  | .hbm, ⟨31, _⟩ => ⟨S_, .i32⟩
  | .hbm, ⟨32, _⟩ => ⟨S270336, .i32⟩
  | .hbm, ⟨33, _⟩ => ⟨S270336, .i32⟩
  | .hbm, ⟨34, _⟩ => ⟨S270336, .i32⟩
  | .hbm, ⟨35, _⟩ => ⟨S270336x1, .i32⟩
  | .hbm, ⟨36, _⟩ => ⟨S270336, .f32⟩
  | .hbm, ⟨37, _⟩ => ⟨S270336, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336x128, .f32⟩
  | .hbm, ⟨47, _⟩ => ⟨S270336x1, .f32⟩
  | .hbm, ⟨48, _⟩ => ⟨S270336x128, .f32⟩
  | .hbm, ⟨49, _⟩ => ⟨S270336x128, .f32⟩
  | .hbm, ⟨50, _⟩ => ⟨S_, .f32⟩
  | .hbm, ⟨51, _⟩ => ⟨S8192x128, .f32⟩
  | .hbm, ⟨52, _⟩ => ⟨S270336x1, .i32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S128x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  dot_S8192x256_S256x128_S8192x128_1_0_0_1_n_n_wf : DotDims.WF S8192x256 S256x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.R0RunZ.lean ====
import proofs.«100069_j65712999629271_2_alg».proof.Proof.Gen.Kernel.Launch
import proofs.«100069_j65712999629271_2_alg».proof.Proof.Gen.Kernel.Skeleton
import proofs.«100069_j65712999629271_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The accumulating kernel of the first call, case by case. The grid is 8 x 8, the second coordinate k the
    reduction step: at k = 0 the accumulator is cleared before the block product is added, at k = 7 the
    output block max (acc + bias, 0) is stored after it; in between only the product is added. -/

/-- The accumulator is cleared at this point: k = 0. -/
abbrev condZ (i : grid0.Coords) : Prop :=
  (Scalar.cmpi .ne (Scalar.extui (Scalar.cmpi .eq (BitVec.ofNat 32 (i 1).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- The output block is stored at this point: k = 7. -/
abbrev condL (i : grid0.Coords) : Prop := k0_cond2 i = 1#1
theorem hcondL : ∀ t : Fin cfg0.N, condL (grid0.coords t) ↔ t.val % 8 = 7 :=
  (by decide +kernel : ∀ t : Fin grid0.N, condL (grid0.coords t) ↔ t.val % 8 = 7)

/-- The output window is idle exactly where nothing is stored into it, and written back only after k = 7. -/
theorem idle3_of_not : ∀ t : Fin cfg0.N, ¬condL (grid0.coords t) → cfg0.idle 3 (grid0.coords t) = true := by decide +kernel
theorem noFlush3_of_not : ∀ t : Fin cfg0.N, ¬condL (grid0.coords t) → (cfg0.win 3).flush t = false := by decide +kernel
theorem live3_of : ∀ t : Fin cfg0.N, condL (grid0.coords t) → cfg0.idle 3 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The staging memrefs at a point as the pipeline passes them, and the accumulator scratch. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev scM : Memref sig .tc .vmem S1024x128 .f32 := Memref.whole cc0_scratch0
abbrev VS : View sig .tc .vmem S1024x128 .f32 := scM.view
abbrev VO : View sig .tc .vmem S1024x128 .f32 := (Memref.whole cc0_stg3_0 : Memref sig .tc .vmem S1024x128 .f32).view

set_option maxHeartbeats 4000000 in
/-- k = 0: the accumulator, whatever it held, is cleared and the block product added; the output buffer is handed back untouched. -/
noncomputable def runZ (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : condZ i) (hcl : ¬condL i)
    (x2 : Vec F S1024x1024 .bf16) (x3 : Vec F S1024x128 .bf16) (x4 : Vec F S1x128 .f32) :
    { LS : List (View.Piece (Elt F) S1024x128 .f32) //
      ∀ (xi5 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, fun xi5 E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

end Cert.Kernel.Hand0

end
-- ==== Proof.K.R0RunM.lean ====
import proofs.«100069_j65712999629271_2_alg».proof.Proof.K.R0RunZ

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- 0 < k < 7: the block product is added to the accumulator the step before left; the output buffer is handed back untouched. -/
noncomputable def runM (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : ¬condZ i) (hcl : ¬condL i)
    (x2 : Vec F S1024x1024 .bf16) (x3 : Vec F S1024x128 .bf16) (x4 : Vec F S1x128 .f32) (xs : Vec F S1024x128 .f32) :
    { LS : List (View.Piece (Elt F) S1024x128 .f32) //
      ∀ (xi5 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, fun xi5 E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

end Cert.Kernel.Hand0

end
-- ==== Proof.K.R0RunL.lean ====
import proofs.«100069_j65712999629271_2_alg».proof.Proof.K.R0RunM

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 7: the last block product is added and max (acc + bias, 0) stored into the output buffer, whatever it held. -/
noncomputable def runL (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : ¬condZ i) (hcl : condL i)
    (x2 : Vec F S1024x1024 .bf16) (x3 : Vec F S1024x128 .bf16) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

end Cert.Kernel.Hand0

end
-- ==== Proof.K.R0Frame.lean ====
import proofs.«100069_j65712999629271_2_alg».proof.Proof.K.R0RunL

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The three cases at a point of the grid -/

/-- The run of case k = 0 at point t on the point's own memrefs. -/
abbrev runZ_at (c : Dev nD) (t : Fin cfg0.N) (hz : t.val % 8 = 0) (hl : ¬t.val % 8 = 7) (x2 : Vec F S1024x1024 .bf16) (x3 : Vec F S1024x128 .bf16) (x4 : Vec F S1x128 .f32) :=
  runZ c (grid0.coords t) (ms0 t) (hs0 t) (ms1 t) (hs1 t) (ms2 t) (hs2 t) (ms3 t) (hs3 t) scM (Memref.isWhole_whole _) ((hcondZ t).mpr hz) (fun h => hl ((hcondL t).mp h)) x2 x3 x4
abbrev runM_at (c : Dev nD) (t : Fin cfg0.N) (hz : ¬t.val % 8 = 0) (hl : ¬t.val % 8 = 7) (x2 : Vec F S1024x1024 .bf16) (x3 : Vec F S1024x128 .bf16) (x4 : Vec F S1x128 .f32) (xs : Vec F S1024x128 .f32) :=
  runM c (grid0.coords t) (ms0 t) (hs0 t) (ms1 t) (hs1 t) (ms2 t) (hs2 t) (ms3 t) (hs3 t) scM (Memref.isWhole_whole _) (fun h => hz ((hcondZ t).mp h)) (fun h => hl ((hcondL t).mp h)) x2 x3 x4 xs
abbrev runL_at (c : Dev nD) (t : Fin cfg0.N) (hz : ¬t.val % 8 = 0) (hl : t.val % 8 = 7) (x2 : Vec F S1024x1024 .bf16) (x3 : Vec F S1024x128 .bf16) (x4 : Vec F S1x128 .f32) (xs : Vec F S1024x128 .f32) :=
  runL c (grid0.coords t) (ms0 t) (hs0 t) (ms1 t) (hs1 t) (ms2 t) (hs2 t) (ms3 t) (hs3 t) scM (Memref.isWhole_whole _) (fun h => hz ((hcondZ t).mp h)) ((hcondL t).mpr hl) x2 x3 x4 xs

/-- Each case's stores tile the accumulator (and, at k = 7, the output block), so they cover it. -/
theorem scoverZ (c : Dev nD) (t : Fin cfg0.N) (hz : t.val % 8 = 0) (hl : ¬t.val % 8 = 7) (x2 x3 x4) (y : S1024x128.Idx) :
    ∃ pc ∈ (runZ_at (F := F) c t hz hl x2 x3 x4).1, y ∈ pc.1.set :=
  View.cover_of_tiledL (runZ_at (F := F) c t hz hl x2 x3 x4).1 S1024x128.size (by sl_kernel_rfl) y
theorem scoverM (c : Dev nD) (t : Fin cfg0.N) (hz : ¬t.val % 8 = 0) (hl : ¬t.val % 8 = 7) (x2 x3 x4 xs) (y : S1024x128.Idx) :
    ∃ pc ∈ (runM_at (F := F) c t hz hl x2 x3 x4 xs).1, y ∈ pc.1.set :=
  View.cover_of_tiledL (runM_at (F := F) c t hz hl x2 x3 x4 xs).1 S1024x128.size (by sl_kernel_rfl) y
theorem scoverL (c : Dev nD) (t : Fin cfg0.N) (hz : ¬t.val % 8 = 0) (hl : t.val % 8 = 7) (x2 x3 x4 xs) (y : S1024x128.Idx) :
    ∃ pc ∈ (runL_at (F := F) c t hz hl x2 x3 x4 xs).2.1, y ∈ pc.1.set :=
  View.cover_of_tiledL (runL_at (F := F) c t hz hl x2 x3 x4 xs).2.1 S1024x128.size (by sl_kernel_rfl) y
theorem ocoverL (c : Dev nD) (t : Fin cfg0.N) (hz : ¬t.val % 8 = 0) (hl : t.val % 8 = 7) (x2 x3 x4 xs) (y : S1024x128.Idx) :
    ∃ pc ∈ (runL_at (F := F) c t hz hl x2 x3 x4 xs).1, y ∈ pc.1.set :=
  View.cover_of_tiledL (runL_at (F := F) c t hz hl x2 x3 x4 xs).1 S1024x128.size (by sl_kernel_rfl) y

/-- What each case leaves in the accumulator, and the last case in the output block: the pieces read back. -/
def soutZ (c : Dev nD) (t : Fin cfg0.N) (hz : t.val % 8 = 0) (hl : ¬t.val % 8 = 7) : Vec F S1024x128 .f32 :=
  VS.read (Elt F) (VS.writes (Elt F) VS.junk (runZ_at c t hz hl (iblk0 V c 0 t) (iblk0 V c 1 t) (iblk0 V c 2 t)).1)
def soutM (c : Dev nD) (t : Fin cfg0.N) (hz : ¬t.val % 8 = 0) (hl : ¬t.val % 8 = 7) (xs : Vec F S1024x128 .f32) : Vec F S1024x128 .f32 :=
  VS.read (Elt F) (VS.writes (Elt F) VS.junk (runM_at c t hz hl (iblk0 V c 0 t) (iblk0 V c 1 t) (iblk0 V c 2 t) xs).1)
def soutL (c : Dev nD) (t : Fin cfg0.N) (hz : ¬t.val % 8 = 0) (hl : t.val % 8 = 7) (xs : Vec F S1024x128 .f32) : Vec F S1024x128 .f32 :=
  VS.read (Elt F) (VS.writes (Elt F) VS.junk (runL_at c t hz hl (iblk0 V c 0 t) (iblk0 V c 1 t) (iblk0 V c 2 t) xs).2.1)
def outL (c : Dev nD) (t : Fin cfg0.N) (hz : ¬t.val % 8 = 0) (hl : t.val % 8 = 7) (xs : Vec F S1024x128 .f32) : Vec F S1024x128 .f32 :=
  VO.read (Elt F) (VO.writes (Elt F) VO.junk (runL_at c t hz hl (iblk0 V c 0 t) (iblk0 V c 1 t) (iblk0 V c 2 t) xs).1)
/-- Where nothing is stored into the output block it is not written back and nothing reads this value. -/
def outIdle : Vec F S1024x128 .f32 := VO.read (Elt F) (VO.writes (Elt F) VO.junk [])

/-! ## The accumulation, point by point -/

/-- What the output's staging buffer and the accumulator hold after the body at position n. -/
def stepAt (c : Dev nD) : (n : ℕ) → n < cfg0.N → Vec F S1024x128 .f32 × Vec F S1024x128 .f32
  | 0, hn => (outIdle, soutZ V c ⟨0, hn⟩ (Nat.zero_mod _) (by show ¬ (0 : ℕ) % 8 = 7; decide))
  | n + 1, hn =>
    if h0 : (n + 1) % 8 = 0 then
      if h7 : (n + 1) % 8 = 7 then False.elim (by omega)
      else (outIdle, soutZ V c ⟨n + 1, hn⟩ h0 h7)
    else
      if h7 : (n + 1) % 8 = 7 then
        (outL V c ⟨n + 1, hn⟩ h0 h7 (stepAt c n (Nat.lt_of_succ_lt hn)).2, soutL V c ⟨n + 1, hn⟩ h0 h7 (stepAt c n (Nat.lt_of_succ_lt hn)).2)
      else
        (outIdle, soutM V c ⟨n + 1, hn⟩ h0 h7 (stepAt c n (Nat.lt_of_succ_lt hn)).2)

theorem stepAt_Z (c : Dev nD) (t : Fin cfg0.N) (h0 : t.val % 8 = 0) (h7 : ¬t.val % 8 = 7) :
    stepAt V c t.val t.isLt = (outIdle, soutZ V c t h0 h7) := by
  obtain ⟨n, hn⟩ := t
  cases n with
  | zero => exact rfl
  | succ n => exact (dif_pos h0).trans ((dif_neg h7).trans rfl)
theorem stepAt_M (c : Dev nD) (t : Fin cfg0.N) (h0 : ¬t.val % 8 = 0) (h7 : ¬t.val % 8 = 7) :
    stepAt V c t.val t.isLt = (outIdle, soutM V c t h0 h7 (stepAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h7).trans rfl)
theorem stepAt_L (c : Dev nD) (t : Fin cfg0.N) (h0 : ¬t.val % 8 = 0) (h7 : t.val % 8 = 7) :
    stepAt V c t.val t.isLt = (outL V c t h0 h7 (stepAt V c (t.val - 1) (Nat.lt_of_le_of_lt (Nat.sub_le _ _) t.isLt)).2, soutL V c t h0 h7 (stepAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h7).trans rfl)

/-! ## The region's invariant: the accumulator at what the point before left -/

/-- The other scoped buffers of the core (the second call's staging buffers), each at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄) = iprop(iprop((∃ d, owns (c : Thread nD τ) scM fullShare d) ∗ Rest6 (F := F) c) ∗ (∃ r, prngReg c r)) := by
  unfold Pipeline.ΦA; rw [scopedRest0_eq]; simp only [scM, owns_whole, Rest6]; try rfl

def PhiS (c : Dev nD) : (n : ℕ) → n ≤ cfg0.N → sProp 𝕄
  | 0, _ => Pipeline.ΦA spec0 c
  | n + 1, hn => iprop(iprop(owns (c : Thread nD τ) scM fullShare ((stepAt V c n hn).2) ∗ Rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((stepAt V c n hn).2) ∗ Rest6 (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((stepAt V c (n - 1) (by omega)).2) ∗ Rest6 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (stepAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (stepAt V c t.val t.isLt).1 := by dsimp only [dat0]
theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d

end Region0

end Cert.Kernel.Hand0

end
-- ==== Proof.K.R0Body.lean ====
import proofs.«100069_j65712999629271_2_alg».proof.Proof.K.R0Frame

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the step k decides the case; the invariant hands
    the body the accumulator at what the point before left (anything at the very first point) and takes it back at
    this point's contents; the output buffer is handed back untouched except at k = 7. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  by_cases h0 : t.val % 8 = 0
  · have h7 : ¬t.val % 8 = 7 := by omega
    rw [Dat.leavesExact_idle (dat0 V c) 3 t (idle3_of_not t (fun h => h7 ((hcondL t).mp h))) (noFlush3_of_not t (fun h => h7 ((hcondL t).mp h)))]
    rw [stepAt_Z V c t h0 h7]
    unfold soutZ; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩⟩
      iapply ((runZ_at c t h0 h7 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverZ c t h0 h7 _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runZ_at c t h0 h7 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverZ c t h0 h7 _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat0 V c).leavesExact 3 t = owns (c : Thread nD τ) (ms3 t) fullShare ((dat0 V c).after 3 t) from by
        unfold Dat.leavesExact; rw [live3_of t ((hcondL t).mpr h7)], after0_3]
      rw [stepAt_L V c t h0 h7]
      unfold outL soutL; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runL_at c t h0 h7 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverL c t h0 h7 _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverL c t h0 h7 _ _ _ _)
    · rw [Dat.leavesExact_idle (dat0 V c) 3 t (idle3_of_not t (fun h => h7 ((hcondL t).mp h))) (noFlush3_of_not t (fun h => h7 ((hcondL t).mp h)))]
      rw [stepAt_M V c t h0 h7]
      unfold soutM; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runM_at c t h0 h7 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverM c t h0 h7 _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end Region0

end Cert.Kernel.Hand0

end
-- ==== Proof.K.Region1.lean ====
/- Region 1 of @main, the decode kernel: each grid point (i, j) of the 8 × 8 grid reads two row blocks of the
   array z (rows 1024·i … and rows 1024·j …, all 128 columns), multiplies the first by the transpose of the second
   and writes one half of (tanh of one half of that product, plus one) to block (i, j) of the output. Both input
   windows read the SAME array, so the array's ownership is dealt between them in two halves. Everything here is
   stated at a parameter V, the TensorCore's buffer contents when the region is entered. -/
import proofs.«100069_j65712999629271_2_alg».proof.Proof.Gen.Kernel.Launch
import proofs.«100069_j65712999629271_2_alg».proof.Proof.Gen.Kernel.Skeleton
import proofs.«100069_j65712999629271_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds its row block at every point, fetched there or not: where it is
    not fetched the block index has not moved. For any proof data over the entry arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is of a whole staging buffer -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The output window's staging buffer after the body, from the two row blocks: its one store, of the payload of the
    two loads. -/
def out1_2 (x0 x1 : Vec F S1024x128 .bf16) : Vec F S1024x1024 .f32 :=
  View.canon [⟨rOut, k1_pay1 (View.ld x0 rIn) (View.ld x1 rIn)⟩]

/-- The one store covers the buffer. -/
theorem cover1_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the two inputs' at contents `x0`, `x1` and the output's at anything (the body
    loads it once, a value nothing reads), runs to the continuation holding the inputs' as they were and the output's at
    `out1_2 x0 x1`. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__decode_kernel i arg2 harg2 arg3 harg3 arg4 harg4) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the decode pipeline on core `c`: the arrays as the region finds them; after the body at point `t`
    each input's buffer at its row block and the output's at `out1_2` of the two; the invariant is the scoped rest and
    the generator register, untouched; nothing owed; the shared input array held in two halves, one per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's arrays among the core's unscoped buffers

Three windows, two arrays: both input windows read `main_v47`, the output window writes `main_v48`. The core holds
`main_v47` whole when the region is entered; the two input windows get one half of that ownership each, and the halves
are joined again when the region is left. -/

/-- What bypasses the region: every unscoped buffer that is no window's array, at its entry contents. -/
def Z1 (c : Dev nD) : sProp 𝕄 :=
  Pipeline.unscopedRest (Ix := Unit) (Name := ℕ) (U := UR sig nD τ) (Lvl := ℕ) spec1 c (V c)

/-- The windows' arrays are two buffers. -/
theorem image_arrRef1 : Finset.univ.image (Pipeline.arrRef spec1) = ({main_v47, main_v48} : Finset (Ref sig .tc)) := by decide

/-- The buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v47) ↦{fullShare} V' main_v47) ∗ (((c : Thread nD τ).loc main_v48) ↦{fullShare} V' main_v48)) := by
  unfold Pipeline.arrBufs
  rw [image_arrRef1, BI.bigSep_insert (by decide), BI.bigSep_singleton]
  rfl

/-- A core's unscoped buffers at contents `V'` are the two buffers behind the windows' arrays and the rest. -/
theorem unscopedBufs1_eq (c : Dev nD) (V' : (b : Ref sig .tc) → Buf (Elt F) ((c : Thread nD τ).loc b)) :
    (unscopedBufs (Ix := Unit) (Name := ℕ) (U := UR sig nD τ) (Lvl := ℕ) c V' : sProp 𝕄)
      = iprop(((((c : Thread nD τ).loc main_v47) ↦{fullShare} V' main_v47) ∗ (((c : Thread nD τ).loc main_v48) ↦{fullShare} V' main_v48))
          ∗ Pipeline.unscopedRest spec1 c V') := by
  have hsplit : (unscopedBufs (Ix := Unit) (Name := ℕ) (U := UR sig nD τ) (Lvl := ℕ) c V' : sProp 𝕄)
      = iprop((Pipeline.arrBufs spec1 c V' : sProp 𝕄) ∗ Pipeline.unscopedRest spec1 c V') :=
    Pipeline.unscopedBufs_split₀ (Ix := Unit) (Name := ℕ) (U := UR sig nD τ) (Lvl := ℕ) cfgs (1 : Fin 2) winFacts₀1.arr_unscoped c V'
  rw [hsplit, arrBufs1_eq]

/-- The proof data's arrays, window by window: each is a whole buffer; the two input windows hold `main_v47` at one half
    each, the output window holds `main_v48` whole. -/
theorem arrays1_eq (c : Dev nD) (G : (w : Fin cfg1.W) → Buf (Elt F) ((cfg1.win w).arr.view.loc (c : Thread nD τ))) :
    (dat1 V c).arrays G = (iprop((((c : Thread nD τ).loc main_v47) ↦{fullShare.left} G 0) ∗ (((c : Thread nD τ).loc main_v47) ↦{fullShare.right} G 1)
      ∗ (((c : Thread nD τ).loc main_v48) ↦{fullShare} G 2)) : sProp 𝕄) := by
  have hq0 : (dat1 V c).share 0 = fullShare.left := rfl
  have hq1 : (dat1 V c).share 1 = fullShare.right := rfl
  have hq2 : (dat1 V c).share 2 = fullShare := rfl
  unfold Dat.arrays
  rw [bigSep_W1, (arr_whole1 0).set_eq_univ, (arr_whole1 2).set_eq_univ, hq0, hq1, hq2]

/-- The proof data's arrays at contents that agree on the shared array are the two buffers whole: the halves of
    `main_v47` joined (and, read the other way, dealt). -/
theorem arrays1_iff (c : Dev nD) (G : (w : Fin cfg1.W) → Buf (Elt F) ((cfg1.win w).arr.view.loc (c : Thread nD τ)))
    (h01 : (G 1 : Buf (Elt F) ((c : Thread nD τ).loc main_v47)) = G 0) :
    (dat1 V c).arrays G ⊣⊢ (iprop((((c : Thread nD τ).loc main_v47) ↦{fullShare} G 0) ∗ (((c : Thread nD τ).loc main_v48) ↦{fullShare} G 2)) : sProp 𝕄) := by
  have hs : ((((c : Thread nD τ).loc main_v47) ↦{fullShare} G 0) : sProp 𝕄)
      ⊣⊢ iprop((((c : Thread nD τ).loc main_v47) ↦{fullShare.left} G 0) ∗ (((c : Thread nD τ).loc main_v47) ↦{fullShare.right} G 0)) :=
    pointsTo_share (PosShare.mem_left_op_right fullShare)
  rw [arrays1_eq, h01]
  constructor
  · iintro ⟨H0, H1, H2⟩
    isplitl [H0 H1]
    · iapply hs.2; isplitl [H0] <;> iassumption
    iexact H2
  · iintro ⟨H, H2⟩
    ihave H' := hs.1 $$ H
    icases H' with ⟨H0, H1⟩
    isplitl [H0]; · iexact H0
    isplitl [H1]; · iexact H1
    iexact H2

/-- ENTRY: the core's unscoped buffers, held at a valuation that reads `V c` at the TensorCore's references, are the
    proof data's arrays at their entry contents and the rest. -/
theorem entry1 (c : Dev nD) (W : Valuation τ sig (Elt F)) (hW : ∀ b : Ref sig .tc, V c b = W (Proc.devRef .tc b)) :
    (StableHlo.held (c : Thread nD τ) (Pipeline.ucRefs τ sig) W : sProp 𝕄)
      ⊢ |={Set.univ}=> iprop((dat1 V c).arrays ((dat1 V c).arrAt · 0) ∗ Z1 V c) := by
  have hV : (fun b : Ref sig .tc => W b) = V c := funext fun b => (hW b).symm
  rw [← Pipeline.unscopedBufs_held (Ix := Unit) (Name := ℕ) (U := UR sig nD τ) (Lvl := ℕ) c W, hV, unscopedBufs1_eq]
  unfold Z1
  iintro ⟨Ha, Hr⟩
  imodintro
  isplitl [Ha]
  · iapply (arrays1_iff V c ((dat1 V c).arrAt · 0) rfl).2
    iexact Ha
  iexact Hr

/-- EXIT: the arrays as the pipeline leaves them — the shared input as entered, the output at its write-backs folded —
    and the rest are the core's unscoped buffers at the entry valuation updated at the output array. -/
theorem exit1 (c : Dev nD) (W W' : Valuation τ sig (Elt F)) (hW : ∀ b : Ref sig .tc, V c b = W (Proc.devRef .tc b))
    (hW' : W' = Function.update W (Proc.devRef .tc main_v48) ((dat1 V c).arrAt 2 cfg1.N)) :
    (iprop((dat1 V c).arrays ((dat1 V c).arrAt · cfg1.N) ∗ Z1 V c) : sProp 𝕄)
      ⊢ |={Set.univ}=> StableHlo.held (c : Thread nD τ) (Pipeline.ucRefs τ sig) W' := by
  have h47 : W' (Proc.devRef .tc main_v47) = (dat1 V c).arrAt 0 cfg1.N := by
    rw [hW', Function.update_of_ne (StableHlo.devRef_ne_of_ne (by decide)), ← hW, (dat1 V c).arrAt_in 0 rfl]; rfl
  have h48 : W' (Proc.devRef .tc main_v48) = (dat1 V c).arrAt 2 cfg1.N := by
    rw [hW', Function.update_self]
  have h10 : ((dat1 V c).arrAt 1 cfg1.N : Buf (Elt F) ((c : Thread nD τ).loc main_v47)) = (dat1 V c).arrAt 0 cfg1.N := by
    rw [(dat1 V c).arrAt_in 0 rfl, (dat1 V c).arrAt_in 1 rfl]; rfl
  have hrest : (Pipeline.unscopedRest (Ix := Unit) (Name := ℕ) (U := UR sig nD τ) (Lvl := ℕ) spec1 c (fun b : Ref sig .tc => W' b) : sProp 𝕄)
      = Pipeline.unscopedRest spec1 c (V c) := by
    unfold Pipeline.unscopedRest
    refine bigSep_congr fun b hb => ?_
    have hb' : b ≠ main_v48 := fun e => (Finset.mem_sdiff.mp hb).2 (by rw [image_arrRef1, e]; decide)
    beta_reduce
    rw [hW b, hW', Function.update_of_ne (StableHlo.devRef_ne_of_ne hb')]
  have hheld : (StableHlo.held (c : Thread nD τ) (Pipeline.ucRefs τ sig) W' : sProp 𝕄)
      = iprop(((((c : Thread nD τ).loc main_v47) ↦{fullShare} (dat1 V c).arrAt 0 cfg1.N) ∗ (((c : Thread nD τ).loc main_v48) ↦{fullShare} (dat1 V c).arrAt 2 cfg1.N))
          ∗ Pipeline.unscopedRest spec1 c (V c)) := by
    rw [← Pipeline.unscopedBufs_held (Ix := Unit) (Name := ℕ) (U := UR sig nD τ) (Lvl := ℕ) c W', unscopedBufs1_eq, hrest]
    beta_reduce
    rw [h47, h48]
  rw [hheld]
  unfold Z1
  iintro ⟨Ha, Hr⟩
  imodintro
  isplitl [Ha]
  · iapply (arrays1_iff V c ((dat1 V c).arrAt · cfg1.N) h10).1
    iexact Ha
  iexact Hr

end Cert.Kernel.Hand1

end
-- ==== Proof.K.Run.lean ====
import proofs.«100069_j65712999629271_2_alg».proof.Proof.K.R0Body
import proofs.«100069_j65712999629271_2_alg».proof.Proof.K.Region1
import proofs.«100069_j65712999629271_2_alg».proof.Proof.Gen.Kernel.Regions

set_option maxRecDepth 16384

noncomputable section

namespace Cert.Kernel.HandRun

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: host operations, the aggregation call, one conversion, the decoding call -/

/-- Core c's buffers at launch, -/
abbrev W0 : Dev nD → Valuation τ sig (Elt F) := fun c b => m (c, b)
/-- after the host operations before the first call, -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the first call: its arrays at what its write-backs leave, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the conversion between the calls, -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- and after the second call: its result array at what its write-backs leave. -/
def W4 (c : Dev nD) : Valuation τ sig (Elt F) :=
  Function.update (W3 m c) (Proc.devRef .tc main_v48) ((dat1 (V3 m) c).arrAt 2 cfg1.N)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The aggregation call: entered from every unscoped buffer at W1, left at W2; its arrays split out of the unscoped
    buffers and put back at the exit contents; the generator register into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoding call: entered from every unscoped buffer at W3, left at W4. Its two input windows read one array,
    held in two halves while the call runs; the output array is put back at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Z1 (V3 m) c
  hentry c := by
    rw [Pipeline.ownSems0_none]
    iintro ⟨⟨Hub, Hp, HO⟩, -, -⟩
    imod (entry1 (V3 m) c (W3 m c) (fun _ => rfl)) $$ [Hub] with H
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imod (exit1 (V3 m) c (W3 m c) (W4 m c) (fun _ => rfl) rfl) $$ [Ha Hrest] with Hh
    · isplitl [Ha]; · iexact Ha
      iexact Hrest
    imodintro
    isplitl [Hh HY]
    · isplitl [Hh]; · iexact Hh
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state holds every unscoped buffer of every core at the last boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds -/

/-- An argument array reaches the end as launched: no host operation writes it and no call may change it. -/
theorem W4_arg (c : Dev nD) (r : Ref sig .tc) (h4 : r ≠ main_v48) (h3 : r ∉ hostOps1_W) (h2 : ∀ w, Pipeline.arrRef spec0 w ≠ r) (h1 : r ∉ hostOps0_W) :
    W4 m c (Proc.devRef .tc r) = m ((c : Thread nD τ).loc r) := by
  unfold W4
  rw [Function.update_of_ne (StableHlo.devRef_ne_of_ne h4)]
  exact (StableHlo.after_of_writes_sub hostOps1 _ hostOps1_writes h3).trans
    ((W2_of_ne m c r h2).trans (StableHlo.after_of_writes_sub hostOps0 _ hostOps0_writes h1))

/-- The second result (the aggregation's output array) is what the first call's write-backs leave. -/
theorem W4_v46 (c : Dev nD) : W4 m c (Proc.devRef .tc main_v46) = (dat0 (V1 m) c).arrAt 3 cfg0.N := by
  unfold W4
  rw [Function.update_of_ne (StableHlo.devRef_ne_of_ne (by decide))]
  exact (StableHlo.after_of_writes_sub hostOps1 _ hostOps1_writes (by decide)).trans (W2_arr m c 3)

/-- The first result (the decoder's output array) is what the second call's write-backs leave. -/
theorem W4_v48 (c : Dev nD) : W4 m c (Proc.devRef .tc main_v48) = (dat1 (V3 m) c).arrAt 2 cfg1.N := by
  unfold W4; rw [Function.update_self]

/-- THE FRAME at any F: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩) (run_main m ρ)

end Cert.Kernel.HandRun

end
-- ==== Proof.KI.R0RunZ.lean ====
import proofs.«100069_j65712999629271_2_alg».proof.Proof.Gen.KernelIdeal.Launch
import proofs.«100069_j65712999629271_2_alg».proof.Proof.Gen.KernelIdeal.Skeleton
import proofs.«100069_j65712999629271_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The accumulating kernel of the first call, case by case. The grid is 8 x 8, the second coordinate k the
    reduction step: at k = 0 the accumulator is cleared before the block product is added, at k = 7 the
    output block max (acc + bias, 0) is stored after it; in between only the product is added. -/

/-- The accumulator is cleared at this point: k = 0. -/
abbrev condZ (i : grid0.Coords) : Prop :=
  (Scalar.cmpi .ne (Scalar.extui (Scalar.cmpi .eq (BitVec.ofNat 32 (i 1).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- The output block is stored at this point: k = 7. -/
abbrev condL (i : grid0.Coords) : Prop := k0_cond2 i = 1#1
theorem hcondL : ∀ t : Fin cfg0.N, condL (grid0.coords t) ↔ t.val % 8 = 7 :=
  (by decide +kernel : ∀ t : Fin grid0.N, condL (grid0.coords t) ↔ t.val % 8 = 7)

/-- The output window is idle exactly where nothing is stored into it, and written back only after k = 7. -/
theorem idle3_of_not : ∀ t : Fin cfg0.N, ¬condL (grid0.coords t) → cfg0.idle 3 (grid0.coords t) = true := by decide +kernel
theorem noFlush3_of_not : ∀ t : Fin cfg0.N, ¬condL (grid0.coords t) → (cfg0.win 3).flush t = false := by decide +kernel
theorem live3_of : ∀ t : Fin cfg0.N, condL (grid0.coords t) → cfg0.idle 3 (grid0.coords t) = false := by decide +kernel
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The staging memrefs at a point as the pipeline passes them, and the accumulator scratch. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev scM : Memref sig .tc .vmem S1024x128 .f32 := Memref.whole cc0_scratch0
abbrev VS : View sig .tc .vmem S1024x128 .f32 := scM.view
abbrev VO : View sig .tc .vmem S1024x128 .f32 := (Memref.whole cc0_stg3_0 : Memref sig .tc .vmem S1024x128 .f32).view

set_option maxHeartbeats 4000000 in
/-- k = 0: the accumulator, whatever it held, is cleared and the block product added; the output buffer is handed back untouched. -/
noncomputable def runZ (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : condZ i) (hcl : ¬condL i)
    (x2 : Vec F S1024x1024 .bf16) (x3 : Vec F S1024x128 .bf16) (x4 : Vec F S1x128 .f32) :
    { LS : List (View.Piece (Elt F) S1024x128 .f32) //
      ∀ (xi5 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ (∃ d, owns (c : Thread nD τ) arg6 fullShare d)
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, fun xi5 E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4; obtain rfl := harg5.eq_unread hf5
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

end Cert.KernelIdeal.Hand0

end
-- ==== Proof.KI.R0RunM.lean ====
import proofs.«100069_j65712999629271_2_alg».proof.Proof.KI.R0RunZ

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- 0 < k < 7: the block product is added to the accumulator the step before left; the output buffer is handed back untouched. -/
noncomputable def runM (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : ¬condZ i) (hcl : ¬condL i)
    (x2 : Vec F S1024x1024 .bf16) (x3 : Vec F S1024x128 .bf16) (x4 : Vec F S1x128 .f32) (xs : Vec F S1024x128 .f32) :
    { LS : List (View.Piece (Elt F) S1024x128 .f32) //
      ∀ (xi5 : Vec F S1024x128 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xs
            ∗ (iprop(owns (c : Thread nD τ) arg2 fullShare x2 ∗ owns (c : Thread nD τ) arg3 fullShare x3 ∗ owns (c : Thread nD τ) arg4 fullShare x4 ∗ owns (c : Thread nD τ) arg5 fullShare xi5 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, fun xi5 E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4; obtain rfl := harg5.eq_unread hf5; obtain rfl := harg6.eq_unread hfs
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact HS

end Cert.KernelIdeal.Hand0

end
-- ==== Proof.KI.R0RunL.lean ====
import proofs.«100069_j65712999629271_2_alg».proof.Proof.KI.R0RunM

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- k = 7: the last block product is added and max (acc + bias, 0) stored into the output buffer, whatever it held. -/
noncomputable def runL (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hcz : ¬condZ i) (hcl : condL i)
    (x2 : Vec F S1024x1024 .bf16) (x3 : Vec F S1024x128 .bf16) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare xs
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f2, %hf2, H2⟩, ⟨%f3, %hf3, H3⟩, ⟨%f4, %hf4, H4⟩, ⟨%d5, %f5, -, H5⟩, ⟨%fs, %hfs, HS⟩, Hk⟩
    obtain rfl := harg2.eq_unread hf2; obtain rfl := harg3.eq_unread hf3; obtain rfl := harg4.eq_unread hf4; obtain rfl := harg6.eq_unread hfs
    sl_exec (disch := first | exact hcz | exact hcl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact HS

end Cert.KernelIdeal.Hand0

end
-- ==== Proof.KI.R0Frame.lean ====
import proofs.«100069_j65712999629271_2_alg».proof.Proof.KI.R0RunL

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The three cases at a point of the grid -/

/-- The run of case k = 0 at point t on the point's own memrefs. -/
abbrev runZ_at (c : Dev nD) (t : Fin cfg0.N) (hz : t.val % 8 = 0) (hl : ¬t.val % 8 = 7) (x2 : Vec F S1024x1024 .bf16) (x3 : Vec F S1024x128 .bf16) (x4 : Vec F S1x128 .f32) :=
  runZ c (grid0.coords t) (ms0 t) (hs0 t) (ms1 t) (hs1 t) (ms2 t) (hs2 t) (ms3 t) (hs3 t) scM (Memref.isWhole_whole _) ((hcondZ t).mpr hz) (fun h => hl ((hcondL t).mp h)) x2 x3 x4
abbrev runM_at (c : Dev nD) (t : Fin cfg0.N) (hz : ¬t.val % 8 = 0) (hl : ¬t.val % 8 = 7) (x2 : Vec F S1024x1024 .bf16) (x3 : Vec F S1024x128 .bf16) (x4 : Vec F S1x128 .f32) (xs : Vec F S1024x128 .f32) :=
  runM c (grid0.coords t) (ms0 t) (hs0 t) (ms1 t) (hs1 t) (ms2 t) (hs2 t) (ms3 t) (hs3 t) scM (Memref.isWhole_whole _) (fun h => hz ((hcondZ t).mp h)) (fun h => hl ((hcondL t).mp h)) x2 x3 x4 xs
abbrev runL_at (c : Dev nD) (t : Fin cfg0.N) (hz : ¬t.val % 8 = 0) (hl : t.val % 8 = 7) (x2 : Vec F S1024x1024 .bf16) (x3 : Vec F S1024x128 .bf16) (x4 : Vec F S1x128 .f32) (xs : Vec F S1024x128 .f32) :=
  runL c (grid0.coords t) (ms0 t) (hs0 t) (ms1 t) (hs1 t) (ms2 t) (hs2 t) (ms3 t) (hs3 t) scM (Memref.isWhole_whole _) (fun h => hz ((hcondZ t).mp h)) ((hcondL t).mpr hl) x2 x3 x4 xs

/-- Each case's stores tile the accumulator (and, at k = 7, the output block), so they cover it. -/
theorem scoverZ (c : Dev nD) (t : Fin cfg0.N) (hz : t.val % 8 = 0) (hl : ¬t.val % 8 = 7) (x2 x3 x4) (y : S1024x128.Idx) :
    ∃ pc ∈ (runZ_at (F := F) c t hz hl x2 x3 x4).1, y ∈ pc.1.set :=
  View.cover_of_tiledL (runZ_at (F := F) c t hz hl x2 x3 x4).1 S1024x128.size (by sl_kernel_rfl) y
theorem scoverM (c : Dev nD) (t : Fin cfg0.N) (hz : ¬t.val % 8 = 0) (hl : ¬t.val % 8 = 7) (x2 x3 x4 xs) (y : S1024x128.Idx) :
    ∃ pc ∈ (runM_at (F := F) c t hz hl x2 x3 x4 xs).1, y ∈ pc.1.set :=
  View.cover_of_tiledL (runM_at (F := F) c t hz hl x2 x3 x4 xs).1 S1024x128.size (by sl_kernel_rfl) y
theorem scoverL (c : Dev nD) (t : Fin cfg0.N) (hz : ¬t.val % 8 = 0) (hl : t.val % 8 = 7) (x2 x3 x4 xs) (y : S1024x128.Idx) :
    ∃ pc ∈ (runL_at (F := F) c t hz hl x2 x3 x4 xs).2.1, y ∈ pc.1.set :=
  View.cover_of_tiledL (runL_at (F := F) c t hz hl x2 x3 x4 xs).2.1 S1024x128.size (by sl_kernel_rfl) y
theorem ocoverL (c : Dev nD) (t : Fin cfg0.N) (hz : ¬t.val % 8 = 0) (hl : t.val % 8 = 7) (x2 x3 x4 xs) (y : S1024x128.Idx) :
    ∃ pc ∈ (runL_at (F := F) c t hz hl x2 x3 x4 xs).1, y ∈ pc.1.set :=
  View.cover_of_tiledL (runL_at (F := F) c t hz hl x2 x3 x4 xs).1 S1024x128.size (by sl_kernel_rfl) y

/-- What each case leaves in the accumulator, and the last case in the output block: the pieces read back. -/
def soutZ (c : Dev nD) (t : Fin cfg0.N) (hz : t.val % 8 = 0) (hl : ¬t.val % 8 = 7) : Vec F S1024x128 .f32 :=
  VS.read (Elt F) (VS.writes (Elt F) VS.junk (runZ_at c t hz hl (iblk0 V c 0 t) (iblk0 V c 1 t) (iblk0 V c 2 t)).1)
def soutM (c : Dev nD) (t : Fin cfg0.N) (hz : ¬t.val % 8 = 0) (hl : ¬t.val % 8 = 7) (xs : Vec F S1024x128 .f32) : Vec F S1024x128 .f32 :=
  VS.read (Elt F) (VS.writes (Elt F) VS.junk (runM_at c t hz hl (iblk0 V c 0 t) (iblk0 V c 1 t) (iblk0 V c 2 t) xs).1)
def soutL (c : Dev nD) (t : Fin cfg0.N) (hz : ¬t.val % 8 = 0) (hl : t.val % 8 = 7) (xs : Vec F S1024x128 .f32) : Vec F S1024x128 .f32 :=
  VS.read (Elt F) (VS.writes (Elt F) VS.junk (runL_at c t hz hl (iblk0 V c 0 t) (iblk0 V c 1 t) (iblk0 V c 2 t) xs).2.1)
def outL (c : Dev nD) (t : Fin cfg0.N) (hz : ¬t.val % 8 = 0) (hl : t.val % 8 = 7) (xs : Vec F S1024x128 .f32) : Vec F S1024x128 .f32 :=
  VO.read (Elt F) (VO.writes (Elt F) VO.junk (runL_at c t hz hl (iblk0 V c 0 t) (iblk0 V c 1 t) (iblk0 V c 2 t) xs).1)
/-- Where nothing is stored into the output block it is not written back and nothing reads this value. -/
def outIdle : Vec F S1024x128 .f32 := VO.read (Elt F) (VO.writes (Elt F) VO.junk [])

/-! ## The accumulation, point by point -/

/-- What the output's staging buffer and the accumulator hold after the body at position n. -/
def stepAt (c : Dev nD) : (n : ℕ) → n < cfg0.N → Vec F S1024x128 .f32 × Vec F S1024x128 .f32
  | 0, hn => (outIdle, soutZ V c ⟨0, hn⟩ (Nat.zero_mod _) (by show ¬ (0 : ℕ) % 8 = 7; decide))
  | n + 1, hn =>
    if h0 : (n + 1) % 8 = 0 then
      if h7 : (n + 1) % 8 = 7 then False.elim (by omega)
      else (outIdle, soutZ V c ⟨n + 1, hn⟩ h0 h7)
    else
      if h7 : (n + 1) % 8 = 7 then
        (outL V c ⟨n + 1, hn⟩ h0 h7 (stepAt c n (Nat.lt_of_succ_lt hn)).2, soutL V c ⟨n + 1, hn⟩ h0 h7 (stepAt c n (Nat.lt_of_succ_lt hn)).2)
      else
        (outIdle, soutM V c ⟨n + 1, hn⟩ h0 h7 (stepAt c n (Nat.lt_of_succ_lt hn)).2)

theorem stepAt_Z (c : Dev nD) (t : Fin cfg0.N) (h0 : t.val % 8 = 0) (h7 : ¬t.val % 8 = 7) :
    stepAt V c t.val t.isLt = (outIdle, soutZ V c t h0 h7) := by
  obtain ⟨n, hn⟩ := t
  cases n with
  | zero => exact rfl
  | succ n => exact (dif_pos h0).trans ((dif_neg h7).trans rfl)
theorem stepAt_M (c : Dev nD) (t : Fin cfg0.N) (h0 : ¬t.val % 8 = 0) (h7 : ¬t.val % 8 = 7) :
    stepAt V c t.val t.isLt = (outIdle, soutM V c t h0 h7 (stepAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h7).trans rfl)
theorem stepAt_L (c : Dev nD) (t : Fin cfg0.N) (h0 : ¬t.val % 8 = 0) (h7 : t.val % 8 = 7) :
    stepAt V c t.val t.isLt = (outL V c t h0 h7 (stepAt V c (t.val - 1) (Nat.lt_of_le_of_lt (Nat.sub_le _ _) t.isLt)).2, soutL V c t h0 h7 (stepAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h7).trans rfl)

/-! ## The region's invariant: the accumulator at what the point before left -/

/-- The other scoped buffers of the core (the second call's staging buffers), each at some contents. -/
def Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄) = iprop(iprop((∃ d, owns (c : Thread nD τ) scM fullShare d) ∗ Rest6 (F := F) c) ∗ (∃ r, prngReg c r)) := by
  unfold Pipeline.ΦA; rw [scopedRest0_eq]; simp only [scM, owns_whole, Rest6]; try rfl

def PhiS (c : Dev nD) : (n : ℕ) → n ≤ cfg0.N → sProp 𝕄
  | 0, _ => Pipeline.ΦA spec0 c
  | n + 1, hn => iprop(iprop(owns (c : Thread nD τ) scM fullShare ((stepAt V c n hn).2) ∗ Rest6 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((stepAt V c n hn).2) ∗ Rest6 (F := F) c) ∗ (∃ r, prngReg c r)) := rfl
theorem PhiS_pos (c : Dev nD) (n : ℕ) (h : n ≤ cfg0.N) (hz : n ≠ 0) :
    PhiS V c n h = iprop(iprop(owns (c : Thread nD τ) scM fullShare ((stepAt V c (n - 1) (by omega)).2) ∗ Rest6 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (stepAt V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (stepAt V c t.val t.isLt).1 := by dsimp only [dat0]
theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d

end Region0

end Cert.KernelIdeal.Hand0

end
-- ==== Proof.KI.R0Body.lean ====
import proofs.«100069_j65712999629271_2_alg».proof.Proof.KI.R0Frame

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the step k decides the case; the invariant hands
    the body the accumulator at what the point before left (anything at the very first point) and takes it back at
    this point's contents; the output buffer is handed back untouched except at k = 7. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  by_cases h0 : t.val % 8 = 0
  · have h7 : ¬t.val % 8 = 7 := by omega
    rw [Dat.leavesExact_idle (dat0 V c) 3 t (idle3_of_not t (fun h => h7 ((hcondL t).mp h))) (noFlush3_of_not t (fun h => h7 ((hcondL t).mp h)))]
    rw [stepAt_Z V c t h0 h7]
    unfold soutZ; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩⟩
      iapply ((runZ_at c t h0 h7 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverZ c t h0 h7 _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runZ_at c t h0 h7 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverZ c t h0 h7 _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h7 : t.val % 8 = 7
    · rw [show (dat0 V c).leavesExact 3 t = owns (c : Thread nD τ) (ms3 t) fullShare ((dat0 V c).after 3 t) from by
        unfold Dat.leavesExact; rw [live3_of t ((hcondL t).mpr h7)], after0_3]
      rw [stepAt_L V c t h0 h7]
      unfold outL soutL; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runL_at c t h0 h7 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scoverL c t h0 h7 _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverL c t h0 h7 _ _ _ _)
    · rw [Dat.leavesExact_idle (dat0 V c) 3 t (idle3_of_not t (fun h => h7 ((hcondL t).mp h))) (noFlush3_of_not t (fun h => h7 ((hcondL t).mp h)))]
      rw [stepAt_M V c t h0 h7]
      unfold soutM; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((runM_at c t h0 h7 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scoverM c t h0 h7 _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end Region0

end Cert.KernelIdeal.Hand0

end
-- ==== Proof.KI.Region1.lean ====
/- Region 1 of @main, the decode kernel: each grid point (i, j) of the 8 × 8 grid reads two row blocks of the
   array z (rows 1024·i … and rows 1024·j …, all 128 columns), multiplies the first by the transpose of the second
   and writes one half of (tanh of one half of that product, plus one) to block (i, j) of the output. Both input
   windows read the SAME array, so the array's ownership is dealt between them in two halves. Everything here is
   stated at a parameter V, the TensorCore's buffer contents when the region is entered. -/
import proofs.«100069_j65712999629271_2_alg».proof.Proof.Gen.KernelIdeal.Launch
import proofs.«100069_j65712999629271_2_alg».proof.Proof.Gen.KernelIdeal.Skeleton
import proofs.«100069_j65712999629271_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's staging buffer holds its row block at every point, fetched there or not: where it is
    not fetched the block index has not moved. For any proof data over the entry arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is of a whole staging buffer -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The output window's staging buffer after the body, from the two row blocks: its one store, of the payload of the
    two loads. -/
def out1_2 (x0 x1 : Vec F S1024x128 .bf16) : Vec F S1024x1024 .f32 :=
  View.canon [⟨rOut, k1_pay1 (View.ld x0 rIn) (View.ld x1 rIn)⟩]

/-- The one store covers the buffer. -/
theorem cover1_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging memrefs, the two inputs' at contents `x0`, `x1` and the output's at anything (the body
    loads it once, a value nothing reads), runs to the continuation holding the inputs' as they were and the output's at
    `out1_2 x0 x1`. -/
theorem sound_kernel1 (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__decode_kernel i arg2 harg2 arg3 harg3 arg4 harg4) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the decode pipeline on core `c`: the arrays as the region finds them; after the body at point `t`
    each input's buffer at its row block and the output's at `out1_2` of the two; the invariant is the scoped rest and
    the generator register, untouched; nothing owed; the shared input array held in two halves, one per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's arrays among the core's unscoped buffers

Three windows, two arrays: both input windows read `main_v47`, the output window writes `main_v48`. The core holds
`main_v47` whole when the region is entered; the two input windows get one half of that ownership each, and the halves
are joined again when the region is left. -/

/-- What bypasses the region: every unscoped buffer that is no window's array, at its entry contents. -/
def Z1 (c : Dev nD) : sProp 𝕄 :=
  Pipeline.unscopedRest (Ix := Unit) (Name := ℕ) (U := UR sig nD τ) (Lvl := ℕ) spec1 c (V c)

/-- The windows' arrays are two buffers. -/
theorem image_arrRef1 : Finset.univ.image (Pipeline.arrRef spec1) = ({main_v47, main_v48} : Finset (Ref sig .tc)) := by decide

/-- The buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v47) ↦{fullShare} V' main_v47) ∗ (((c : Thread nD τ).loc main_v48) ↦{fullShare} V' main_v48)) := by
  unfold Pipeline.arrBufs
  rw [image_arrRef1, BI.bigSep_insert (by decide), BI.bigSep_singleton]
  rfl

/-- A core's unscoped buffers at contents `V'` are the two buffers behind the windows' arrays and the rest. -/
theorem unscopedBufs1_eq (c : Dev nD) (V' : (b : Ref sig .tc) → Buf (Elt F) ((c : Thread nD τ).loc b)) :
    (unscopedBufs (Ix := Unit) (Name := ℕ) (U := UR sig nD τ) (Lvl := ℕ) c V' : sProp 𝕄)
      = iprop(((((c : Thread nD τ).loc main_v47) ↦{fullShare} V' main_v47) ∗ (((c : Thread nD τ).loc main_v48) ↦{fullShare} V' main_v48))
          ∗ Pipeline.unscopedRest spec1 c V') := by
  have hsplit : (unscopedBufs (Ix := Unit) (Name := ℕ) (U := UR sig nD τ) (Lvl := ℕ) c V' : sProp 𝕄)
      = iprop((Pipeline.arrBufs spec1 c V' : sProp 𝕄) ∗ Pipeline.unscopedRest spec1 c V') :=
    Pipeline.unscopedBufs_split₀ (Ix := Unit) (Name := ℕ) (U := UR sig nD τ) (Lvl := ℕ) cfgs (1 : Fin 2) winFacts₀1.arr_unscoped c V'
  rw [hsplit, arrBufs1_eq]

/-- The proof data's arrays, window by window: each is a whole buffer; the two input windows hold `main_v47` at one half
    each, the output window holds `main_v48` whole. -/
theorem arrays1_eq (c : Dev nD) (G : (w : Fin cfg1.W) → Buf (Elt F) ((cfg1.win w).arr.view.loc (c : Thread nD τ))) :
    (dat1 V c).arrays G = (iprop((((c : Thread nD τ).loc main_v47) ↦{fullShare.left} G 0) ∗ (((c : Thread nD τ).loc main_v47) ↦{fullShare.right} G 1)
      ∗ (((c : Thread nD τ).loc main_v48) ↦{fullShare} G 2)) : sProp 𝕄) := by
  have hq0 : (dat1 V c).share 0 = fullShare.left := rfl
  have hq1 : (dat1 V c).share 1 = fullShare.right := rfl
  have hq2 : (dat1 V c).share 2 = fullShare := rfl
  unfold Dat.arrays
  rw [bigSep_W1, (arr_whole1 0).set_eq_univ, (arr_whole1 2).set_eq_univ, hq0, hq1, hq2]

/-- The proof data's arrays at contents that agree on the shared array are the two buffers whole: the halves of
    `main_v47` joined (and, read the other way, dealt). -/
theorem arrays1_iff (c : Dev nD) (G : (w : Fin cfg1.W) → Buf (Elt F) ((cfg1.win w).arr.view.loc (c : Thread nD τ)))
    (h01 : (G 1 : Buf (Elt F) ((c : Thread nD τ).loc main_v47)) = G 0) :
    (dat1 V c).arrays G ⊣⊢ (iprop((((c : Thread nD τ).loc main_v47) ↦{fullShare} G 0) ∗ (((c : Thread nD τ).loc main_v48) ↦{fullShare} G 2)) : sProp 𝕄) := by
  have hs : ((((c : Thread nD τ).loc main_v47) ↦{fullShare} G 0) : sProp 𝕄)
      ⊣⊢ iprop((((c : Thread nD τ).loc main_v47) ↦{fullShare.left} G 0) ∗ (((c : Thread nD τ).loc main_v47) ↦{fullShare.right} G 0)) :=
    pointsTo_share (PosShare.mem_left_op_right fullShare)
  rw [arrays1_eq, h01]
  constructor
  · iintro ⟨H0, H1, H2⟩
    isplitl [H0 H1]
    · iapply hs.2; isplitl [H0] <;> iassumption
    iexact H2
  · iintro ⟨H, H2⟩
    ihave H' := hs.1 $$ H
    icases H' with ⟨H0, H1⟩
    isplitl [H0]; · iexact H0
    isplitl [H1]; · iexact H1
    iexact H2

/-- ENTRY: the core's unscoped buffers, held at a valuation that reads `V c` at the TensorCore's references, are the
    proof data's arrays at their entry contents and the rest. -/
theorem entry1 (c : Dev nD) (W : Valuation τ sig (Elt F)) (hW : ∀ b : Ref sig .tc, V c b = W (Proc.devRef .tc b)) :
    (StableHlo.held (c : Thread nD τ) (Pipeline.ucRefs τ sig) W : sProp 𝕄)
      ⊢ |={Set.univ}=> iprop((dat1 V c).arrays ((dat1 V c).arrAt · 0) ∗ Z1 V c) := by
  have hV : (fun b : Ref sig .tc => W b) = V c := funext fun b => (hW b).symm
  rw [← Pipeline.unscopedBufs_held (Ix := Unit) (Name := ℕ) (U := UR sig nD τ) (Lvl := ℕ) c W, hV, unscopedBufs1_eq]
  unfold Z1
  iintro ⟨Ha, Hr⟩
  imodintro
  isplitl [Ha]
  · iapply (arrays1_iff V c ((dat1 V c).arrAt · 0) rfl).2
    iexact Ha
  iexact Hr

/-- EXIT: the arrays as the pipeline leaves them — the shared input as entered, the output at its write-backs folded —
    and the rest are the core's unscoped buffers at the entry valuation updated at the output array. -/
theorem exit1 (c : Dev nD) (W W' : Valuation τ sig (Elt F)) (hW : ∀ b : Ref sig .tc, V c b = W (Proc.devRef .tc b))
    (hW' : W' = Function.update W (Proc.devRef .tc main_v48) ((dat1 V c).arrAt 2 cfg1.N)) :
    (iprop((dat1 V c).arrays ((dat1 V c).arrAt · cfg1.N) ∗ Z1 V c) : sProp 𝕄)
      ⊢ |={Set.univ}=> StableHlo.held (c : Thread nD τ) (Pipeline.ucRefs τ sig) W' := by
  have h47 : W' (Proc.devRef .tc main_v47) = (dat1 V c).arrAt 0 cfg1.N := by
    rw [hW', Function.update_of_ne (StableHlo.devRef_ne_of_ne (by decide)), ← hW, (dat1 V c).arrAt_in 0 rfl]; rfl
  have h48 : W' (Proc.devRef .tc main_v48) = (dat1 V c).arrAt 2 cfg1.N := by
    rw [hW', Function.update_self]
  have h10 : ((dat1 V c).arrAt 1 cfg1.N : Buf (Elt F) ((c : Thread nD τ).loc main_v47)) = (dat1 V c).arrAt 0 cfg1.N := by
    rw [(dat1 V c).arrAt_in 0 rfl, (dat1 V c).arrAt_in 1 rfl]; rfl
  have hrest : (Pipeline.unscopedRest (Ix := Unit) (Name := ℕ) (U := UR sig nD τ) (Lvl := ℕ) spec1 c (fun b : Ref sig .tc => W' b) : sProp 𝕄)
      = Pipeline.unscopedRest spec1 c (V c) := by
    unfold Pipeline.unscopedRest
    refine bigSep_congr fun b hb => ?_
    have hb' : b ≠ main_v48 := fun e => (Finset.mem_sdiff.mp hb).2 (by rw [image_arrRef1, e]; decide)
    beta_reduce
    rw [hW b, hW', Function.update_of_ne (StableHlo.devRef_ne_of_ne hb')]
  have hheld : (StableHlo.held (c : Thread nD τ) (Pipeline.ucRefs τ sig) W' : sProp 𝕄)
      = iprop(((((c : Thread nD τ).loc main_v47) ↦{fullShare} (dat1 V c).arrAt 0 cfg1.N) ∗ (((c : Thread nD τ).loc main_v48) ↦{fullShare} (dat1 V c).arrAt 2 cfg1.N))
          ∗ Pipeline.unscopedRest spec1 c (V c)) := by
    rw [← Pipeline.unscopedBufs_held (Ix := Unit) (Name := ℕ) (U := UR sig nD τ) (Lvl := ℕ) c W', unscopedBufs1_eq, hrest]
    beta_reduce
    rw [h47, h48]
  rw [hheld]
  unfold Z1
  iintro ⟨Ha, Hr⟩
  imodintro
  isplitl [Ha]
  · iapply (arrays1_iff V c ((dat1 V c).arrAt · cfg1.N) h10).1
    iexact Ha
  iexact Hr

end Cert.KernelIdeal.Hand1

end
-- ==== Proof.KI.Run.lean ====
import proofs.«100069_j65712999629271_2_alg».proof.Proof.KI.R0Body
import proofs.«100069_j65712999629271_2_alg».proof.Proof.KI.Region1
import proofs.«100069_j65712999629271_2_alg».proof.Proof.Gen.KernelIdeal.Regions

set_option maxRecDepth 16384

noncomputable section

namespace Cert.KernelIdeal.HandRun

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: host operations, the aggregation call, one conversion, the decoding call -/

/-- Core c's buffers at launch, -/
abbrev W0 : Dev nD → Valuation τ sig (Elt F) := fun c b => m (c, b)
/-- after the host operations before the first call, -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the first call: its arrays at what its write-backs leave, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the conversion between the calls, -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- and after the second call: its result array at what its write-backs leave. -/
def W4 (c : Dev nD) : Valuation τ sig (Elt F) :=
  Function.update (W3 m c) (Proc.devRef .tc main_v48) ((dat1 (V3 m) c).arrAt 2 cfg1.N)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- The aggregation call: entered from every unscoped buffer at W1, left at W2; its arrays split out of the unscoped
    buffers and put back at the exit contents; the generator register into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoding call: entered from every unscoped buffer at W3, left at W4. Its two input windows read one array,
    held in two halves while the call runs; the output array is put back at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Z1 (V3 m) c
  hentry c := by
    rw [Pipeline.ownSems0_none]
    iintro ⟨⟨Hub, Hp, HO⟩, -, -⟩
    imod (entry1 (V3 m) c (W3 m c) (fun _ => rfl)) $$ [Hub] with H
    · iexact Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imod (exit1 (V3 m) c (W3 m c) (W4 m c) (fun _ => rfl) rfl) $$ [Ha Hrest] with Hh
    · isplitl [Ha]; · iexact Ha
      iexact Hrest
    imodintro
    isplitl [Hh HY]
    · isplitl [Hh]; · iexact Hh
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state holds every unscoped buffer of every core at the last boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds -/

/-- An argument array reaches the end as launched: no host operation writes it and no call may change it. -/
theorem W4_arg (c : Dev nD) (r : Ref sig .tc) (h4 : r ≠ main_v48) (h3 : r ∉ hostOps1_W) (h2 : ∀ w, Pipeline.arrRef spec0 w ≠ r) (h1 : r ∉ hostOps0_W) :
    W4 m c (Proc.devRef .tc r) = m ((c : Thread nD τ).loc r) := by
  unfold W4
  rw [Function.update_of_ne (StableHlo.devRef_ne_of_ne h4)]
  exact (StableHlo.after_of_writes_sub hostOps1 _ hostOps1_writes h3).trans
    ((W2_of_ne m c r h2).trans (StableHlo.after_of_writes_sub hostOps0 _ hostOps0_writes h1))

/-- The second result (the aggregation's output array) is what the first call's write-backs leave. -/
theorem W4_v46 (c : Dev nD) : W4 m c (Proc.devRef .tc main_v46) = (dat0 (V1 m) c).arrAt 3 cfg0.N := by
  unfold W4
  rw [Function.update_of_ne (StableHlo.devRef_ne_of_ne (by decide))]
  exact (StableHlo.after_of_writes_sub hostOps1 _ hostOps1_writes (by decide)).trans (W2_arr m c 3)

/-- The first result (the decoder's output array) is what the second call's write-backs leave. -/
theorem W4_v48 (c : Dev nD) : W4 m c (Proc.devRef .tc main_v48) = (dat1 (V3 m) c).arrAt 2 cfg1.N := by
  unfold W4; rw [Function.update_self]

/-- THE FRAME at any F: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩) (run_main m ρ)

end Cert.KernelIdeal.HandRun

end
-- ==== Proof.KI.R0Pieces.lean ====
/-
  The first call's accumulator and output block, case by case, as the body's arithmetic applied to the blocks.
  Each case of the body stores whole blocks only: the step k = 0 clears the accumulator and then stores the block
  product added to what it has just cleared; a step 0 < k stores the block product added to what the step before
  left; the step k = 7 moreover stores max (accumulator + bias, 0), of the accumulator it has just written, into the
  output block. Reading the stored pieces back therefore gives one closed term per case, for any float values.
-/
import proofs.«100069_j65712999629271_2_alg».proof.Proof.KI.R0Body
import Idealize.ShloMosaic.Lib.Pipeline.Value

set_option maxRecDepth 16384

noncomputable section

namespace Cert.KernelIdeal.Hand0V

open Cert.KernelIdeal Cert.KernelIdeal.Gen Cert.KernelIdeal.Hand0
open Idealize.ShloMosaic Idealize.ShloMosaic.TcCoe Idealize.ShloMosaic.Tactic
open Idealize.SL.Sem
open Idealize.ShloMosaic.Pipeline (Dat Cfg Window)

section Pieces
variable {F : FTy → Type} [FloatOps F]
variable (V : (c : Dev nD) → (b : Ref sig .tc) → Buf (Elt F) ((c : Thread nD τ).loc b))

/-- Every store and load of the body starts at the block's origin. -/
theorem origin2 : (![0, 0] : Fin 2 → Nat) = fun _ => 0 := funext fun a => by fin_cases a <;> rfl

/-- A step strictly between the first and the last: the accumulator becomes what it held plus the block product. -/
theorem soutM_eq (c : Dev nD) (t : Fin cfg0.N) (h0 : ¬t.val % 8 = 0) (h7 : ¬t.val % 8 = 7) (xs : Vec F S1024x128 .f32) :
    soutM V c t h0 h7 xs = k0_pay2 xs (iblk0 V c 0 t) (iblk0 V c 1 t) := by
  unfold soutM
  rw [View.read_writes_eq_canon _ _ _ (scoverM c t h0 h7 _ _ _ _)]
  unfold runM_at runM
  dsimp only
  rw [View.canon_unit_zero origin2]
  simp only [View.readAt_eq_ld, (hs0 t).read_unread, (hs1 t).read_unread, (Memref.isWhole_whole cc0_scratch0).read_unread,
    View.ld_unit_zero (S := S1024x128) origin2, View.ld_unit_zero (S := S1024x1024) origin2]

/-- The first step: the accumulator is cleared, and becomes the cleared block plus the block product. -/
theorem soutZ_eq (c : Dev nD) (t : Fin cfg0.N) (h0 : t.val % 8 = 0) (h7 : ¬t.val % 8 = 7) :
    soutZ V c t h0 h7 = k0_pay2 (k0_pay1 (F := F)) (iblk0 V c 0 t) (iblk0 V c 1 t) := by
  unfold soutZ
  rw [View.read_writes_eq_canon _ _ _ (scoverZ c t h0 h7 _ _ _)]
  unfold runZ_at runZ
  dsimp only
  sl_unfold_words
  rw [View.canon_cons_unit_zero (S := S1024x128) origin2, View.readCov_unit_zero (S := S1024x128) _ origin2]
  simp only [View.readAt_eq_ld, (hs0 t).read_unread, (hs1 t).read_unread,
    View.ld_unit_zero (S := S1024x128) origin2, View.ld_unit_zero (S := S1024x1024) origin2]

/-- The last step leaves in the accumulator what a middle step would, -/
theorem soutL_eq (c : Dev nD) (t : Fin cfg0.N) (h0 : ¬t.val % 8 = 0) (h7 : t.val % 8 = 7) (xs : Vec F S1024x128 .f32) :
    soutL V c t h0 h7 xs = k0_pay2 xs (iblk0 V c 0 t) (iblk0 V c 1 t) := by
  unfold soutL
  rw [View.read_writes_eq_canon _ _ _ (scoverL c t h0 h7 _ _ _ _)]
  unfold runL_at runL
  dsimp only
  sl_unfold_words
  rw [View.canon_unit_zero origin2]
  simp only [View.readAt_eq_ld, (hs0 t).read_unread, (hs1 t).read_unread, (Memref.isWhole_whole cc0_scratch0).read_unread,
    View.ld_unit_zero (S := S1024x128) origin2, View.ld_unit_zero (S := S1024x1024) origin2]

/-- and in the output block the bias added to that accumulator, cut off below at zero. -/
theorem outL_eq (c : Dev nD) (t : Fin cfg0.N) (h0 : ¬t.val % 8 = 0) (h7 : t.val % 8 = 7) (xs : Vec F S1024x128 .f32) :
    outL V c t h0 h7 xs = k0_pay3 (k0_pay2 xs (iblk0 V c 0 t) (iblk0 V c 1 t)) (iblk0 V c 2 t) := by
  unfold outL
  rw [View.read_writes_eq_canon _ _ _ (ocoverL c t h0 h7 _ _ _ _)]
  unfold runL_at runL
  dsimp only
  sl_unfold_words
  rw [View.canon_unit_zero origin2, View.readCov_unit_zero (S := S1024x128) _ origin2]
  simp only [View.readAt_eq_ld, (hs0 t).read_unread, (hs1 t).read_unread, (hs2 t).read_unread, (Memref.isWhole_whole cc0_scratch0).read_unread,
    View.ld_unit_zero (S := S1024x128) origin2, View.ld_unit_zero (S := S1024x1024) origin2, View.ld_unit_zero (S := S1x128) origin2]

end Pieces

end Cert.KernelIdeal.Hand0V

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KI.R0Pay.lean ====
/-
  The arithmetic of the first call's body read at one entry, over the extended reals. The cleared accumulator is 0
  everywhere; the accumulating step adds to the accumulator's entry (p, q) the sum over the block's 1024 columns j of
  the adjacency block's entry (p, j) times the feature block's entry (j, q) (the product is taken into a zero block,
  so nothing else is added); the closing step adds the bias row's entry q and cuts the result off below at zero.
  Changes of shape between equal shapes are the identity, and so is every change of float format.
-/
import proofs.«100069_j65712999629271_2_alg».proof.Proof.Gen.KernelIdeal.Skeleton
import proofs.«100069_j65712999629271_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand0V

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

/-- The cleared accumulator is zero at every entry. -/
theorem pay1_apply (j : S1024x128.Idx) : k0_pay1 (F := Ideal) j = 0 := by
  unfold k0_pay1
  show shapeCast S1024x128 (broadcast S1024x128 (Scalar.ofBits (F := Ideal) .f32 0x00000000#32) : FVec Ideal S1024x128 .f32) shapeCasts_S1024x128_S1024x128 j = 0
  rw [shapeCast_self]
  exact Ideal.ofBits_zero_f32

/-- The accumulating step at entry (p, q). -/
theorem pay2_apply (v3 : FVec Ideal S1024x128 .f32) (v4 : FVec Ideal S1024x1024 .bf16) (v6 : FVec Ideal S1024x128 .bf16)
    (p : Fin 1024) (q : Fin 128) :
    k0_pay2 (F := Ideal) v3 v4 v6 (ix2 p q) = v3 (ix2 p q) + ∑ j : Fin 1024, v4 (ix2 p j) * v6 (ix2 j q) := by
  unfold k0_pay2
  show shapeCast S1024x128 (addf v3 (matmul (F := Ideal) dot_S1024x1024_S1024x128_S1024x128_1_0_0_1_n_n none
      (shapeCast S1024x1024 v4 shapeCasts_S1024x1024_S1024x1024 : FVec Ideal S1024x1024 .bf16)
      (shapeCast S1024x128 v6 shapeCasts_S1024x128_S1024x128 : FVec Ideal S1024x128 .bf16)
      (constant (F := Ideal) S1024x128 .f32 0x00000000#32)) : FVec Ideal S1024x128 .f32) shapeCasts_S1024x128_S1024x128 (ix2 p q) = _
  rw [shapeCast_self, shapeCast_self, shapeCast_self]
  refine congrArg (v3 (ix2 p q) + ·) ?_
  exact Cert.LibMatmul.matmul_zero_ix2 dot_S1024x1024_S1024x128_S1024x128_1_0_0_1_n_n none rfl rfl
    (fun _ _ => rfl) (fun _ _ => rfl) (fun _ _ => rfl) (fun _ _ => rfl) v4 v6 (ix2 p q)

/-- The closing step at entry (p, q). -/
theorem pay3_apply (v16 : FVec Ideal S1024x128 .f32) (v17 : FVec Ideal S1x128 .f32) (p : Fin 1024) (q : Fin 128) :
    k0_pay3 (F := Ideal) v16 v17 (ix2 p q) = max (v16 (ix2 p q) + v17 (ix2 (0 : Fin 1) q)) 0 := by
  unfold k0_pay3
  show max (v16 (ix2 p q) + broadcastTo S1024x128 (shapeCast S1x128 v17 shapeCasts_S1x128_S1x128 : FVec Ideal S1x128 .f32) broadcasts_S1x128_S1024x128 (ix2 p q))
      (Ideal.ofBits .f32 0x00000000#32) = _
  rw [shapeCast_self, Ideal.ofBits_zero_f32]
  exact congrArg (fun e => max (v16 (ix2 p q) + e) 0) (broadcastTo_1b_ab_apply v17 broadcasts_S1x128_S1024x128 p q)

end Cert.KernelIdeal.Hand0V

end
-- ==== Proof.KI.R0Blocks.lean ====
/-
  Where the first call's windows sit in their arrays. The grid is 8 x 8 and point t is row block t / 8 at reduction
  step t % 8. The adjacency window's block at t is rows (t / 8) * 1024 ..., columns (t % 8) * 1024 ... of the dense
  adjacency; the feature window's block is rows (t % 8) * 1024 ... of the features, all 128 columns; the bias window's
  block is the whole bias row. A block's coordinate in its array is the block index times the block size plus the
  coordinate inside the block.
-/
import proofs.«100069_j65712999629271_2_alg».proof.Proof.KI.R0Frame
import Idealize.ShloMosaic.Lib.ValueIdx
import Idealize.ShloMosaic.Lib.Pipeline.Value

set_option maxRecDepth 16384

noncomputable section

namespace Cert.KernelIdeal.Hand0V

open Cert.KernelIdeal Cert.KernelIdeal.Gen Cert.KernelIdeal.Hand0
open Idealize.ShloMosaic Idealize.ShloMosaic.TcCoe Idealize.ShloMosaic.Tactic
open Idealize.SL.Sem
open Idealize.ShloMosaic.Pipeline (Dat Cfg Window)
open Idealize.ShloMosaic.ValueIdx

/-- The printed index maps, decided once over the grid. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- The adjacency block at point t, entry (p, j), is the adjacency at row (t / 8) * 1024 + p, column (t % 8) * 1024 + j. -/
theorem iblk0_0_apply (c : Dev nD) (t : Fin cfg0.N) (p j : Fin 1024) (i : S8192x8192.Idx)
    (hi0 : (i 0).val = t.val / 8 * 1024 + p.val) (hi1 : (i 1).val = t.val % 8 * 1024 + j.val) :
    (iblk0 V c 0 t : Vec F S1024x1024 .bf16) (ix2 p j) = (V c main_v43 : S8192x8192.Idx → Elt F .bf16) i := by
  obtain ⟨e0, e1, -⟩ := idx_facts0 t
  unfold iblk0
  rw [View.read_apply]
  show V c main_v43 _ = V c main_v43 _
  congr 1
  funext a
  apply Fin.ext
  match a with
  | ⟨0, _⟩ => show win0_0.index t 0 * 1024 + 1 * p.val = (i 0).val; rw [e0, hi0]; omega
  | ⟨1, _⟩ => show win0_0.index t 1 * 1024 + 1 * j.val = (i 1).val; rw [e1, hi1]; omega

/-- The feature block at point t, entry (j, q), is the features at row (t % 8) * 1024 + j, column q. -/
theorem iblk0_1_apply (c : Dev nD) (t : Fin cfg0.N) (j : Fin 1024) (q : Fin 128) (i : S8192x128.Idx)
    (hi0 : (i 0).val = t.val % 8 * 1024 + j.val) (hi1 : (i 1).val = q.val) :
    (iblk0 V c 1 t : Vec F S1024x128 .bf16) (ix2 j q) = (V c main_v44 : S8192x128.Idx → Elt F .bf16) i := by
  obtain ⟨-, -, e0, e1, -⟩ := idx_facts0 t
  unfold iblk0
  rw [View.read_apply]
  show V c main_v44 _ = V c main_v44 _
  congr 1
  funext a
  apply Fin.ext
  match a with
  | ⟨0, _⟩ => show win0_1.index t 0 * 1024 + 1 * j.val = (i 0).val; rw [e0, hi0]; omega
  | ⟨1, _⟩ => show win0_1.index t 1 * 128 + 1 * q.val = (i 1).val; rw [e1, hi1]; omega

/-- The bias block at any point is the bias row. -/
theorem iblk0_2_apply (c : Dev nD) (t : Fin cfg0.N) (q : Fin 128) :
    (iblk0 V c 2 t : Vec F S1x128 .f32) (ix2 (0 : Fin 1) q) = (V c main_v45 : S1x128.Idx → Elt F .f32) (ix2 (0 : Fin 1) q) := by
  obtain ⟨-, -, -, -, e0, e1, -⟩ := idx_facts0 t
  unfold iblk0
  rw [View.read_apply]
  show V c main_v45 _ = V c main_v45 _
  congr 1
  funext a
  apply Fin.ext
  match a with
  | ⟨0, _⟩ => show win0_2.index t 0 * 1 + 1 * 0 = 0; rw [e0]
  | ⟨1, _⟩ => show win0_2.index t 1 * 128 + 1 * q.val = q.val; rw [e1]; omega

end Blocks

end Cert.KernelIdeal.Hand0V

end
-- ==== Proof.KI.R0Value.lean ====
/-
  The value of the first call: what its output array holds after the run, entry by entry, over the extended reals.
  Row i of the output belongs to row block i / 1024; the eight points of that row block add, step by step, the eight
  block products of row i of the dense adjacency with the features, so after step k the accumulator's entry (i, q) is
  the sum of the first k + 1 block sums (an induction on the grid point: a step's accumulator is the step before's
  plus this step's block product, and the first step starts from the cleared accumulator). The last step writes the
  bias row added to that sum, cut off below at zero, and those eight write-backs tile the output array.
-/
import proofs.«100069_j65712999629271_2_alg».proof.Proof.KI.R0Pieces
import proofs.«100069_j65712999629271_2_alg».proof.Proof.KI.R0Pay
import proofs.«100069_j65712999629271_2_alg».proof.Proof.KI.R0Blocks

set_option maxRecDepth 16384

noncomputable section

namespace Cert.KernelIdeal.Hand0V

open Cert.KernelIdeal Cert.KernelIdeal.Gen Cert.KernelIdeal.Hand0
open Idealize.ShloMosaic Idealize.ShloMosaic.TcCoe Idealize.ShloMosaic.Tactic
open Idealize.SL.Sem
open Idealize.ShloMosaic.Pipeline (Dat Cfg Window)
open Idealize.ShloMosaic.ValueIdx

/-- Block kb's share of entry (i, q) of adjacency times features: the sum over that block's 1024 columns. -/
def blockSum (A : S8192x8192.Idx → EReal) (H : S8192x128.Idx → EReal) (i : Fin 8192) (q : Fin 128) (kb : Fin 8) : EReal :=
  ∑ j' : Fin 1024, A (ix2 i ⟨kb.val * 1024 + j'.val, by have := kb.isLt; have := j'.isLt; omega⟩)
    * H (ix2 ⟨kb.val * 1024 + j'.val, by have := kb.isLt; have := j'.isLt; omega⟩ q)

/-- The accumulator's entry (i, q) after n steps: zero, then one block sum more per step, first block first. -/
def accV (A : S8192x8192.Idx → EReal) (H : S8192x128.Idx → EReal) (i : Fin 8192) (q : Fin 128) : ℕ → EReal
  | 0 => 0
  | n + 1 => if h : n < 8 then accV A H i q n + blockSum A H i q ⟨n, h⟩ else accV A H i q n

theorem accV_zero (A : S8192x8192.Idx → EReal) (H : S8192x128.Idx → EReal) (i : Fin 8192) (q : Fin 128) :
    accV A H i q 0 = 0 := rfl
theorem accV_succ (A : S8192x8192.Idx → EReal) (H : S8192x128.Idx → EReal) (i : Fin 8192) (q : Fin 128) (n : ℕ) (h : n < 8) :
    accV A H i q (n + 1) = accV A H i q n + blockSum A H i q ⟨n, h⟩ := by
  show (if h : n < 8 then accV A H i q n + blockSum A H i q ⟨n, h⟩ else accV A H i q n) = _
  exact dif_pos h

/-- The output array: the bias row added to the eight block sums, cut off below at zero. -/
def outV (A : S8192x8192.Idx → EReal) (H : S8192x128.Idx → EReal) (B : S1x128.Idx → EReal) : S8192x128.Idx → EReal :=
  fun i => max (accV A H (i 0) (i 1) 8 + B (ix2 (0 : Fin 1) (i 1))) 0

/-- A block product at entry (p, q), when the two blocks are read where block kb of row i sits, is block kb's share. -/
theorem blockProd_eq (A : S8192x8192.Idx → EReal) (H : S8192x128.Idx → EReal)
    (x2 : FVec Ideal S1024x1024 .bf16) (x3 : FVec Ideal S1024x128 .bf16) (p : Fin 1024) (q : Fin 128) (i : Fin 8192) (kb : Fin 8)
    (h2 : ∀ j : Fin 1024, x2 (ix2 p j) = A (ix2 i ⟨kb.val * 1024 + j.val, by have := kb.isLt; have := j.isLt; omega⟩))
    (h3 : ∀ j : Fin 1024, x3 (ix2 j q) = H (ix2 ⟨kb.val * 1024 + j.val, by have := kb.isLt; have := j.isLt; omega⟩ q)) :
    ∑ j : Fin 1024, x2 (ix2 p j) * x3 (ix2 j q) = blockSum A H i q kb := by
  unfold blockSum
  exact Finset.sum_congr rfl fun j _ => congrArg₂ (· * ·) (h2 j) (h3 j)

/-- One step: an accumulator holding kb block sums at entry (p, q) holds kb + 1 after the step whose blocks are block kb's. -/
theorem accStep (A : S8192x8192.Idx → EReal) (H : S8192x128.Idx → EReal) (xs : FVec Ideal S1024x128 .f32)
    (x2 : FVec Ideal S1024x1024 .bf16) (x3 : FVec Ideal S1024x128 .bf16) (p : Fin 1024) (q : Fin 128) (i : Fin 8192) (kb : Fin 8)
    (h2 : ∀ j : Fin 1024, x2 (ix2 p j) = A (ix2 i ⟨kb.val * 1024 + j.val, by have := kb.isLt; have := j.isLt; omega⟩))
    (h3 : ∀ j : Fin 1024, x3 (ix2 j q) = H (ix2 ⟨kb.val * 1024 + j.val, by have := kb.isLt; have := j.isLt; omega⟩ q))
    (hxs : xs (ix2 p q) = accV A H i q kb.val) :
    k0_pay2 (F := Ideal) xs x2 x3 (ix2 p q) = accV A H i q (kb.val + 1) := by
  refine (pay2_apply xs x2 x3 p q).trans ?_
  refine (congrArg₂ (· + ·) hxs (blockProd_eq A H x2 x3 p q i kb h2 h3)).trans ?_
  exact (accV_succ A H i q kb.val kb.isLt).symm

section Value
variable (V : (c : Dev nD) → (b : Ref sig .tc) → Buf (Elt Ideal) ((c : Thread nD τ).loc b))

/-- The same step at point t of the grid, whose blocks are block t % 8 of the rows of row block t / 8. -/
theorem accStepAt (c : Dev nD) (t : Fin cfg0.N) (xs : FVec Ideal S1024x128 .f32) (p : Fin 1024) (q : Fin 128) (i : Fin 8192)
    (hi : i.val = t.val / 8 * 1024 + p.val) (k : ℕ) (hk : k = t.val % 8)
    (hxs : xs (ix2 p q) = accV (V c main_v43 : S8192x8192.Idx → EReal) (V c main_v44 : S8192x128.Idx → EReal) i q k) :
    k0_pay2 (F := Ideal) xs (iblk0 V c 0 t) (iblk0 V c 1 t) (ix2 p q)
      = accV (V c main_v43 : S8192x8192.Idx → EReal) (V c main_v44 : S8192x128.Idx → EReal) i q (k + 1) := by
  have hk8 : k < 8 := by omega
  exact accStep (V c main_v43 : S8192x8192.Idx → EReal) (V c main_v44 : S8192x128.Idx → EReal) xs (iblk0 V c 0 t) (iblk0 V c 1 t) p q i ⟨k, hk8⟩
    (fun j => iblk0_0_apply V c t p j (ix2 i ⟨k * 1024 + j.val, by have := j.isLt; omega⟩) hi (by show k * 1024 + j.val = _; rw [hk]))
    (fun j => iblk0_1_apply V c t j q (ix2 ⟨k * 1024 + j.val, by have := j.isLt; omega⟩ q) (by show k * 1024 + j.val = _; rw [hk]) rfl)
    hxs

/-- After the point at position n, entry (p, q) of the accumulator is the sum of the first n % 8 + 1 block sums of
    row (n / 8) * 1024 + p. -/
theorem acc_inv (c : Dev nD) : ∀ (n : ℕ) (hn : n < cfg0.N) (p : Fin 1024) (q : Fin 128) (i : Fin 8192)
    (hi : i.val = n / 8 * 1024 + p.val),
    (stepAt V c n hn).2 (ix2 p q)
      = accV (V c main_v43 : S8192x8192.Idx → EReal) (V c main_v44 : S8192x128.Idx → EReal) i q (n % 8 + 1) := by
  intro n
  induction n with
  | zero =>
    intro hn p q i hi
    rw [show stepAt V c 0 hn = _ from stepAt_Z V c ⟨0, hn⟩ (Nat.zero_mod _) (by show ¬ (0 : ℕ) % 8 = 7; decide)]
    dsimp only
    rw [soutZ_eq]
    exact accStepAt V c ⟨0, hn⟩ (k0_pay1 (F := Ideal)) p q i hi 0 rfl (pay1_apply (ix2 p q))
  | succ n ih =>
    intro hn p q i hi
    by_cases h0 : (n + 1) % 8 = 0
    · have h7 : ¬(n + 1) % 8 = 7 := by omega
      rw [show stepAt V c (n + 1) hn = _ from stepAt_Z V c ⟨n + 1, hn⟩ h0 h7]
      dsimp only
      rw [soutZ_eq]
      refine (accStepAt V c ⟨n + 1, hn⟩ (k0_pay1 (F := Ideal)) p q i hi 0 h0.symm (pay1_apply (ix2 p q))).trans ?_
      exact congrArg (accV _ _ i q) (by omega)
    · have hprev := ih (Nat.lt_of_succ_lt hn) p q i (by omega)
      have hk : n % 8 + 1 = (n + 1) % 8 := by omega
      by_cases h7 : (n + 1) % 8 = 7
      · rw [show stepAt V c (n + 1) hn = _ from stepAt_L V c ⟨n + 1, hn⟩ h0 h7]
        dsimp only
        rw [soutL_eq]
        refine (accStepAt V c ⟨n + 1, hn⟩ (stepAt V c n (Nat.lt_of_succ_lt hn)).2 p q i hi (n % 8 + 1) hk hprev).trans ?_
        exact congrArg (accV _ _ i q) (by omega)
      · rw [show stepAt V c (n + 1) hn = _ from stepAt_M V c ⟨n + 1, hn⟩ h0 h7]
        dsimp only
        rw [soutM_eq]
        refine (accStepAt V c ⟨n + 1, hn⟩ (stepAt V c n (Nat.lt_of_succ_lt hn)).2 p q i hi (n % 8 + 1) hk hprev).trans ?_
        exact congrArg (accV _ _ i q) (by omega)

end Value

section Final
variable (V : (c : Dev nD) → (b : Ref sig .tc) → Buf (Elt Ideal) ((c : Thread nD τ).loc b))

/-- What the last step of a row block stores into the output block, at entry (p, q). -/
theorem outBlock_apply (c : Dev nD) (t : Fin cfg0.N) (h0 : ¬t.val % 8 = 0) (h7 : t.val % 8 = 7) (p : Fin 1024) (q : Fin 128)
    (i : Fin 8192) (hi : i.val = t.val / 8 * 1024 + p.val) :
    (stepAt V c t.val t.isLt).1 (ix2 p q)
      = max (accV (V c main_v43 : S8192x8192.Idx → EReal) (V c main_v44 : S8192x128.Idx → EReal) i q 8
          + (V c main_v45 : S1x128.Idx → EReal) (ix2 (0 : Fin 1) q)) 0 := by
  have hN : t.val < 64 := lt_of_lt_of_eq t.isLt N_0
  have hlt : t.val - 1 < cfg0.N := Nat.lt_of_le_of_lt (Nat.sub_le _ _) t.isLt
  rw [stepAt_L V c t h0 h7]
  dsimp only
  rw [outL_eq]
  refine (pay3_apply (k0_pay2 (F := Ideal) (stepAt V c (t.val - 1) hlt).2 (iblk0 V c 0 t) (iblk0 V c 1 t)) (iblk0 V c 2 t) p q).trans ?_
  have hacc := accStepAt V c t (stepAt V c (t.val - 1) hlt).2 p q i hi 7 h7.symm
    ((acc_inv V c (t.val - 1) hlt p q i (by omega)).trans (congrArg (accV _ _ i q) (by omega)))
  exact congrArg₂ (fun a b : EReal => max (a + b) 0) hacc (iblk0_2_apply V c t q)

/-- What a point that writes back writes is its block of the output array's closed form. -/
theorem flushed3_eq (c : Dev nD) (t : Fin cfg0.N) (hf : (cfg0.win 3).flush t = true) :
    (dat0 (F := Ideal) V c).flushed 3 t = ((cfg0.win 3).blk t).view.read (Elt Ideal)
      (outV (V c main_v43 : S8192x8192.Idx → EReal) (V c main_v44 : S8192x128.Idx → EReal) (V c main_v45 : S1x128.Idx → EReal)) := by
  have h7 : t.val % 8 = 7 := (flush0_3 t).mp hf
  have h0 : ¬t.val % 8 = 0 := by omega
  have hN : t.val < 64 := lt_of_lt_of_eq t.isLt N_0
  obtain ⟨-, -, -, -, -, -, e0, e1⟩ := idx_facts0 t
  show (cfg0.win 3).cut (grid0.coords t) ((dat0 V c).after 3 t) = _
  rw [after0_3]
  funext y
  obtain ⟨p, q, rfl⟩ : ∃ (p : Fin 1024) (q : Fin 128), y = ix2 p q := ⟨y 0, y 1, eq_ix2 y⟩
  have ei : ((cfg0.win 3).blk t).view.emb (ix2 p q) = ix2 (⟨t.val / 8 * 1024 + p.val, by have := p.isLt; omega⟩ : Fin 8192) q := by
    funext a
    apply Fin.ext
    match a with
    | ⟨0, _⟩ => show win0_3.index t 0 * 1024 + 1 * p.val = t.val / 8 * 1024 + p.val; rw [e0]; omega
    | ⟨1, _⟩ => show win0_3.index t 1 * 128 + 1 * q.val = q.val; rw [e1]; omega
  rw [View.read_apply, ei]
  exact outBlock_apply V c t h0 h7 p q ⟨t.val / 8 * 1024 + p.val, by have := p.isLt; omega⟩ rfl

/-- An entry of the output array is in a point's block when each coordinate is in the block's range on its axis. -/
theorem mem_blk3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v46).slice (win0_3.rect t)).set ↔ _
  rw [View.set_slice_whole, Rect.mem_set_unit]
  exact Iff.rfl

/-- Row r of the output is written back by the last point of its row block, point 8 * (r / 1024) + 7. -/
theorem cover3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have ht : 8 * ((i 0).val / 1024) + 7 < cfg0.N := lt_of_lt_of_eq (by omega : 8 * ((i 0).val / 1024) + 7 < 64) N_0.symm
  obtain ⟨-, -, -, -, -, -, e0, e1⟩ := idx_facts0 ⟨8 * ((i 0).val / 1024) + 7, ht⟩
  refine ⟨⟨8 * ((i 0).val / 1024) + 7, ht⟩, (flush0_3 _).mpr (by show (8 * ((i 0).val / 1024) + 7) % 8 = 7; omega), ?_⟩
  rw [mem_blk3]
  intro a
  match a with
  | ⟨0, _⟩ =>
    show win0_3.index ⟨8 * ((i 0).val / 1024) + 7, ht⟩ 0 * 1024 ≤ (i 0).val ∧ (i 0).val < win0_3.index ⟨8 * ((i 0).val / 1024) + 7, ht⟩ 0 * 1024 + 1024
    rw [e0]; dsimp only; omega
  | ⟨1, _⟩ =>
    show win0_3.index ⟨8 * ((i 0).val / 1024) + 7, ht⟩ 1 * 128 ≤ (i 1).val ∧ (i 1).val < win0_3.index ⟨8 * ((i 0).val / 1024) + 7, ht⟩ 1 * 128 + 128
    rw [e1]; omega

/-- The output array after the run: the closed form, everywhere. -/
theorem arrAt0_eq (c : Dev nD) : (dat0 (F := Ideal) V c).arrAt 3 cfg0.N
    = outV (V c main_v43 : S8192x8192.Idx → EReal) (V c main_v44 : S8192x128.Idx → EReal) (V c main_v45 : S1x128.Idx → EReal) :=
  (dat0 (F := Ideal) V c).arrAt_eq_of_cover 3 _ (flushed3_eq V c) cover3

/-- Entry (i, q) of the first call's output: the eight block sums of row i, the bias added, cut off below at zero. -/
theorem arrAt0_apply (c : Dev nD) (i : Fin 8192) (q : Fin 128) :
    (dat0 (F := Ideal) V c).arrAt 3 cfg0.N (ix2 i q)
      = max (accV (V c main_v43 : S8192x8192.Idx → EReal) (V c main_v44 : S8192x128.Idx → EReal) i q 8
          + (V c main_v45 : S1x128.Idx → EReal) (ix2 (0 : Fin 1) q)) 0 := by
  rw [arrAt0_eq]
  rfl

end Final

end Cert.KernelIdeal.Hand0V

end
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.KI.Region1Value.lean ====
/- The decode region's output array, read at an entry: entry (i, j) of the 8192 × 8192 result is one half of
   (tanh of one half of the inner product of rows i and j of z, plus one). Each grid point (bi, bj) writes block
   (bi, bj); the 64 blocks tile the array, so every entry is written exactly by the point 8·(i / 1024) + j / 1024. -/
import proofs.«100069_j65712999629271_2_alg».proof.Proof.KI.Region1
import proofs.«100069_j65712999629271_2_alg».proof.Proof.LibMatmulT
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The two float literals of the body. -/
abbrev half : EReal := Ideal.ofBits .f32 0x3F000000#32
abbrev one : EReal := Ideal.ofBits .f32 0x3F800000#32

/-- What the output array ends holding, as a function of the array z the two input windows read. -/
def decodeG (zz : S8192x128.Idx → EReal) : S8192x8192.Idx → EReal := fun idx =>
  half * (Ideal.tanh (half * ∑ k : Fin 128, zz (ix2 (idx 0) k) * zz (ix2 (idx 1) k)) + one)

/-! ## The body's arithmetic at an index -/

theorem dec_l0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem dec_l1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
theorem dec_r0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem dec_r1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- The body's payload at entry (p, q) of the block: the product of the first block with the transpose of the
    second is the inner product of row p of the first and row q of the second; the rest is pointwise. -/
theorem pay1_apply (x0 x1 : FVec Ideal S1024x128 .bf16) (p q : Fin 1024) :
    k1_pay1 (F := Ideal) x0 x1 (ix2 p q) = half * (Ideal.tanh (half * ∑ k : Fin 128, x0 (ix2 p k) * x1 (ix2 q k)) + one) := by
  have hm := matmulT_zero_apply (a := 1024) (K := 128) (b := 1024) dot_S1024x128_S1024x128_S1024x1024_1_1_0_0_n_n none rfl rfl
    dec_l0 dec_l1 dec_r0 dec_r1 x0 x1 p q
  unfold k1_pay1
  simp only [shapeCast_self]
  exact congrArg (fun s => half * (Ideal.tanh (half * s) + one)) hm

/-- The same against the target function: if the two blocks are rows `bi·1024 …` and `bj·1024 …` of `zz`, the payload
    at an index of the block is the target at the index of the array it lands on. -/
theorem point_eq (zz : S8192x128.Idx → EReal) (x0 x1 : FVec Ideal S1024x128 .bf16) (bi bj : ℕ)
    (h0 : ∀ (y : S1024x128.Idx) (i' : S8192x128.Idx), (i' 0).val = bi * 1024 + (y 0).val → (i' 1).val = (y 1).val → x0 y = zz i')
    (h1 : ∀ (y : S1024x128.Idx) (i' : S8192x128.Idx), (i' 0).val = bj * 1024 + (y 0).val → (i' 1).val = (y 1).val → x1 y = zz i')
    (j : S1024x1024.Idx) (i : S8192x8192.Idx) (hi0 : (i 0).val = bi * 1024 + (j 0).val) (hi1 : (i 1).val = bj * 1024 + (j 1).val) :
    k1_pay1 (F := Ideal) x0 x1 j = decodeG zz i := by
  obtain ⟨p, q, rfl⟩ : ∃ (p q : Fin 1024), j = ix2 p q := ⟨j 0, j 1, eq_ix2 j⟩
  rw [pay1_apply]
  unfold decodeG
  refine congrArg (fun s => half * (Ideal.tanh (half * s) + one)) (Finset.sum_congr rfl fun k _ => ?_)
  rw [h0 (ix2 p k) (ix2 (i 0) k) hi0 rfl, h1 (ix2 q k) (ix2 (i 1) k) hi1 rfl]

/-! ## From blocks to the array -/

theorem hz2 : (![0, 0] : Fin 2 → Nat) = fun _ => 0 := funext fun a => by fin_cases a <;> rfl

/-- The printed index maps, decided over the grid: the first input window moves with the output's row block, the
    second with its column block, both at column block 0; the output's block indices are the point's two digits. -/
theorem idx_facts1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) < 8 ∧ win1_2.index t (1 : Fin 2) < 8 :=
  (by decide +kernel : ∀ t : Fin grid1.N, _)

/-- Every block of the output is some point's. -/
theorem idx_onto1 : ∀ (q0 q1 : Fin 8), ∃ t : Fin cfg1.N, win1_2.index t = ![q0.val, q1.val] :=
  (by decide +kernel : ∀ (q0 q1 : Fin 8), ∃ t : Fin grid1.N, win1_2.index t = ![q0.val, q1.val])

variable (V : (c : Dev nD) → (b : Ref sig .tc) → Buf (Elt Ideal) ((c : Thread nD τ).loc b))

/-- The array the two input windows read, as the region finds it. -/
abbrev zOf (c : Dev nD) : S8192x128.Idx → EReal := V c main_v47

/-- What point `t` writes back is block `t` of the target function of the input array. -/
theorem flushed1_2 (c : Dev nD) (t : Fin cfg1.N) :
    (dat1 (F := Ideal) V c).flushed 2 t = ((cfg1.win 2).blk t).view.read (Elt Ideal) (decodeG (zOf V c)) := by
  show (cfg1.win 2).cut (grid1.coords t) ((dat1 (F := Ideal) V c).after 2 t) = _
  rw [after1_2]
  unfold out1_2
  rw [View.canon_unit_zero hz2]
  simp only [View.ld_unit_zero (S := S1024x128) hz2]
  obtain ⟨e0, e1, e2, e3, e4, e5⟩ := idx_facts1 t
  funext j
  show k1_pay1 (F := Ideal) (iblk1 V c 0 t) (iblk1 V c 1 t) j = decodeG (zOf V c) (((cfg1.win 2).blk t).view.emb j)
  refine point_eq (zOf V c) (iblk1 V c 0 t) (iblk1 V c 1 t) (win1_2.index t (0 : Fin 2)) (win1_2.index t (1 : Fin 2)) ?_ ?_ j _ ?_ ?_
  · intro y i' h0 h1
    show V c main_v47 (((cfg1.win 0).blk t).view.emb y) = V c main_v47 i'
    refine congrArg (V c main_v47) (funext fun a => Fin.ext ?_)
    match a with
    | ⟨0, _⟩ => show win1_0.index t (0 : Fin 2) * 1024 + 1 * (y 0).val = (i' 0).val; omega
    | ⟨1, _⟩ => show win1_0.index t (1 : Fin 2) * 128 + 1 * (y 1).val = (i' 1).val; omega
  · intro y i' h0 h1
    show V c main_v47 (((cfg1.win 1).blk t).view.emb y) = V c main_v47 i'
    refine congrArg (V c main_v47) (funext fun a => Fin.ext ?_)
    match a with
    | ⟨0, _⟩ => show win1_1.index t (0 : Fin 2) * 1024 + 1 * (y 0).val = (i' 0).val; omega
    | ⟨1, _⟩ => show win1_1.index t (1 : Fin 2) * 128 + 1 * (y 1).val = (i' 1).val; omega
  · show win1_2.index t (0 : Fin 2) * 1024 + 1 * (j 0).val = win1_2.index t (0 : Fin 2) * 1024 + (j 0).val; omega
  · show win1_2.index t (1 : Fin 2) * 1024 + 1 * (j 1).val = win1_2.index t (1 : Fin 2) * 1024 + (j 1).val; omega

/-- An index of the array is in point `t`'s block iff each coordinate is in the block's range on its axis. -/
theorem mem_blk1_2 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v48).slice (win1_2.rect t)).set ↔ _
  rw [View.set_slice_whole, Rect.mem_set_unit]
  exact Iff.rfl

/-- Every entry of the array is in the block of a point that writes it back. -/
theorem cover1_out (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The output array after the region: the target function of the input array. -/
theorem arrAt1 (c : Dev nD) : (dat1 (F := Ideal) V c).arrAt 2 cfg1.N = decodeG (zOf V c) :=
  (dat1 (F := Ideal) V c).arrAt_eq_of_cover 2 (decodeG (zOf V c)) (fun t _ => flushed1_2 V c t) cover1_out

/-- Read at an entry. -/
theorem arrAt1_apply (c : Dev nD) (i j : Fin 8192) :
    (dat1 (F := Ideal) V c).arrAt 2 cfg1.N (ix2 i j)
      = half * (Ideal.tanh (half * ∑ k : Fin 128, zOf V c (ix2 i k) * zOf V c (ix2 j k)) + one) := by
  rw [arrAt1]
  rfl

end Cert.KernelIdeal.Hand1

end
-- ==== Proof.Spec.lean ====
/-
  The mathematics both programs compute, index by index, over the extended reals.

  A graph-convolution layer followed by a dense inner-product decoder. There are 8192 nodes with 256 features each,
  262144 directed edges given as two rows of node numbers (row 0 the sources, row 1 the targets), a 256 x 128 weight
  matrix and a bias of length 128. Every node also gets a loop edge to itself, so the edge list has 262144 + 8192 =
  270336 entries. With h = x W, deg the number of edges arriving at a node, and norm e = deg(src e)^(-1/2) *
  deg(dst e)^(-1/2), the layer is z = max(agg + b, 0) where agg i = sum over the edges e arriving at i of
  h (src e) * norm e, and the decoder is the logistic function of the inner products z i . z j.

  The same aggregate has a second, dense arrangement: collect the edge weights into a square matrix
  adj i j = sum of norm e over the edges from j to i, and take the matrix product adj . h, accumulated over eight
  column blocks of 1024. The two arrangements agree when every quantity is a real number (SpecLaws).
-/
import Idealize.ShloMosaic.PureOps.Ideal
import Idealize.ShloMosaic.PureOps.Ideal.Laws
import Idealize.ShloMosaic.Lib.ValueIdx

noncomputable section

open scoped BigOperators

namespace Cert.Spec

open Idealize.ShloMosaic
open Idealize.ShloMosaic.ValueIdx

/-! ## Shapes (the same literals the programs use) -/

abbrev S8192x256 : Shape := ⟨2, ![8192, 256]⟩
abbrev S2x262144 : Shape := ⟨2, ![2, 262144]⟩
abbrev S256x128 : Shape := ⟨2, ![256, 128]⟩
abbrev S128 : Shape := ⟨1, ![128]⟩
abbrev S8192x128 : Shape := ⟨2, ![8192, 128]⟩
abbrev S8192x8192 : Shape := ⟨2, ![8192, 8192]⟩
abbrev S8192 : Shape := ⟨1, ![8192]⟩
abbrev S270336 : Shape := ⟨1, ![270336]⟩

/-- The node features, as a function of the index. -/
abbrev XArr : Type := S8192x256.Idx → EReal
/-- The edge list: two rows of 32-bit node numbers. -/
abbrev EArr : Type := S2x262144.Idx → BitVec 32
/-- The weight matrix. -/
abbrev WArr : Type := S256x128.Idx → EReal
/-- The bias. -/
abbrev BArr : Type := S128.Idx → EReal

/-! ## The two float words the decoders use -/

/-- The 32-bit float word of one. -/
abbrev one : EReal := Ideal.ofBits .f32 0x3F800000#32
/-- The 32-bit float word of one half. -/
abbrev half : EReal := Ideal.ofBits .f32 0x3F000000#32

/-! ## Preconditions -/

/-- Every entry of the edge list, read as a signed number, is a node number. -/
def InRange (ei : EArr) : Prop := ∀ idx, 0 ≤ (ei idx).toInt ∧ (ei idx).toInt < 8192

/-- Every entry of an array of extended reals is a real number. -/
def IsRealArr {S : Shape} (f : S.Idx → EReal) : Prop := ∀ idx, ∃ r : ℝ, f idx = (r : EReal)

/-! ## Edges -/

/-- The node a 32-bit word names (its value modulo the number of nodes; the word itself when it is in range). -/
def node (w : BitVec 32) : Fin 8192 := ⟨w.toNat % 8192, Nat.mod_lt _ (by norm_num)⟩

/-- The source of edge `e`: the listed source for the first 262144 edges, then node `e - 262144` for its loop. -/
def src (ei : EArr) (e : Fin 270336) : Fin 8192 :=
  if h : e.val < 262144 then node (ei (ix2 (0 : Fin 2) (⟨e.val, h⟩ : Fin 262144)))
  else ⟨e.val - 262144, by omega⟩

/-- The target of edge `e`: the listed target for the first 262144 edges, then node `e - 262144` for its loop. -/
def dst (ei : EArr) (e : Fin 270336) : Fin 8192 :=
  if h : e.val < 262144 then node (ei (ix2 (1 : Fin 2) (⟨e.val, h⟩ : Fin 262144)))
  else ⟨e.val - 262144, by omega⟩

/-- The in-degree of node `i`, loop included: one for every edge arriving at `i`, added to zero. -/
def deg (ei : EArr) (i : Fin 8192) : EReal :=
  0 + ∑ _e ∈ Finset.univ.filter (fun e : Fin 270336 => dst ei e = i), (1 : EReal)

/-- The reciprocal square root of the in-degree. -/
def dinv (ei : EArr) (i : Fin 8192) : EReal := Ideal.rsqrt (deg ei i)

/-- The symmetric normalisation weight of edge `e`. -/
def norm (ei : EArr) (e : Fin 270336) : EReal := dinv ei (src ei e) * dinv ei (dst ei e)

/-! ## The layer -/

/-- The transformed features `h = x W`. -/
def hmat (x : XArr) (w : WArr) (n : Fin 8192) (c : Fin 128) : EReal :=
  ∑ k : Fin 256, x (ix2 n k) * w (ix2 k c)

/-- The aggregate at node `i`, feature `c`: the weighted sum of the source features over the edges arriving at
    `i`, added to zero. -/
def agg (x : XArr) (ei : EArr) (w : WArr) (i : Fin 8192) (c : Fin 128) : EReal :=
  0 + ∑ e ∈ Finset.univ.filter (fun e : Fin 270336 => dst ei e = i), hmat x w (src ei e) c * norm ei e

/-- The layer's output: aggregate plus bias, clipped below at zero. -/
def z (x : XArr) (ei : EArr) (w : WArr) (b : BArr) (i : Fin 8192) (c : Fin 128) : EReal :=
  max (agg x ei w i c + b (ix1 c)) 0

/-- The decoder's score of the pair `(i, j)`: the inner product of the two output rows. -/
def score (x : XArr) (ei : EArr) (w : WArr) (b : BArr) (i j : Fin 8192) : EReal :=
  ∑ c : Fin 128, z x ei w b i c * z x ei w b j c

/-- The logistic function as one over one plus the exponential of the negated score. -/
def outRef (s : EReal) : EReal := Ideal.div one (one + Ideal.exp (-s))

/-- The logistic function through the hyperbolic tangent of half the score. -/
def outKer (s : EReal) : EReal := half * (Ideal.tanh (half * s) + one)

/-! ## The dense arrangement -/

/-- The dense normalised adjacency: the sum of the weights of the edges from `j` to `i`, added to zero. -/
def adj (ei : EArr) (i j : Fin 8192) : EReal :=
  0 + ∑ e ∈ Finset.univ.filter (fun e : Fin 270336 => dst ei e = i ∧ src ei e = j), norm ei e

/-- Column `j'` of column block `kb` (eight blocks of 1024 columns). -/
def col (kb : Fin 8) (j' : Fin 1024) : Fin 8192 := ⟨kb.val * 1024 + j'.val, by omega⟩

/-- The product of block `kb` of row `i` of the dense adjacency with block `kb` of the rows of `h`, at feature
    `c`, added to zero. -/
def blockProd (x : XArr) (ei : EArr) (w : WArr) (i : Fin 8192) (c : Fin 128) (kb : Fin 8) : EReal :=
  0 + ∑ j' : Fin 1024, adj ei i (col kb j') * hmat x w (col kb j') c

/-- The running sum after the first `n` column blocks: it starts at zero and each block adds its product to the
    previous value (blocks beyond the eighth add nothing). -/
def accK (x : XArr) (ei : EArr) (w : WArr) (i : Fin 8192) (c : Fin 128) : Nat → EReal
  | 0 => 0
  | n + 1 => accK x ei w i c n + (if h : n < 8 then blockProd x ei w i c ⟨n, h⟩ else 0)

/-- The running sum starts at zero. -/
theorem accK_zero (x : XArr) (ei : EArr) (w : WArr) (i : Fin 8192) (c : Fin 128) : accK x ei w i c 0 = 0 := rfl

/-- One step of the running sum: the previous value plus the block's product. -/
theorem accK_succ (x : XArr) (ei : EArr) (w : WArr) (i : Fin 8192) (c : Fin 128) (n : Nat) (h : n < 8) :
    accK x ei w i c (n + 1) = accK x ei w i c n + blockProd x ei w i c ⟨n, h⟩ := by
  show accK x ei w i c n + (if h : n < 8 then blockProd x ei w i c ⟨n, h⟩ else 0) = _
  rw [dif_pos h]

/-- The aggregate in the dense arrangement: the running sum after all eight column blocks. -/
def aggK (x : XArr) (ei : EArr) (w : WArr) (i : Fin 8192) (c : Fin 128) : EReal := accK x ei w i c 8

/-- The layer's output in the dense arrangement. -/
def zK (x : XArr) (ei : EArr) (w : WArr) (b : BArr) (i : Fin 8192) (c : Fin 128) : EReal :=
  max (aggK x ei w i c + b (ix1 c)) 0

/-- The decoder's score computed from the dense arrangement's output rows. -/
def scoreK (x : XArr) (ei : EArr) (w : WArr) (b : BArr) (i j : Fin 8192) : EReal :=
  ∑ c : Fin 128, zK x ei w b i c * zK x ei w b j c

end Cert.Spec

end
-- ==== Proof.LibDenseAdj.lean ====
/-
  A weighted sum over the edges of a finite directed graph, arranged two ways.

  Every edge `e` has a source `s e`, a target `d e` and a real weight `n e`; every node `j` carries a real value
  `h j`. Collecting the weights into a dense matrix, whose entry `(i, j)` is the sum of the weights of the edges from
  `j` to `i`, and multiplying row `i` of that matrix with the vector `h` gives the same number as summing
  `h (s e) * n e` over the edges arriving at `i`: the edges arriving at `i` are partitioned by their source. The
  statement is over the extended reals with real entries, where the two sides are the images of the same real sum.
-/
import Mathlib.Data.EReal.Inv
import Mathlib.Algebra.BigOperators.Ring.Finset

namespace Cert.LibDenseAdj

open Finset

/-- The image in the extended reals of a finite sum of reals is the sum of the images. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Over the reals: the edges arriving at `i`, grouped by their source. -/
theorem dense_real {E N : Type*} [Fintype E] [Fintype N] [DecidableEq N] (s d : E → N) (n : E → ℝ) (h : N → ℝ)
    (i : N) :
    ∑ j, (∑ e ∈ univ.filter (fun e => d e = i ∧ s e = j), n e) * h j
      = ∑ e ∈ univ.filter (fun e => d e = i), h (s e) * n e := by
  rw [← Finset.sum_fiberwise (univ.filter (fun e => d e = i)) s (fun e => h (s e) * n e)]
  refine Finset.sum_congr rfl fun j _ => ?_
  rw [Finset.sum_mul, Finset.filter_filter]
  refine Finset.sum_congr rfl fun e he => ?_
  rw [(Finset.mem_filter.mp he).2.2, mul_comm]

/-- Row `i` of the dense weight matrix times the vector `h` is the weighted sum over the edges arriving at `i`, both
    sums started from zero as a scatter-add into zeros starts them. -/
theorem dense_adj {E N : Type*} [Fintype E] [Fintype N] [DecidableEq N] (s d : E → N) (n : E → ℝ) (h : N → ℝ)
    (i : N) :
    ∑ j, (0 + ∑ e ∈ univ.filter (fun e => d e = i ∧ s e = j), (n e : EReal)) * (h j : EReal)
      = 0 + ∑ e ∈ univ.filter (fun e => d e = i), (h (s e) : EReal) * (n e : EReal) := by
  have hl : ∀ j, (0 + ∑ e ∈ univ.filter (fun e => d e = i ∧ s e = j), (n e : EReal)) * (h j : EReal)
      = (((∑ e ∈ univ.filter (fun e => d e = i ∧ s e = j), n e) * h j : ℝ) : EReal) := by
    intro j
    rw [zero_add, ← coe_sum, ← EReal.coe_mul]
  have hr : ∀ e, (h (s e) : EReal) * (n e : EReal) = ((h (s e) * n e : ℝ) : EReal) := fun e => (EReal.coe_mul _ _).symm
  rw [zero_add, Finset.sum_congr rfl (fun j _ => hl j), Finset.sum_congr rfl (fun e _ => hr e), ← coe_sum, ← coe_sum,
    dense_real]

end Cert.LibDenseAdj
-- ==== Proof.LibLogistic.lean ====
/-
  The logistic function written two ways.

  For a real `s`, one over one plus the exponential of `-s` equals one half of (the hyperbolic tangent of half of `s`,
  plus one): with `a = exp (s / 2)`, both are `a² / (a² + 1)`. The statement is at the extended reals with the
  constants one and one half given by their 32-bit float words, which denote exactly 1 and 1/2.
-/
import Idealize.ShloMosaic.PureOps.Ideal.Laws
import Mathlib.Tactic

noncomputable section

namespace Cert.LibLogistic

open Idealize.ShloMosaic

/-- The 32-bit float word 0x3F800000 denotes one. -/
theorem ofBits_one : Ideal.ofBits .f32 0x3F800000#32 = (1 : EReal) := by
  have e : ((8388608 : ℝ) : EReal) * (((2 ^ 23 : ℝ)⁻¹ : ℝ) : EReal) = 1 := by
    rw [← EReal.coe_mul, ← EReal.coe_one]; exact congrArg _ (by norm_num)
  simpa [Ideal.ofBits, Ideal.ieee] using e

/-- The 32-bit float word 0x3F000000 denotes one half. -/
theorem ofBits_half : Ideal.ofBits .f32 0x3F000000#32 = ((1 / 2 : ℝ) : EReal) := by
  have e : ((8388608 : ℝ) : EReal) * (((2 ^ 24 : ℝ)⁻¹ : ℝ) : EReal) = ((2⁻¹ : ℝ) : EReal) := by
    rw [← EReal.coe_mul]; exact congrArg _ (by norm_num)
  simpa [Ideal.ofBits, Ideal.ieee] using e

/-- Over the reals: half of (tanh of half of `s`, plus one) is one over one plus `exp (-s)`. -/
theorem logistic_real (s : ℝ) : 1 / 2 * (Real.tanh (1 / 2 * s) + 1) = 1 * (1 / (1 + Real.exp (-s))) := by
  have ha : 0 < Real.exp (1 / 2 * s) := Real.exp_pos _
  have h1 : Real.exp (-(1 / 2 * s)) = (Real.exp (1 / 2 * s))⁻¹ := Real.exp_neg _
  have h2 : Real.exp (-s) = (Real.exp (1 / 2 * s))⁻¹ * (Real.exp (1 / 2 * s))⁻¹ := by
    rw [← Real.exp_neg, ← Real.exp_add]; congr 1; ring
  rw [Real.tanh_eq_sinh_div_cosh, Real.sinh_eq, Real.cosh_eq, h1, h2]
  generalize Real.exp (1 / 2 * s) = a at ha
  have h0 : a ≠ 0 := ne_of_gt ha
  have h3 : a * a + 1 ≠ 0 := by positivity
  have h4 : a + a⁻¹ ≠ 0 := by positivity
  have h5 : 1 + a⁻¹ * a⁻¹ ≠ 0 := by positivity
  field_simp
  ring

/-- At the extended reals, with the float words of one and one half: the two forms of the logistic function agree at
    every real argument. -/
theorem logistic_eq (s : ℝ) :
    Ideal.ofBits .f32 0x3F000000#32 * (Ideal.tanh (Ideal.ofBits .f32 0x3F000000#32 * (s : EReal)) + Ideal.ofBits .f32 0x3F800000#32)
      = Ideal.div (Ideal.ofBits .f32 0x3F800000#32) (Ideal.ofBits .f32 0x3F800000#32 + Ideal.exp (-(s : EReal))) := by
  have hpos : (1 + Real.exp (-s)) ≠ 0 := by positivity
  rw [ofBits_one, ofBits_half]
  rw [← EReal.coe_mul, Ideal.tanh_coe, ← EReal.coe_one, ← EReal.coe_add, ← EReal.coe_mul]
  rw [← EReal.coe_neg, Ideal.exp_coe, ← EReal.coe_add, Ideal.div_coe hpos, ← EReal.coe_mul]
  exact congrArg _ (logistic_real s)

end Cert.LibLogistic

end
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.LibReals.lean ====
/-
  Real numbers among the extended reals, and two re-indexings over a vector's coordinates.

  An extended real is a real when it is the image of a real number. Sums, differences, products and maxima of reals are
  reals, and so is a finite sum of reals: on such values the extended reals obey the laws of the real field, which they
  do not at the infinities. A maximum folded from −∞ over a finite set is −∞ over the empty set and is attained
  otherwise. A sum or a folded maximum over ALL indices of a vector of n entries is the sum or maximum over its n
  coordinates. The bit pattern 0xFF800000 denotes −∞.
-/
import Idealize.ShloMosaic.PureOps.Ideal.Laws
import Idealize.ShloMosaic.Lib.ValueIdx

noncomputable section

namespace Cert.LibReals

open Idealize.ShloMosaic Idealize.ShloMosaic.ValueIdx

/-- The bit pattern of −∞ denotes −∞. -/
theorem ofBits_neg_inf : Ideal.ofBits .f32 0xFF800000#32 = (⊥ : EReal) := by simp [Ideal.ofBits, Ideal.ieee]

/-- A sum over the indices of a vector of n entries is the sum over its n coordinates. -/
theorem sum_ix1 {M : Type*} [AddCommMonoid M] {n : Nat} (f : (⟨1, ![n]⟩ : Shape).Idx → M) :
    ∑ j, f j = ∑ k : Fin n, f (ix1 k) :=
  (Equiv.sum_comp (⟨ix1, fun j => j 0, fun k => rfl, fun j => (eq_ix1 j).symm⟩ : Fin n ≃ (⟨1, ![n]⟩ : Shape).Idx) f).symm

/-- A maximum folded over a set holding every index of a vector of n entries is the maximum over its n coordinates. -/
theorem fold_max_ix1 {n : Nat} (b : EReal) (f : (⟨1, ![n]⟩ : Shape).Idx → EReal) (s : Finset (⟨1, ![n]⟩ : Shape).Idx)
    (hs : ∀ j, j ∈ s) : s.fold max b f = (Finset.univ : Finset (Fin n)).fold max b (fun k => f (ix1 k)) := by
  apply le_antisymm
  · refine (Finset.fold_max_le _).2 ⟨(Finset.le_fold_max b).2 (Or.inl le_rfl), fun j _ => ?_⟩
    exact (Finset.le_fold_max (f j)).2 (Or.inr ⟨j 0, Finset.mem_univ _, le_of_eq (congrArg f (eq_ix1 j))⟩)
  · refine (Finset.fold_max_le _).2 ⟨(Finset.le_fold_max b).2 (Or.inl le_rfl), fun k _ => ?_⟩
    exact (Finset.le_fold_max _).2 (Or.inr ⟨ix1 k, hs _, le_rfl⟩)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem isReal_zero : IsReal 0 := ⟨0, rfl⟩

theorem IsReal.sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- The maximum of finitely many extended reals, folded from −∞, is −∞ over the empty set and is attained otherwise. -/
theorem fold_max_attained {ι : Type} (s : Finset ι) (f : ι → EReal) :
    s = ∅ ∨ ∃ k ∈ s, s.fold max ⊥ f = f k := by
  classical
  induction s using Finset.induction_on with
  | empty => exact Or.inl rfl
  | insert a s ha ih =>
    right
    rw [Finset.fold_insert ha]
    rcases ih with h | ⟨k, hk, h⟩
    · subst h
      exact ⟨a, Finset.mem_insert_self a _, by rw [Finset.fold_empty]; exact max_bot_right (f a)⟩
    · rcases max_choice (f a) (s.fold max ⊥ f) with h' | h'
      · exact ⟨a, Finset.mem_insert_self a s, h'⟩
      · exact ⟨k, Finset.mem_insert_of_mem hk, h'.trans h⟩

end Cert.LibReals

end
-- ==== Proof.SpecLaws.lean ====
/-
  Laws of the specification: every quantity is a real number when the float inputs are, the dense arrangement of the
  aggregate equals the edge-by-edge one, and the two forms of the logistic function agree on the scores.

  The in-degree of a node counts the edges arriving at it, and the node's own loop is one of them, so it is a real
  number at least one and its reciprocal square root is a real. With real features, weights and bias every later
  quantity is a finite sum, product or maximum of reals. On reals the extended reals obey the laws of the real field:
  the product of a row of the dense adjacency with the feature matrix regroups, source by source, into the sum over the
  edges arriving at the node; a sum over 8192 columns is the sum over eight blocks of 1024; and the running sum over
  the blocks, each step adding one block's product, is that eight-term sum.
-/
import proofs.«100069_j65712999629271_2_alg».proof.Proof.Spec
import proofs.«100069_j65712999629271_2_alg».proof.Proof.LibDenseAdj
import proofs.«100069_j65712999629271_2_alg».proof.Proof.LibLogistic
import proofs.«100069_j65712999629271_2_alg».proof.Proof.LibBlocks
import proofs.«100069_j65712999629271_2_alg».proof.Proof.LibReals

noncomputable section

open scoped BigOperators

namespace Cert.SpecLaws

open Idealize.ShloMosaic
open Idealize.ShloMosaic.ValueIdx
open Cert.Spec
open Cert.LibReals (IsReal)

/-! ## Node numbers -/

/-- A word that reads, signed, as a number in `[0, 8192)` names the node of that number. -/
theorem node_val (w : BitVec 32) (h : 0 ≤ w.toInt ∧ w.toInt < 8192) : ((node w).val : ℤ) = w.toInt := by
  have hlt := w.isLt
  have e := BitVec.toInt_eq_toNat_cond w
  show ((w.toNat % 8192 : ℕ) : ℤ) = w.toInt
  split at e <;> omega

/-- The same, read as a natural number. -/
theorem node_val_nat (w : BitVec 32) (h : 0 ≤ w.toInt ∧ w.toInt < 8192) : (node w).val = w.toNat := by
  have hlt := w.isLt
  have e := BitVec.toInt_eq_toNat_cond w
  show w.toNat % 8192 = w.toNat
  split at e <;> omega

/-- The loop edge of node `i`. -/
def loop (i : Fin 8192) : Fin 270336 := ⟨262144 + i.val, by omega⟩

/-- The loop edge of `i` arrives at `i`. -/
theorem dst_loop (ei : EArr) (i : Fin 8192) : dst ei (loop i) = i := by
  unfold dst loop
  rw [dif_neg (by simp)]
  exact Fin.ext (by simp)

/-- The loop edge of `i` leaves from `i`. -/
theorem src_loop (ei : EArr) (i : Fin 8192) : src ei (loop i) = i := by
  unfold src loop
  rw [dif_neg (by simp)]
  exact Fin.ext (by simp)

/-! ## Real numbers -/

/-- The in-degree is a real number at least one: the number of edges arriving at the node, its loop among them. -/
theorem deg_real (ei : EArr) (i : Fin 8192) : ∃ r : ℝ, 1 ≤ r ∧ deg ei i = (r : EReal) := by
  refine ⟨((Finset.univ.filter (fun e : Fin 270336 => dst ei e = i)).card : ℝ), ?_, ?_⟩
  · have hmem : loop i ∈ Finset.univ.filter (fun e : Fin 270336 => dst ei e = i) :=
      Finset.mem_filter.mpr ⟨Finset.mem_univ _, dst_loop ei i⟩
    exact_mod_cast Finset.card_pos.mpr ⟨_, hmem⟩
  · unfold deg
    rw [zero_add, ← EReal.coe_one, ← LibDenseAdj.coe_sum, Finset.sum_const, nsmul_eq_mul, mul_one]

/-- The reciprocal square root of the in-degree is a real number. -/
theorem dinv_real (ei : EArr) (i : Fin 8192) : IsReal (dinv ei i) := by
  obtain ⟨r, hr, e⟩ := deg_real ei i
  unfold dinv
  rw [e, Ideal.rsqrt_coe, if_neg (by linarith), if_neg (by linarith)]
  exact ⟨_, rfl⟩

/-- An edge's weight is a real number. -/
theorem norm_real (ei : EArr) (e : Fin 270336) : IsReal (norm ei e) :=
  (dinv_real ei _).mul (dinv_real ei _)

variable {x : XArr} {w : WArr} {b : BArr}

/-- The transformed features are reals. -/
theorem hmat_real (hx : IsRealArr x) (hw : IsRealArr w) (n : Fin 8192) (c : Fin 128) : IsReal (hmat x w n c) :=
  IsReal.sum _ _ fun k _ => IsReal.mul (hx _) (hw _)

/-- The aggregate is a real. -/
theorem agg_real (hx : IsRealArr x) (hw : IsRealArr w) (ei : EArr) (i : Fin 8192) (c : Fin 128) :
    IsReal (agg x ei w i c) :=
  LibReals.isReal_zero.add (IsReal.sum _ _ fun e _ => (hmat_real hx hw _ _).mul (norm_real ei e))

/-- The layer's output is a real. -/
theorem z_real (hx : IsRealArr x) (hw : IsRealArr w) (hb : IsRealArr b) (ei : EArr) (i : Fin 8192) (c : Fin 128) :
    IsReal (z x ei w b i c) :=
  ((agg_real hx hw ei i c).add (hb _)).max LibReals.isReal_zero

/-- The decoder's score is a real. -/
theorem score_real (hx : IsRealArr x) (hw : IsRealArr w) (hb : IsRealArr b) (ei : EArr) (i j : Fin 8192) :
    IsReal (score x ei w b i j) :=
  IsReal.sum _ _ fun c _ => (z_real hx hw hb ei i c).mul (z_real hx hw hb ei j c)

/-- An entry of the dense adjacency is a real. -/
theorem adj_real (ei : EArr) (i j : Fin 8192) : IsReal (adj ei i j) :=
  LibReals.isReal_zero.add (IsReal.sum _ _ fun e _ => norm_real ei e)

/-! ## The dense arrangement equals the edge-by-edge one -/

/-- The running sum after all eight blocks is the sum of the eight block products. -/
theorem aggK_eq_sum (x : XArr) (ei : EArr) (w : WArr) (i : Fin 8192) (c : Fin 128) :
    aggK x ei w i c = ∑ kb : Fin 8, blockProd x ei w i c kb := by
  rw [Fin.sum_univ_eight]
  show accK x ei w i c 8 = _
  rw [accK_succ x ei w i c 7 (by omega), accK_succ x ei w i c 6 (by omega), accK_succ x ei w i c 5 (by omega),
    accK_succ x ei w i c 4 (by omega), accK_succ x ei w i c 3 (by omega), accK_succ x ei w i c 2 (by omega),
    accK_succ x ei w i c 1 (by omega), accK_succ x ei w i c 0 (by omega), accK_zero, zero_add]
  rfl

/-- With real features and weights, the dense arrangement of the aggregate is the edge-by-edge one. -/
theorem aggK_eq_agg (hx : IsRealArr x) (hw : IsRealArr w) (ei : EArr) (i : Fin 8192) (c : Fin 128) :
    aggK x ei w i c = agg x ei w i c := by
  obtain ⟨nr, hnr⟩ : ∃ nr : Fin 270336 → ℝ, ∀ e, norm ei e = (nr e : EReal) :=
    ⟨fun e => Classical.choose (norm_real ei e), fun e => Classical.choose_spec (norm_real ei e)⟩
  obtain ⟨hh, hhh⟩ : ∃ hh : Fin 8192 → ℝ, ∀ n, hmat x w n c = (hh n : EReal) :=
    ⟨fun n => Classical.choose (hmat_real hx hw n c), fun n => Classical.choose_spec (hmat_real hx hw n c)⟩
  have h1 : ∀ j : Fin 8192, adj ei i j * hmat x w j c
      = (0 + ∑ e ∈ Finset.univ.filter (fun e : Fin 270336 => dst ei e = i ∧ src ei e = j), (nr e : EReal)) * (hh j : EReal) := by
    intro j
    unfold adj
    rw [hhh, Finset.sum_congr rfl (fun e _ => hnr e)]
  have h2 : ∀ kb : Fin 8, blockProd x ei w i c kb
      = ∑ j' : Fin 1024, (fun j : Fin 8192 => adj ei i j * hmat x w j c) ⟨kb.val * 1024 + j'.val, LibBlocks.pos_lt kb j'⟩ := by
    intro kb
    unfold blockProd
    rw [zero_add]
    rfl
  rw [aggK_eq_sum, Finset.sum_congr rfl (fun kb _ => h2 kb)]
  rw [← LibBlocks.sum_blocks_of_eq (n := 8192) (a := 8) (b := 1024) rfl (fun j : Fin 8192 => adj ei i j * hmat x w j c)]
  rw [Finset.sum_congr rfl (fun j _ => h1 j), LibDenseAdj.dense_adj (src ei) (dst ei) nr hh i]
  unfold agg
  refine congrArg (0 + ·) (Finset.sum_congr rfl fun e _ => ?_)
  rw [hhh, hnr]

/-- The layer's output computed from the dense arrangement is the layer's output. -/
theorem zK_eq_z (hx : IsRealArr x) (hw : IsRealArr w) (ei : EArr) (b : BArr) (i : Fin 8192) (c : Fin 128) :
    zK x ei w b i c = z x ei w b i c := by
  unfold zK z
  rw [aggK_eq_agg hx hw]

/-- The score computed from the dense arrangement is the score. -/
theorem scoreK_eq_score (hx : IsRealArr x) (hw : IsRealArr w) (ei : EArr) (b : BArr) (i j : Fin 8192) :
    scoreK x ei w b i j = score x ei w b i j := by
  unfold scoreK score
  refine Finset.sum_congr rfl fun c _ => ?_
  rw [zK_eq_z hx hw, zK_eq_z hx hw]

/-! ## The two forms of the logistic function -/

/-- At a real argument the form through the hyperbolic tangent is the form through the exponential. -/
theorem outKer_eq_outRef_of_real {s : EReal} (hs : IsReal s) : outKer s = outRef s := by
  obtain ⟨r, rfl⟩ := hs
  exact LibLogistic.logistic_eq r

/-- On the scores the two forms of the logistic function agree. -/
theorem outKer_score (hx : IsRealArr x) (hw : IsRealArr w) (hb : IsRealArr b) (ei : EArr) (i j : Fin 8192) :
    outKer (score x ei w b i j) = outRef (score x ei w b i j) :=
  outKer_eq_outRef_of_real (score_real hx hw hb ei i j)

/-- The kernel's decoder on the dense arrangement's scores is the reference's decoder on the scores. -/
theorem outKer_scoreK (hx : IsRealArr x) (hw : IsRealArr w) (hb : IsRealArr b) (ei : EArr) (i j : Fin 8192) :
    outKer (scoreK x ei w b i j) = outRef (score x ei w b i j) := by
  rw [scoreK_eq_score hx hw]
  exact outKer_score hx hw hb ei i j

end Cert.SpecLaws

end
-- ==== Proof.KI.Bridge.lean ====
/-
  The kernel's two results, read at the extended reals, are the specification's.

  The aggregation call leaves, at entry (i, q), the maximum of zero and the bias added to the product of row i of the
  dense normalised adjacency with column q of the projected features, accumulated over eight column blocks; when
  every quantity is a real number that is the edge-by-edge aggregate, so the entry is the layer's output. The array
  the decoding call reads is that output with its float format changed, which is the identity on extended reals. The
  decoding call leaves the hyperbolic-tangent form of the logistic function of the inner products of the rows of the
  layer's output, which on real scores is the exponential form.
-/
import proofs.«100069_j65712999629271_2_alg».proof.Proof.KI.Run
import proofs.«100069_j65712999629271_2_alg».proof.Proof.KI.R0Value
import proofs.«100069_j65712999629271_2_alg».proof.Proof.KI.Region1Value
import proofs.«100069_j65712999629271_2_alg».proof.Proof.SpecLaws
import Idealize.ShloMosaic.Lib.StableHlo.Run

set_option maxRecDepth 16384

noncomputable section

open scoped BigOperators

namespace Cert.KernelIdeal.Bridge

open Cert.KernelIdeal Cert.KernelIdeal.Gen Cert.KernelIdeal.Hand0 Cert.KernelIdeal.Hand0V Cert.KernelIdeal.Hand1 Cert.KernelIdeal.HandRun
open Idealize.ShloMosaic Idealize.ShloMosaic.TcCoe Idealize.ShloMosaic.ValueIdx
open Idealize.ShloMosaic.StableHlo
open Idealize.SL.Sem

/-- The accumulated block products over the arrays the first call is handed are the specification's running sum,
    once those arrays are the dense adjacency and the projected features. -/
theorem accV_eq_accK (x : Spec.XArr) (ei : Spec.EArr) (w : Spec.WArr)
    (A : S8192x8192.Idx → EReal) (H : S8192x128.Idx → EReal)
    (hA : ∀ i j : Fin 8192, A (ix2 i j) = Spec.adj ei i j) (hH : ∀ (n : Fin 8192) (k : Fin 128), H (ix2 n k) = Spec.hmat x w n k)
    (i : Fin 8192) (q : Fin 128) : ∀ n, n ≤ 8 → accV A H i q n = Spec.accK x ei w i q n
  | 0, _ => by rw [accV_zero, Spec.accK_zero]
  | n + 1, hn => by
    have h : n < 8 := hn
    rw [accV_succ A H i q n h, Spec.accK_succ x ei w i q n h, accV_eq_accK x ei w A H hA hH i q n (Nat.le_of_lt h)]
    refine congrArg (Spec.accK x ei w i q n + ·) ?_
    unfold blockSum Spec.blockProd
    rw [zero_add]
    refine Finset.sum_congr rfl fun j' _ => ?_
    exact congrArg₂ (· * ·) (hA i (Spec.col ⟨n, h⟩ j')) (hH (Spec.col ⟨n, h⟩ j') q)

variable (m : (ℓ : Loc nD τ sig) → Buf (Elt Ideal) ℓ)

/-- The array the decoding call reads is the aggregation call's output array: between the two calls only the float
    format changes, which is the identity on extended reals. -/
theorem zz_eq (c : Dev nD) :
    (zOf (HandRun.V3 m) c : S8192x128.Idx → EReal) = ((dat0 (F := Ideal) (HandRun.V1 m) c).arrAt 3 cfg0.N : S8192x128.Idx → EReal) := by
  show StableHlo.after hostOps1 (HandRun.W2 m c) (Proc.devRef .tc main_v47) = _
  after_results
  exact W2_arr m c 3

/-- The same at an entry. -/
theorem zz_apply (c : Dev nD) (i : Fin 8192) (k : Fin 128) :
    zOf (HandRun.V3 m) c (ix2 i k) = ((dat0 (F := Ideal) (HandRun.V1 m) c).arrAt 3 cfg0.N : S8192x128.Idx → EReal) (ix2 i k) :=
  congrFun (zz_eq m c) (ix2 i k)

section Entry
variable (c : Dev nD)
  (hx : Spec.IsRealArr (S := Spec.S8192x256) (m ((c.tc : Thread nD τ).loc main_arg0)))
  (hw : Spec.IsRealArr (S := Spec.S256x128) (m ((c.tc : Thread nD τ).loc main_arg2)))
  (hb : Spec.IsRealArr (S := Spec.S128) (m ((c.tc : Thread nD τ).loc main_arg3)))
  (hA : ∀ i j : Fin 8192, (HandRun.V1 m c main_v43 : S8192x8192.Idx → EReal) (ix2 i j)
    = Spec.adj (m ((c.tc : Thread nD τ).loc main_arg1)) i j)
  (hH : ∀ (n : Fin 8192) (k : Fin 128), (HandRun.V1 m c main_v44 : S8192x128.Idx → EReal) (ix2 n k)
    = Spec.hmat (m ((c.tc : Thread nD τ).loc main_arg0)) (m ((c.tc : Thread nD τ).loc main_arg2)) n k)
  (hB : ∀ k : Fin 128, (HandRun.V1 m c main_v45 : S1x128.Idx → EReal) (ix2 (0 : Fin 1) k)
    = (m ((c.tc : Thread nD τ).loc main_arg3) : Spec.BArr) (ix1 k))

include hx hw hA hH hB in
/-- Entry (i, q) of the aggregation call's output array is the layer's output. -/
theorem arr0_apply (i : Fin 8192) (q : Fin 128) :
    ((dat0 (F := Ideal) (HandRun.V1 m) c).arrAt 3 cfg0.N : S8192x128.Idx → EReal) (ix2 i q)
      = Spec.z (m ((c.tc : Thread nD τ).loc main_arg0)) (m ((c.tc : Thread nD τ).loc main_arg1))
          (m ((c.tc : Thread nD τ).loc main_arg2)) (m ((c.tc : Thread nD τ).loc main_arg3)) i q := by
  refine (arrAt0_apply (HandRun.V1 m) c i q).trans ?_
  rw [accV_eq_accK (m ((c.tc : Thread nD τ).loc main_arg0)) (m ((c.tc : Thread nD τ).loc main_arg1))
    (m ((c.tc : Thread nD τ).loc main_arg2)) _ _ hA hH i q 8 le_rfl, hB q]
  exact SpecLaws.zK_eq_z hx hw (m ((c.tc : Thread nD τ).loc main_arg1)) (m ((c.tc : Thread nD τ).loc main_arg3)) i q

include hx hw hb hA hH hB in
/-- Entry (i, j) of the decoding call's output array is the logistic function of the score of the pair. -/
theorem arr1_apply (idx : S8192x8192.Idx) :
    ((dat1 (F := Ideal) (HandRun.V3 m) c).arrAt 2 cfg1.N : S8192x8192.Idx → EReal) idx
      = Spec.outRef (Spec.score (m ((c.tc : Thread nD τ).loc main_arg0)) (m ((c.tc : Thread nD τ).loc main_arg1))
          (m ((c.tc : Thread nD τ).loc main_arg2)) (m ((c.tc : Thread nD τ).loc main_arg3)) (idx 0) (idx 1)) := by
  have hs : (∑ k : Fin 128, zOf (HandRun.V3 m) c (ix2 (idx 0) k) * zOf (HandRun.V3 m) c (ix2 (idx 1) k))
      = Spec.score (m ((c.tc : Thread nD τ).loc main_arg0)) (m ((c.tc : Thread nD τ).loc main_arg1))
          (m ((c.tc : Thread nD τ).loc main_arg2)) (m ((c.tc : Thread nD τ).loc main_arg3)) (idx 0) (idx 1) := by
    unfold Spec.score
    refine Finset.sum_congr rfl fun k _ => ?_
    rw [zz_apply m c (idx 0) k, zz_apply m c (idx 1) k, arr0_apply m c hx hw hA hH hB (idx 0) k,
      arr0_apply m c hx hw hA hH hB (idx 1) k]
  rw [arrAt1 (HandRun.V3 m) c]
  show Hand1.half * (Ideal.tanh (Hand1.half * (∑ k : Fin 128, zOf (HandRun.V3 m) c (ix2 (idx 0) k) * zOf (HandRun.V3 m) c (ix2 (idx 1) k))) + Hand1.one) = _
  rw [hs]
  exact SpecLaws.outKer_score hx hw hb (m ((c.tc : Thread nD τ).loc main_arg1)) (idx 0) (idx 1)

end Entry

/-- THE KERNEL'S RUN, with its two results stated by the specification: from real features, weights and bias and
    in-range node numbers, every weakly fair execution terminates with the decoder's output array holding the
    logistic function of the scores, the layer's output array holding the layer's output, and the four arguments
    unchanged. -/
theorem ker_run (ρ : Dev nD → PrngReg)
    (hx : ∀ c : Dev nD, Spec.IsRealArr (S := Spec.S8192x256) (m ((c.tc : Thread nD τ).loc main_arg0)))
    (hIn : ∀ c : Dev nD, Spec.InRange (m ((c.tc : Thread nD τ).loc main_arg1)))
    (hw : ∀ c : Dev nD, Spec.IsRealArr (S := Spec.S256x128) (m ((c.tc : Thread nD τ).loc main_arg2)))
    (hb : ∀ c : Dev nD, Spec.IsRealArr (S := Spec.S128) (m ((c.tc : Thread nD τ).loc main_arg3)))
    (hA : ∀ (c : Dev nD) (i j : Fin 8192), (HandRun.V1 m c main_v43 : S8192x8192.Idx → EReal) (ix2 i j)
      = Spec.adj (m ((c.tc : Thread nD τ).loc main_arg1)) i j)
    (hH : ∀ (c : Dev nD) (n : Fin 8192) (k : Fin 128), (HandRun.V1 m c main_v44 : S8192x128.Idx → EReal) (ix2 n k)
      = Spec.hmat (m ((c.tc : Thread nD τ).loc main_arg0)) (m ((c.tc : Thread nD τ).loc main_arg2)) n k)
    (hB : ∀ (c : Dev nD) (k : Fin 128), (HandRun.V1 m c main_v45 : S1x128.Idx → EReal) (ix2 (0 : Fin 1) k)
      = (m ((c.tc : Thread nD τ).loc main_arg3) : Spec.BArr) (ix1 k)) :
    θ_run (defs (F := Ideal)) (onTc (τ := τ) (main (F := Ideal))) ⟨m, fun _ => 0, ρ⟩ fun r => ∀ c : Dev nD,
      r.2.mem ((c.tc : Thread nD τ).loc main_v48)
          = (fun idx => Spec.outRef (Spec.score (m ((c.tc : Thread nD τ).loc main_arg0))
              (m ((c.tc : Thread nD τ).loc main_arg1)) (m ((c.tc : Thread nD τ).loc main_arg2))
              (m ((c.tc : Thread nD τ).loc main_arg3)) (idx 0) (idx 1)))
      ∧ r.2.mem ((c.tc : Thread nD τ).loc main_v46)
          = (fun idx => Spec.z (m ((c.tc : Thread nD τ).loc main_arg0))
              (m ((c.tc : Thread nD τ).loc main_arg1)) (m ((c.tc : Thread nD τ).loc main_arg2))
              (m ((c.tc : Thread nD τ).loc main_arg3)) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c =>
    ⟨(h c _ (mem_uc main_v48 (by decide))).trans ((W4_v48 m c).trans
        (funext fun idx : S8192x8192.Idx => arr1_apply m c (hx c) (hw c) (hb c) (hA c) (hH c) (hB c) idx)),
     (h c _ (mem_uc main_v46 (by decide))).trans ((W4_v46 m c).trans
        (funext fun idx : S8192x128.Idx => (congrArg _ (eq_ix2 idx)).trans
          (arr0_apply m c (hx c) (hw c) (hA c) (hH c) (hB c) (idx 0) (idx 1)))),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide))⟩)
    (run_main m ρ)

end Cert.KernelIdeal.Bridge

end
-- ==== Proof.LibGatherRows.lean ====
/-
  A gather along the leading axis, read at an index written by coordinates: what `x[idx]` is for an array of rows
  `x : [N, C]` (whole rows taken) and for a vector `x : [N]` (single entries taken), at a column `idx : [E, 1]` of
  start indices. Entry `e` of the result is row (entry) `γ e` of the operand, where `γ e` is the start index `idx[e, 0]`
  read as a signed integer and clamped into `[0, N − 1]`: negative starts clamp to row `0`, starts past the end to the
  last row.
-/
import Idealize.ShloMosaic.PureOps.ShapeOps
import Idealize.ShloMosaic.Lib.ValueIdx

namespace Idealize.ShloMosaic.ValueIdx

section LeadingAxis
variable {α : Type}

/-- The row the start index `idx[e, 0]` selects among `N` rows: read signed, clamped into `[0, N − 1]`. -/
def clampRow {N E w : Nat} (hN : 0 < N) (idx : IVec ⟨2, ![E, 1]⟩ w) (e : Fin E) : Fin N :=
  ⟨min (idx (ix2 e (0 : Fin 1))).toInt.toNat (N - 1), by omega⟩

/-- The dimension numbers of "take whole rows": operand `[N, C]`, start indices `[E, 1]` (the index vector along axis 1),
    result `[E, C]`; the row axis is collapsed and indexed, the column axis is an offset axis of full extent. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Whole rows taken: the result at `(e, k)` is the operand at `(γ e, k)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k) = x (ix2 (clampRow hN idx e) k) := by
  unfold Host.gather
  congr 1
  funext a
  refine Fin.ext ?_
  match a with
  | ⟨0, _⟩ =>
    show (rowsDims N E C wf).start (ix2 e k) idx 0 + (rowsDims N E C wf).batchCoord (ix2 e k) 0
      + (rowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e k) idx 1 + (rowsDims N E C wf).batchCoord (ix2 e k) 1
      + (rowsDims N E C wf).offCoord (ix2 e k) 1 = k.val
    rw [GatherDims.batchCoord_eq_zero _ _ _ List.not_mem_nil]
    unfold GatherDims.start
    rw [dif_neg (show (1 : Fin 2) ∉ [(0 : Fin 2)] from by decide)]
    unfold GatherDims.offCoord
    rw [dif_pos ((GatherDims.mem_sKept _ _).mpr ⟨(show (1 : Fin 2) ∉ [(0 : Fin 2)] from by decide), List.not_mem_nil⟩)]
    -- the one offset axis is axis 1, whatever position the list lookup computes
    have one : ∀ (n : Nat) (h : n < ([1] : List (Fin 2)).length), ([1] : List (Fin 2))[n]'h = 1 := by
      intro n h
      have hn : n = 0 := by simpa using h
      subst hn; rfl
    show 0 + 0 + (ix2 e k (([1] : List (Fin 2))[List.idxOf (1 : Fin 2) (rowsDims N E C wf).sKept]'_)).val = k.val
    rw [one]
    show 0 + 0 + k.val = k.val
    omega

/-- The dimension numbers of "take single entries": operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Single entries taken: the result at `e` is the operand at `γ e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow hN idx e)) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end LeadingAxis

end Idealize.ShloMosaic.ValueIdx
-- ==== Proof.RefIdx.lean ====
/-
  The reference program's edge lists, read at an edge.

  The program joins each row of the edge list with the loop edges `0, 1, …, 8191` into a list of 270336 node numbers
  (sources, targets). When every listed node number is in range, entry `e` of the joined source (target) list is the
  32-bit word of the specification's `src e` (`dst e`). The program then replaces a negative entry `k` by `k + 8192`
  before it takes entries or rows of an array at these positions; a word of a node number is never negative, so that
  replacement changes nothing, the position read is `src e` (`dst e`) itself, with no clamping, and read as a signed
  number the word is the node number.
-/
import proofs.«100069_j65712999629271_2_alg».proof.Proof.Gen.ReferenceIdeal.Read
import proofs.«100069_j65712999629271_2_alg».proof.Proof.Spec
import proofs.«100069_j65712999629271_2_alg».proof.Proof.LibGatherRows
import Idealize.ShloMosaic.Lib.WordArith

noncomputable section

namespace Cert.ReferenceIdeal.RefValue

open Cert.ReferenceIdeal Cert.ReferenceIdeal.Read Idealize.ShloMosaic Idealize.ShloMosaic.ValueIdx

/-! ## Words of node numbers -/

/-- The 32-bit word of a node number. -/
def wordOf (n : Fin 8192) : BitVec 32 := BitVec.ofNat 32 n.val

/-- Read as a signed number, the word of a node number is the node number. -/
theorem wordOf_toInt (n : Fin 8192) : (wordOf n).toInt = (n.val : Int) :=
  WordArith.toInt_ofNat_small n.val (by have := n.isLt; omega)

/-- A word that, read signed, lies in `[0, 8192)` is below 8192 as a natural number. -/
theorem toNat_lt_of_inRange (w : BitVec 32) (h0 : 0 ≤ w.toInt) (h1 : w.toInt < 8192) : w.toNat < 8192 := by
  have hc := BitVec.toInt_eq_toNat_cond w
  have hlt := w.isLt
  split at hc <;> omega

/-- A word in range is the word of the node it names. -/
theorem wordOf_node (w : BitVec 32) (h0 : 0 ≤ w.toInt) (h1 : w.toInt < 8192) : wordOf (Spec.node w) = w := by
  have h := toNat_lt_of_inRange w h0 h1
  apply BitVec.eq_of_toNat_eq
  unfold wordOf Spec.node
  rw [BitVec.toNat_ofNat]
  show w.toNat % 8192 % 2 ^ 32 = w.toNat
  omega

/-- Replacing a negative position `k` by `k + 8192` leaves a non-negative word alone. -/
theorem wrap_of_nonneg (W : BitVec 32) (h : 0 ≤ W.toInt) :
    Scalar.select (IntOp.cmpi .slt W 0#32) (IntOp.addi W 8192#32) W = W := by
  have hc : IntOp.cmpi .slt W 0#32 = 0#1 := by
    show BitVec.ofBool (W.slt 0#32) = 0#1
    have hs : W.slt 0#32 = false := by
      show decide (W.toInt < (0#32).toInt) = false
      rw [BitVec.toInt_zero]
      exact decide_eq_false (not_lt.2 h)
    rw [hs]; rfl
  rw [hc]
  exact select_zero _ _

/-- The position a word of a node number selects among 8192 rows, read signed and clamped into range: the node. -/
theorem clamp_wordOf (n : Fin 8192) : min (wordOf n).toInt.toNat (8192 - 1) = n.val := by
  rw [wordOf_toInt]
  have := n.isLt
  omega

/-! ## The joined lists at an edge -/

variable (x1 : Spec.EArr)

/-- Entry `e` of the joined source list is the word of `src e`. -/
theorem sources_at (hIn : Spec.InRange x1) (e : Fin 270336) :
    val_main_v4 (F := Ideal) x1 (ix1 e) = wordOf (Spec.src x1 e) := by
  unfold val_main_v4
  by_cases h : e.val < 262144
  · rw [concatenate_pair_apply_left (0 : Fin 1) (val_main_v3 (F := Ideal) x1) (val_main_v1 (F := Ideal)) _ (ix1 e) rfl
      (ix1 (⟨e.val, h⟩ : Fin 262144)) (fun b => match b with | ⟨0, _⟩ => rfl)]
    rw [val_main_v3_apply, val_main_v2_apply]
    have hi : idx_main_v2 (idx_main_v3 (ix1 (⟨e.val, h⟩ : Fin 262144))) = ix2 (0 : Fin 2) (⟨e.val, h⟩ : Fin 262144) := by
      funext a
      match a with
      | ⟨0, _⟩ => rfl
      | ⟨1, _⟩ => exact Fin.ext (Nat.mod_eq_of_lt h)
    rw [hi]
    unfold Spec.src
    rw [dif_pos h]
    exact (wordOf_node _ (hIn _).1 (hIn _).2).symm
  · have h' : 262144 ≤ e.val := Nat.le_of_not_lt h
    have hlt : e.val - 262144 < 8192 := by have := e.isLt; omega
    rw [concatenate_pair_apply_right (0 : Fin 1) (val_main_v3 (F := Ideal) x1) (val_main_v1 (F := Ideal)) _ (ix1 e) rfl rfl
      (ix1 (⟨e.val - 262144, hlt⟩ : Fin 8192)) (fun b hb => absurd (Subsingleton.elim (α := Fin 1) _ _) hb)
      (by show (e.val - 262144) + 262144 = e.val; omega)]
    rw [val_main_v1_apply]
    unfold Spec.src
    rw [dif_neg h]
    rfl

/-- Entry `e` of the joined target list is the word of `dst e`. -/
theorem targets_at (hIn : Spec.InRange x1) (e : Fin 270336) :
    val_main_v7 (F := Ideal) x1 (ix1 e) = wordOf (Spec.dst x1 e) := by
  unfold val_main_v7
  by_cases h : e.val < 262144
  · rw [concatenate_pair_apply_left (0 : Fin 1) (val_main_v6 (F := Ideal) x1) (val_main_v1 (F := Ideal)) _ (ix1 e) rfl
      (ix1 (⟨e.val, h⟩ : Fin 262144)) (fun b => match b with | ⟨0, _⟩ => rfl)]
    rw [val_main_v6_apply, val_main_v5_apply]
    have hi : idx_main_v5 (idx_main_v6 (ix1 (⟨e.val, h⟩ : Fin 262144))) = ix2 (1 : Fin 2) (⟨e.val, h⟩ : Fin 262144) := by
      funext a
      match a with
      | ⟨0, _⟩ => rfl
      | ⟨1, _⟩ => exact Fin.ext (Nat.mod_eq_of_lt h)
    rw [hi]
    unfold Spec.dst
    rw [dif_pos h]
    exact (wordOf_node _ (hIn _).1 (hIn _).2).symm
  · have h' : 262144 ≤ e.val := Nat.le_of_not_lt h
    have hlt : e.val - 262144 < 8192 := by have := e.isLt; omega
    rw [concatenate_pair_apply_right (0 : Fin 1) (val_main_v6 (F := Ideal) x1) (val_main_v1 (F := Ideal)) _ (ix1 e) rfl rfl
      (ix1 (⟨e.val - 262144, hlt⟩ : Fin 8192)) (fun b hb => absurd (Subsingleton.elim (α := Fin 1) _ _) hb)
      (by show (e.val - 262144) + 262144 = e.val; omega)]
    rw [val_main_v1_apply]
    unfold Spec.dst
    rw [dif_neg h]
    rfl

/-! ## The positions the program reads and writes at -/

/-- A column index `(e, 0)` of a list laid out as a column reads entry `e` of the list. -/
theorem col_idx (e : Fin 270336) : idx_main_v10 (ix2 e (0 : Fin 1)) = ix1 e := by
  funext a
  match a with
  | ⟨0, _⟩ => rfl

/-- The start positions of the first entry-gather (sources, negative ones wrapped): the word of `src e`. -/
theorem srcpos_at (hIn : Spec.InRange x1) (e : Fin 270336) :
    val_main_v18 (F := Ideal) x1 (ix2 e (0 : Fin 1)) = wordOf (Spec.src x1 e) := by
  rw [val_main_v18_apply, show idx_main_v18 (ix2 e (0 : Fin 1)) = ix1 e from col_idx e,
    val_main_v17_apply, val_main_v14_apply, val_main_v16_apply, val_main_v13_apply, val_main_v15_apply,
    val_main_c_apply, val_main_c_1_apply, sources_at x1 hIn e]
  exact wrap_of_nonneg _ (by rw [wordOf_toInt]; omega)

/-- The start positions of the second entry-gather (targets, negative ones wrapped): the word of `dst e`. -/
theorem dstpos_at (hIn : Spec.InRange x1) (e : Fin 270336) :
    val_main_v25 (F := Ideal) x1 (ix2 e (0 : Fin 1)) = wordOf (Spec.dst x1 e) := by
  rw [val_main_v25_apply, show idx_main_v25 (ix2 e (0 : Fin 1)) = ix1 e from col_idx e,
    val_main_v24_apply, val_main_v21_apply, val_main_v23_apply, val_main_v20_apply, val_main_v22_apply,
    val_main_c_2_apply, val_main_c_3_apply, targets_at x1 hIn e]
  exact wrap_of_nonneg _ (by rw [wordOf_toInt]; omega)

/-- The start positions of the row-gather (sources, negative ones wrapped): the word of `src e`. -/
theorem rowpos_at (hIn : Spec.InRange x1) (e : Fin 270336) :
    val_main_v33 (F := Ideal) x1 (ix2 e (0 : Fin 1)) = wordOf (Spec.src x1 e) := by
  rw [val_main_v33_apply, show idx_main_v33 (ix2 e (0 : Fin 1)) = ix1 e from col_idx e,
    val_main_v32_apply, val_main_v29_apply, val_main_v31_apply, val_main_v28_apply, val_main_v30_apply,
    val_main_c_4_apply, val_main_c_5_apply, sources_at x1 hIn e]
  exact wrap_of_nonneg _ (by rw [wordOf_toInt]; omega)

/-- The positions of the scalar segment sum (targets as listed): the word of `dst e`. -/
theorem degpos_at (hIn : Spec.InRange x1) (e : Fin 270336) :
    val_main_v10 (F := Ideal) x1 (ix2 e (0 : Fin 1)) = wordOf (Spec.dst x1 e) := by
  rw [val_main_v10_apply, col_idx e, targets_at x1 hIn e]

/-- The positions of the row segment sum (targets as listed): the word of `dst e`. -/
theorem aggpos_at (hIn : Spec.InRange x1) (e : Fin 270336) :
    val_main_v39 (F := Ideal) x1 (ix2 e (0 : Fin 1)) = wordOf (Spec.dst x1 e) := by
  rw [val_main_v39_apply, show idx_main_v39 (ix2 e (0 : Fin 1)) = ix1 e from col_idx e, targets_at x1 hIn e]

/-- The row each gather reads, clamped into range: the node itself. -/
theorem clampRow_of_word (idx : IVec ⟨2, ![270336, 1]⟩ 32) (e : Fin 270336) (n : Fin 8192)
    (h : idx (ix2 e (0 : Fin 1)) = wordOf n) : clampRow (N := 8192) (by norm_num) idx e = n := by
  apply Fin.ext
  show min (idx (ix2 e (0 : Fin 1))).toInt.toNat (8192 - 1) = n.val
  rw [h]
  exact clamp_wordOf n

/-- A word of a node number, read signed, is a given node number exactly when the nodes are equal. -/
theorem wordOf_toInt_eq_iff (n i : Fin 8192) : (wordOf n).toInt = (i.val : Int) ↔ n = i := by
  rw [wordOf_toInt]
  constructor
  · intro h; exact Fin.ext (by omega)
  · intro h; rw [h]

end Cert.ReferenceIdeal.RefValue

end
-- ==== Proof.LibScatterRows.lean ====
/-
  A scatter of rows along the leading axis: updates `[E, C]` sent to rows of an operand `[N, C]` by a column
  `idx : [E, 1]` of start indices (what a segment sum by destination is). An update entry `(e, k)` lands on the operand
  entry `(idx[e, 0], k)` when that start index, read as a signed integer and NOT clamped, is a row of the operand, and is
  dropped otherwise. Read backwards: an update that lands in row `r` has start index exactly `r`.
-/
import Idealize.ShloMosaic.PureOps.ShapeOps
import Idealize.ShloMosaic.Lib.ValueIdx

namespace Idealize.ShloMosaic.ValueIdx

section LeadingAxis

/-- The dimension numbers of "add rows into rows": operand `[N, C]`, scatter indices `[E, 1]` (the index vector along
    axis 1), updates `[E, C]`; the row axis is inserted and indexed, the column axis is the update's window axis. -/
abbrev scatterRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update entry `j = (e, k)` that lands on the operand entry `i` has the start index `idx[e, 0]`, read signed,
    equal to `i`'s row. -/
theorem scatterRows_row_of_lands {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (scatterRowsDims N E C wf).resultIdx? j idx = some i) :
    (idx (ix2 (j 0) (0 : Fin 1))).toInt = ((i 0).val : Int) := by
  unfold ScatterDims.resultIdx? at h
  split at h
  · rename_i hh
    have hi := Option.some.inj h
    have hv : ((scatterRowsDims N E C wf).start j idx 0 + (scatterRowsDims N E C wf).window j 0).toNat = (i 0).val :=
      congrArg Fin.val (congrFun hi 0)
    have hs : (scatterRowsDims N E C wf).start j idx 0 = (idx (ix2 (j 0) (0 : Fin 1))).toInt := by
      unfold ScatterDims.start
      rw [dif_pos (show (0 : Fin 2) ∈ (scatterRowsDims N E C wf).scatterDimsToOperandDims from List.mem_singleton.mpr rfl)]
      have hsi : (scatterRowsDims N E C wf).siIdx j ⟨List.idxOf (0 : Fin 2) (scatterRowsDims N E C wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    have hw : (scatterRowsDims N E C wf).window j 0 = 0 := by
      unfold ScatterDims.window
      have hn : (0 : Fin 2) ∉ (scatterRowsDims N E C wf).sKept :=
        (by decide : (0 : Fin 2) ∉ (List.finRange 2).filter (fun x => x ∉ [(0 : Fin 2)]))
      rw [dif_neg hn]
    have h0 := (hh 0).1
    rw [hs, hw] at hv h0
    omega
  · exact absurd h (by simp)

end LeadingAxis

end Idealize.ShloMosaic.ValueIdx
-- ==== Proof.LibScatterSet.lean ====
/-
  The host scatter whose body returns the update (an array SET at computed positions), read at one
  element of the result.

  `Host.scatter d f x idx upd` is a left fold over the update indices in row-major order: update
  index `j` replaces the element at `i` when `d.resultIdx? j idx = some i` and is dropped when that
  is `none`. For `f = fun _ b => b` the replaced element is the update's own. This file names one step
  of that fold, follows the fold over an arbitrary list of update numbers, and concludes the two
  facts a reader of one element needs:

  * `scatter_set_hit`: an element that exactly one update index lands on holds that update's element;
  * `scatter_set_miss`: an element no update index lands on keeps the operand's element.

  Nothing here depends on the shapes or on the dimension numbers: both are statements about the fold.
-/
import Idealize.ShloMosaic.PureOps.ShapeOps

namespace Idealize.ShloMosaic.LibScatterSet

open Idealize.ShloMosaic

variable {α : Type} {s si u : Shape} {w : Nat}

/-- One step of the fold of a scatter whose body returns the update: update number `n` (row-major)
    overwrites the accumulated array `r` at the index it lands on, and leaves `r` alone when it
    lands outside the operand. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter whose body returns the update is the left fold of `step` over all update numbers. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands on `i` leaves that update's element at `i`. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  simp only [step, h, if_true]

/-- A step whose update does not land on `i` leaves the accumulated element at `i` unchanged. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases hres : d.resultIdx? (u.rowMajor.symm n) idx with
  | none => rfl
  | some i0 =>
    have hne : i ≠ i0 := fun hi => h (by rw [hres, hi])
    simp only [if_neg hne]

/-- Folding over a list of update numbers none of which lands on `i` leaves the element at `i`
    unchanged. -/
theorem foldl_miss (d : ScatterDims s si u) (idx : IVec si w) (upd : u.Idx → α) (i : s.Idx)
    (l : List (Fin u.numel)) (h : ∀ n ∈ l, d.resultIdx? (u.rowMajor.symm n) idx ≠ some i)
    (x : s.Idx → α) : l.foldl (step d idx upd) x i = x i := by
  induction l generalizing x with
  | nil => rfl
  | cons n l ih =>
    rw [List.foldl_cons, ih (fun m hm => h m (List.mem_cons_of_mem n hm)),
      step_of_ne d idx upd x n i (h n List.mem_cons_self)]

/-- Folding over a list of update numbers that contains the number of `j`, where `j` lands on `i`
    and every listed update that lands on `i` is `j`, leaves `upd j` at `i`: the steps before `j`'s
    are overwritten by it, and the steps after it either are `j`'s again or land elsewhere. -/
theorem foldl_hit (d : ScatterDims s si u) (idx : IVec si w) (upd : u.Idx → α) (i : s.Idx) (j : u.Idx)
    (hj : d.resultIdx? j idx = some i) (l : List (Fin u.numel))
    (huniq : ∀ n ∈ l, d.resultIdx? (u.rowMajor.symm n) idx = some i → u.rowMajor.symm n = j)
    (hmem : u.rowMajor j ∈ l) (x : s.Idx → α) : l.foldl (step d idx upd) x i = upd j := by
  induction l generalizing x with
  | nil => exact absurd hmem List.not_mem_nil
  | cons n l ih =>
    rw [List.foldl_cons]
    by_cases hl : u.rowMajor j ∈ l
    · exact ih (fun m hm => huniq m (List.mem_cons_of_mem n hm)) hl _
    · have hn : n = u.rowMajor j := by
        rcases List.mem_cons.1 hmem with h | h
        · exact h.symm
        · exact absurd h hl
      have hsymm : u.rowMajor.symm n = j := by rw [hn, Equiv.symm_apply_apply]
      have hrest : ∀ m ∈ l, d.resultIdx? (u.rowMajor.symm m) idx ≠ some i := by
        intro m hm hres
        have hmj : u.rowMajor.symm m = j := huniq m (List.mem_cons_of_mem n hm) hres
        apply hl
        rw [← hmj, Equiv.apply_symm_apply]
        exact hm
      rw [foldl_miss d idx upd i l hrest, step_of_eq d idx upd x n i (by rw [hsymm]; exact hj), hsymm]

/-- HIT. If update index `j` lands on `i` and is the only update index that does, the scatter whose
    body returns the update holds `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  exact foldl_hit d idx upd i j hj _ (fun n _ hn => huniq _ hn) (List.mem_finRange _) x

/-- MISS. If no update index lands on `i`, the scatter whose body returns the update keeps the
    operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_miss d idx upd i _ (fun n _ => hnone _) x

/-- WHERE AN UPDATE LANDS, by coordinates. Update index `j` lands on `i` exactly when, on every operand
    axis, `i`'s coordinate is the window's start plus the window coordinate (as integers): the sum is
    then inside the operand on every axis, which is the condition under which the update is kept. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro he a
      have hi := Option.some.inj he
      have ha := h a
      rw [← hi]
      show ((d.start j idx a + d.window j a).toNat : Int) = _
      omega
    · intro hi
      congr 1
      funext a
      apply Fin.ext
      have ha := hi a
      show (d.start j idx a + d.window j a).toNat = (i a).val
      omega
  · rename_i h
    constructor
    · intro he
      cases he
    · intro hi
      exfalso
      apply h
      intro a
      have ha := hi a
      have hlt := (i a).isLt
      omega

end Idealize.ShloMosaic.LibScatterSet
-- ==== Proof.LibRows3.lean ====
/-
  Rows of an array with a unit middle axis, `[N, 1, C]`, taken and added into by a column `idx : [E, 1]` of start
  indices, read at an index written by coordinates; and the rank-2 scatter-add of rows written as a sum over the update
  rows.

  * Taking rows (`x[idx]`): entry `(e, 0, k)` of the result is the operand at `(γ e, 0, k)`, where `γ e` is the
    start index `idx[e, 0]` read as a signed integer and clamped into `[0, N − 1]`.
  * Adding rows (a segment sum by destination): entry `(n, k)` [or `(n, 0, k)`] of the result is the operand's entry
    plus the sum, over the update rows `e` whose start index `idx[e, 0]`, read signed and NOT clamped, is exactly
    `n`, of the update's entry `(e, k)` [or `(e, 0, k)`]. Update rows whose start index is not a row of the operand
    contribute nothing.
-/
import Idealize.ShloMosaic.PureOps.Ideal
import Idealize.ShloMosaic.Lib.ValueIdx
import proofs.«100069_j65712999629271_2_alg».proof.Proof.LibGatherRows
import proofs.«100069_j65712999629271_2_alg».proof.Proof.LibScatterRows
import proofs.«100069_j65712999629271_2_alg».proof.Proof.LibScatterSet

open scoped BigOperators

namespace Idealize.ShloMosaic.ValueIdx

open Idealize.ShloMosaic

/-! ## Taking whole rows of `[N, 1, C]` -/

section Gather3
variable {α : Type}

/-- The offset coordinate on a kept operand axis `a` whose position among the kept axes is `p`: the result index's
    coordinate on the `p`-th offset axis. -/
theorem rows3_offCoord_of_pos {s si t : Shape} (d : GatherDims s si t) (j : t.Idx) (a : Fin s.rank)
    (ha : a ∈ d.sKept) (p : Nat) (hp : p < d.offsetDims.length) (h : d.sKept.idxOf a = p) :
    d.offCoord j a = (j (d.offsetDims[p]'hp)).val := by
  subst h
  unfold GatherDims.offCoord
  rw [dif_pos ha]

/-- The dimension numbers of "take whole rows" of an operand `[N, 1, C]`: start indices `[E, 1]` (the index vector
    along axis 1), result `[E, 1, C]`; the row axis is collapsed and indexed, the unit axis and the column axis are
    offset axes of full extent. -/
abbrev rows3Dims (N E C : Nat)
    (wf : GatherDims.WF ⟨3, ![N, 1, C]⟩ ⟨2, ![E, 1]⟩ ⟨3, ![E, 1, C]⟩ [1, 2] [0] [] [0] [] 1 ![1, 1, C]) :
    GatherDims ⟨3, ![N, 1, C]⟩ ⟨2, ![E, 1]⟩ ⟨3, ![E, 1, C]⟩ where
  offsetDims := [1, 2]
  collapsedSliceDims := [0]
  operandBatchingDims := []
  startIndicesBatchingDims := []
  startIndexMap := [0]
  indexVectorDim := 1
  sliceSizes := ![1, 1, C]
  wf := wf

/-- Whole rows taken from `[N, 1, C]`: the result at `(e, 0, k)` is the operand at `(γ e, 0, k)`, `γ e` the start
    index `idx[e, 0]` read signed and clamped into `[0, N − 1]`. -/
theorem gather_rows3_apply {N E C w : Nat} (hN : 0 < N)
    (wf : GatherDims.WF ⟨3, ![N, 1, C]⟩ ⟨2, ![E, 1]⟩ ⟨3, ![E, 1, C]⟩ [1, 2] [0] [] [0] [] 1 ![1, 1, C])
    (x : (⟨3, ![N, 1, C]⟩ : Shape).Idx → α) (idx : IVec ⟨2, ![E, 1]⟩ w) (e : Fin E) (k : Fin C) :
    Host.gather (rows3Dims N E C wf) x idx (ix3 e (0 : Fin 1) k) = x (ix3 (clampRow hN idx e) (0 : Fin 1) k) := by
  unfold Host.gather
  congr 1
  funext a
  match a with
  | ⟨0, _⟩ =>
    refine Fin.ext ?_
    show (rows3Dims N E C wf).start (ix3 e (0 : Fin 1) k) idx 0 + (rows3Dims N E C wf).batchCoord (ix3 e (0 : Fin 1) k) 0
      + (rows3Dims N E C wf).offCoord (ix3 e (0 : Fin 1) k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Dims N E C wf).startIndexMap from List.mem_singleton.mpr rfl)]
    have hsi : (rows3Dims N E C wf).siIdx (ix3 e (0 : Fin 1) k) ⟨List.idxOf (0 : Fin 3) (rows3Dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the middle axis has one coordinate
    exact Subsingleton.elim (α := Fin 1) _ _
  | ⟨2, _⟩ =>
    refine Fin.ext ?_
    show (rows3Dims N E C wf).start (ix3 e (0 : Fin 1) k) idx 2 + (rows3Dims N E C wf).batchCoord (ix3 e (0 : Fin 1) k) 2
      + (rows3Dims N E C wf).offCoord (ix3 e (0 : Fin 1) k) 2 = k.val
    rw [GatherDims.batchCoord_eq_zero _ _ _ List.not_mem_nil]
    have hs : (rows3Dims N E C wf).start (ix3 e (0 : Fin 1) k) idx 2 = 0 := by
      unfold GatherDims.start
      rw [dif_neg (show (2 : Fin 3) ∉ [(0 : Fin 3)] from by decide)]
    have hk : (2 : Fin 3) ∈ (rows3Dims N E C wf).sKept :=
      (GatherDims.mem_sKept _ _).mpr ⟨(show (2 : Fin 3) ∉ [(0 : Fin 3)] from by decide), List.not_mem_nil⟩
    -- the column axis is the second of the two kept axes, and the second offset axis is the result's column axis
    have ho := rows3_offCoord_of_pos (rows3Dims N E C wf) (ix3 e (0 : Fin 1) k) 2 hk 1
      (show 1 < ([1, 2] : List (Fin 3)).length from by decide)
      (by decide : List.idxOf (2 : Fin 3) ((List.finRange 3).filter (fun x => x ∉ [(0 : Fin 3)] ++ [])) = 1)
    rw [hs, ho]
    show 0 + 0 + k.val = k.val
    omega

end Gather3

/-! ## Adding rows into rows, as a sum over the update rows -/

section ScatterAdd

/-- The window coordinate on a kept operand axis `a` whose position among the kept axes is `p`: the update index's
    coordinate on the `p`-th window axis. -/
theorem rows3_window_of_pos {s si u : Shape} (d : ScatterDims s si u) (j : u.Idx) (a : Fin s.rank)
    (ha : a ∈ d.sKept) (p : Nat) (hp : p < d.updateWindowDims.length) (h : d.sKept.idxOf a = p) :
    d.window j a = (j (d.updateWindowDims[p]'hp)).val := by
  subst h
  unfold ScatterDims.window
  rw [dif_pos ha]

/-- Where an update entry of the rank-2 scatter of rows lands: the update entry `(e, k')` lands on the operand entry
    `(n, k)` exactly when its start index `idx[e, 0]`, read signed, is `n` and its column is `k`. -/
theorem scatterRows_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (scatterRowsDims N E C wf).resultIdx? (ix2 e k') idx = some (ix2 n k) ↔
      (idx (ix2 e (0 : Fin 1))).toInt = (n.val : Int) ∧ k' = k := by
  rw [LibScatterSet.resultIdx?_eq_some_iff]
  -- the start of the window: the start index read signed on the row axis, 0 on the column axis
  have hs0 : (scatterRowsDims N E C wf).start (ix2 e k') idx 0 = (idx (ix2 e (0 : Fin 1))).toInt := by
    unfold ScatterDims.start
    rw [dif_pos (show (0 : Fin 2) ∈ (scatterRowsDims N E C wf).scatterDimsToOperandDims from List.mem_singleton.mpr rfl)]
    have hsi : (scatterRowsDims N E C wf).siIdx (ix2 e k')
        ⟨List.idxOf (0 : Fin 2) (scatterRowsDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N E C wf).start (ix2 e k') idx 1 = 0 := by
    unfold ScatterDims.start
    rw [dif_neg (show (1 : Fin 2) ∉ [(0 : Fin 2)] from by decide)]
  -- the window coordinate: 0 on the inserted row axis, the update's column on the column axis
  have hw0 : (scatterRowsDims N E C wf).window (ix2 e k') 0 = 0 := by
    unfold ScatterDims.window
    have hn : (0 : Fin 2) ∉ (scatterRowsDims N E C wf).sKept :=
      (by decide : (0 : Fin 2) ∉ (List.finRange 2).filter (fun x => x ∉ [(0 : Fin 2)]))
    rw [dif_neg hn]
  have hw1 : (scatterRowsDims N E C wf).window (ix2 e k') 1 = k'.val :=
    rows3_window_of_pos (scatterRowsDims N E C wf) (ix2 e k') 1
      (by decide : (1 : Fin 2) ∈ (List.finRange 2).filter (fun x => x ∉ [(0 : Fin 2)])) 0
      (show 0 < ([1] : List (Fin 2)).length from by decide)
      (by decide : List.idxOf (1 : Fin 2) ((List.finRange 2).filter (fun x => x ∉ [(0 : Fin 2)])) = 0)
  constructor
  · intro h
    have h0 : (n.val : Int) = (scatterRowsDims N E C wf).start (ix2 e k') idx 0
        + ((scatterRowsDims N E C wf).window (ix2 e k') 0 : Nat) := h 0
    have h1 : (k.val : Int) = (scatterRowsDims N E C wf).start (ix2 e k') idx 1
        + ((scatterRowsDims N E C wf).window (ix2 e k') 1 : Nat) := h 1
    rw [hs0, hw0] at h0
    rw [hs1, hw1] at h1
    exact ⟨by omega, Fin.ext (by omega)⟩
  · rintro ⟨h0, rfl⟩ a
    match a with
    | ⟨0, _⟩ =>
      show (n.val : Int) = (scatterRowsDims N E C wf).start (ix2 e k') idx 0
        + ((scatterRowsDims N E C wf).window (ix2 e k') 0 : Nat)
      rw [hs0, hw0]; omega
    | ⟨1, _⟩ =>
      show (k'.val : Int) = (scatterRowsDims N E C wf).start (ix2 e k') idx 1
        + ((scatterRowsDims N E C wf).window (ix2 e k') 1 : Nat)
      rw [hs1, hw1]; omega

/-- A sum over the columns of the terms "`f k'` if `(e, k')` lands, else 0", where landing means "the row condition
    `P` holds and the column is `k`": it is `f k` if `P` holds and 0 otherwise. -/
theorem sum_cols_lands {C : Nat} (P : Prop) [Decidable P] (L : Fin C → Prop) [DecidablePred L] (k : Fin C)
    (hL : ∀ k', L k' ↔ P ∧ k' = k) (f : Fin C → EReal) :
    (∑ k' : Fin C, if L k' then f k' else 0) = if P then f k else 0 := by
  by_cases hP : P
  · rw [if_pos hP, Finset.sum_eq_single k]
    · rw [if_pos ((hL k).2 ⟨hP, rfl⟩)]
    · intro k' _ hne
      rw [if_neg (fun hl => hne ((hL k').1 hl).2)]
    · intro hk
      exact absurd (Finset.mem_univ k) hk
  · rw [if_neg hP]
    refine Finset.sum_eq_zero (fun k' _ => ?_)
    rw [if_neg (fun hl => hP ((hL k').1 hl).1)]

/-- Rows added into rows: the result at `(n, k)` is the operand's entry plus the sum, over the update rows `e` whose
    start index `idx[e, 0]` read signed is `n`, of the update's entry `(e, k)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (scatterRowsDims N E C wf) x idx upd (ix2 n k)
      = x (ix2 n k) + ∑ e : Fin E, if (idx (ix2 e (0 : Fin 1))).toInt = (n.val : Int) then upd (ix2 e k) else 0 := by
  unfold Ideal.hostScatterAdd
  congr 1
  rw [Finset.sum_filter, sum_idx2]
  refine Finset.sum_congr rfl (fun e _ => ?_)
  exact sum_cols_lands _ _ k (fun k' => scatterRows_lands_iff wf idx e k' n k) (fun k' => upd (ix2 e k'))

end ScatterAdd

/-! ## Adding rows into the rows of `[N, 1, C]` -/

section ScatterAdd3

/-- A rank-3 index set is the product of its three coordinate ranges … -/
def rows3_idxEquiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem rows3_sum_idx {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (rows3_idxEquiv (n0 := n0) (n1 := n1) (n2 := n2)).symm f, Fintype.sum_prod_type]
  refine Finset.sum_congr rfl (fun a _ => ?_)
  rw [Fintype.sum_prod_type]
  rfl

/-- The dimension numbers of "add rows into rows" for an operand `[N, 1, C]`: scatter indices `[E, 1]` (the index
    vector along axis 1), updates `[E, 1, C]`; the row axis is inserted and indexed, the unit axis and the column axis
    are the update's window axes. -/
abbrev scatterRows3Dims (N E C : Nat)
    (wf : ScatterDims.WF ⟨3, ![N, 1, C]⟩ ⟨2, ![E, 1]⟩ ⟨3, ![E, 1, C]⟩ [1, 2] [0] [0] 1) :
    ScatterDims ⟨3, ![N, 1, C]⟩ ⟨2, ![E, 1]⟩ ⟨3, ![E, 1, C]⟩ where
  updateWindowDims := [1, 2]
  insertedWindowDims := [0]
  scatterDimsToOperandDims := [0]
  indexVectorDim := 1
  wf := wf

/-- Where an update entry of the rank-3 scatter of rows lands: the update entry `(e, z, k')` lands on the operand entry
    `(n, 0, k)` exactly when its start index `idx[e, 0]`, read signed, is `n` and its column is `k` (the unit axis
    has the one coordinate 0). -/
theorem scatterRows3_lands_iff {N E C w : Nat}
    (wf : ScatterDims.WF ⟨3, ![N, 1, C]⟩ ⟨2, ![E, 1]⟩ ⟨3, ![E, 1, C]⟩ [1, 2] [0] [0] 1)
    (idx : IVec ⟨2, ![E, 1]⟩ w) (e : Fin E) (z : Fin 1) (k' : Fin C) (n : Fin N) (k : Fin C) :
    (scatterRows3Dims N E C wf).resultIdx? (ix3 e z k') idx = some (ix3 n (0 : Fin 1) k) ↔
      (idx (ix2 e (0 : Fin 1))).toInt = (n.val : Int) ∧ k' = k := by
  rw [LibScatterSet.resultIdx?_eq_some_iff]
  -- the start of the window: the start index read signed on the row axis, 0 on the other two axes
  have hs0 : (scatterRows3Dims N E C wf).start (ix3 e z k') idx 0 = (idx (ix2 e (0 : Fin 1))).toInt := by
    unfold ScatterDims.start
    rw [dif_pos (show (0 : Fin 3) ∈ (scatterRows3Dims N E C wf).scatterDimsToOperandDims from List.mem_singleton.mpr rfl)]
    have hsi : (scatterRows3Dims N E C wf).siIdx (ix3 e z k')
        ⟨List.idxOf (0 : Fin 3) (scatterRows3Dims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRows3Dims N E C wf).start (ix3 e z k') idx 1 = 0 := by
    unfold ScatterDims.start
    rw [dif_neg (show (1 : Fin 3) ∉ [(0 : Fin 3)] from by decide)]
  have hs2 : (scatterRows3Dims N E C wf).start (ix3 e z k') idx 2 = 0 := by
    unfold ScatterDims.start
    rw [dif_neg (show (2 : Fin 3) ∉ [(0 : Fin 3)] from by decide)]
  -- the window coordinate: 0 on the inserted row axis, the update's own coordinate on the other two axes
  have hw0 : (scatterRows3Dims N E C wf).window (ix3 e z k') 0 = 0 := by
    unfold ScatterDims.window
    have hn : (0 : Fin 3) ∉ (scatterRows3Dims N E C wf).sKept :=
      (by decide : (0 : Fin 3) ∉ (List.finRange 3).filter (fun x => x ∉ [(0 : Fin 3)]))
    rw [dif_neg hn]
  have hw1 : (scatterRows3Dims N E C wf).window (ix3 e z k') 1 = z.val :=
    rows3_window_of_pos (scatterRows3Dims N E C wf) (ix3 e z k') 1
      (by decide : (1 : Fin 3) ∈ (List.finRange 3).filter (fun x => x ∉ [(0 : Fin 3)])) 0
      (show 0 < ([1, 2] : List (Fin 3)).length from by decide)
      (by decide : List.idxOf (1 : Fin 3) ((List.finRange 3).filter (fun x => x ∉ [(0 : Fin 3)])) = 0)
  have hw2 : (scatterRows3Dims N E C wf).window (ix3 e z k') 2 = k'.val :=
    rows3_window_of_pos (scatterRows3Dims N E C wf) (ix3 e z k') 2
      (by decide : (2 : Fin 3) ∈ (List.finRange 3).filter (fun x => x ∉ [(0 : Fin 3)])) 1
      (show 1 < ([1, 2] : List (Fin 3)).length from by decide)
      (by decide : List.idxOf (2 : Fin 3) ((List.finRange 3).filter (fun x => x ∉ [(0 : Fin 3)])) = 1)
  have hz : z.val = 0 := by have := z.isLt; omega
  constructor
  · intro h
    have h0 : (n.val : Int) = (scatterRows3Dims N E C wf).start (ix3 e z k') idx 0
        + ((scatterRows3Dims N E C wf).window (ix3 e z k') 0 : Nat) := h 0
    have h2 : (k.val : Int) = (scatterRows3Dims N E C wf).start (ix3 e z k') idx 2
        + ((scatterRows3Dims N E C wf).window (ix3 e z k') 2 : Nat) := h 2
    rw [hs0, hw0] at h0
    rw [hs2, hw2] at h2
    exact ⟨by omega, Fin.ext (by omega)⟩
  · rintro ⟨h0, rfl⟩ a
    match a with
    | ⟨0, _⟩ =>
      show (n.val : Int) = (scatterRows3Dims N E C wf).start (ix3 e z k') idx 0
        + ((scatterRows3Dims N E C wf).window (ix3 e z k') 0 : Nat)
      rw [hs0, hw0]; omega
    | ⟨1, _⟩ =>
      show (((0 : Fin 1)).val : Int) = (scatterRows3Dims N E C wf).start (ix3 e z k') idx 1
        + ((scatterRows3Dims N E C wf).window (ix3 e z k') 1 : Nat)
      rw [hs1, hw1, hz]; rfl
    | ⟨2, _⟩ =>
      show (k'.val : Int) = (scatterRows3Dims N E C wf).start (ix3 e z k') idx 2
        + ((scatterRows3Dims N E C wf).window (ix3 e z k') 2 : Nat)
      rw [hs2, hw2]; omega

/-- Rows added into the rows of `[N, 1, C]`: the result at `(n, 0, k)` is the operand's entry plus the sum, over the
    update rows `e` whose start index `idx[e, 0]` read signed is `n`, of the update's entry `(e, 0, k)`. -/
theorem hostScatterAdd_rows3_apply {N E C w : Nat}
    (wf : ScatterDims.WF ⟨3, ![N, 1, C]⟩ ⟨2, ![E, 1]⟩ ⟨3, ![E, 1, C]⟩ [1, 2] [0] [0] 1)
    (x : (⟨3, ![N, 1, C]⟩ : Shape).Idx → EReal) (idx : IVec ⟨2, ![E, 1]⟩ w)
    (upd : (⟨3, ![E, 1, C]⟩ : Shape).Idx → EReal) (n : Fin N) (k : Fin C) :
    Ideal.hostScatterAdd (scatterRows3Dims N E C wf) x idx upd (ix3 n (0 : Fin 1) k)
      = x (ix3 n (0 : Fin 1) k)
        + ∑ e : Fin E, if (idx (ix2 e (0 : Fin 1))).toInt = (n.val : Int) then upd (ix3 e (0 : Fin 1) k) else 0 := by
  unfold Ideal.hostScatterAdd
  congr 1
  rw [Finset.sum_filter, rows3_sum_idx]
  refine Finset.sum_congr rfl (fun e _ => ?_)
  rw [Fin.sum_univ_one]
  exact sum_cols_lands _ _ k (fun k' => scatterRows3_lands_iff wf idx e 0 k' n k) (fun k' => upd (ix3 e (0 : Fin 1) k'))

end ScatterAdd3

end Idealize.ShloMosaic.ValueIdx
-- ==== Proof.LibScatterEntries.lean ====
/-
  Single entries added into a vector: updates `[E]` sent to the entries of an operand `[N]` by a column
  `idx : [E, 1]` of start indices (a segment sum of scalars by destination), read at an entry written by its
  coordinate. Update `e` lands on the operand entry `idx[e, 0]` when that start index, read as a signed integer and
  NOT clamped, is an entry of the operand, and is dropped otherwise. So entry `n` of the result is the operand's
  entry plus the sum, over the updates `e` whose start index read signed is exactly `n`, of the update `e`.
-/
import Idealize.ShloMosaic.PureOps.Ideal
import Idealize.ShloMosaic.Lib.ValueIdx
import proofs.«100069_j65712999629271_2_alg».proof.Proof.LibScatterSet

open scoped BigOperators

namespace Idealize.ShloMosaic.ValueIdx

open Idealize.ShloMosaic

section ScatterEntries

/-- A rank-1 index set is its one coordinate range … -/
def entries_idxEquiv {n : Nat} : (⟨1, ![n]⟩ : Shape).Idx ≃ Fin n where
  toFun i := i 0
  invFun a := ix1 a
  left_inv i := (eq_ix1 i).symm
  right_inv _ := rfl

/-- … so a sum over it is the sum over the coordinate. -/
theorem entries_sum_idx {M : Type*} [AddCommMonoid M] {n : Nat} (f : (⟨1, ![n]⟩ : Shape).Idx → M) :
    ∑ i, f i = ∑ a : Fin n, f (ix1 a) := by
  rw [← Equiv.sum_comp (entries_idxEquiv (n := n)).symm f]
  rfl

/-- The dimension numbers of "add single entries into a vector": operand `[N]`, scatter indices `[E, 1]` (the
    index vector along axis 1), updates `[E]`; the one operand axis is inserted and indexed, there is no window
    axis. -/
abbrev scatterEntriesDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where an update lands: update `e` lands on the operand entry `n` exactly when its start index `idx[e, 0]`,
    read signed, is `n`. -/
theorem scatterEntries_lands_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (scatterEntriesDims N E wf).resultIdx? (ix1 e) idx = some (ix1 n) ↔
      (idx (ix2 e (0 : Fin 1))).toInt = (n.val : Int) := by
  rw [LibScatterSet.resultIdx?_eq_some_iff]
  -- the start of the window on the one operand axis: the start index read signed
  have hs0 : (scatterEntriesDims N E wf).start (ix1 e) idx 0 = (idx (ix2 e (0 : Fin 1))).toInt := by
    unfold ScatterDims.start
    rw [dif_pos (show (0 : Fin 1) ∈ (scatterEntriesDims N E wf).scatterDimsToOperandDims from List.mem_singleton.mpr rfl)]
    have hsi : (scatterEntriesDims N E wf).siIdx (ix1 e)
        ⟨List.idxOf (0 : Fin 1) (scatterEntriesDims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  -- the window coordinate on the inserted axis is 0
  have hw0 : (scatterEntriesDims N E wf).window (ix1 e) 0 = 0 := by
    unfold ScatterDims.window
    have hn : (0 : Fin 1) ∉ (scatterEntriesDims N E wf).sKept :=
      (by decide : (0 : Fin 1) ∉ (List.finRange 1).filter (fun x => x ∉ [(0 : Fin 1)]))
    rw [dif_neg hn]
  constructor
  · intro h
    have h0 : (n.val : Int) = (scatterEntriesDims N E wf).start (ix1 e) idx 0
        + ((scatterEntriesDims N E wf).window (ix1 e) 0 : Nat) := h 0
    rw [hs0, hw0] at h0
    omega
  · intro h0 a
    obtain rfl : a = 0 := Subsingleton.elim _ _
    show (n.val : Int) = (scatterEntriesDims N E wf).start (ix1 e) idx 0
      + ((scatterEntriesDims N E wf).window (ix1 e) 0 : Nat)
    rw [hs0, hw0]; omega

/-- Single entries added into a vector: the result at `n` is the operand's entry plus the sum, over the updates `e`
    whose start index `idx[e, 0]` read signed is `n`, of the update `e`. -/
theorem hostScatterAdd_entries_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (scatterEntriesDims N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, entries_sum_idx]
  refine Finset.sum_congr rfl (fun e _ => ?_)
  by_cases h : (idx (ix2 e (0 : Fin 1))).toInt = (n.val : Int)
  · rw [if_pos h, if_pos ((scatterEntries_lands_iff wf idx e n).2 h)]
  · rw [if_neg h, if_neg (fun hl => h ((scatterEntries_lands_iff wf idx e n).1 hl))]

end ScatterEntries

end Idealize.ShloMosaic.ValueIdx
-- ==== Proof.RefStages.lean ====
/-
  The reference program, stage by stage, read at an index as the specification's quantities.

  When every listed node number is in range: the scalar segment sum of ones by target is the in-degree; its reciprocal
  square root taken at the sources and at the targets, multiplied, is the edge weight; the rows of `h = x W` taken at
  the sources and scaled by the edge weights, segment-summed by target, are the aggregate; adding the bias and clipping
  below at zero gives the layer's output `z`; and the logistic function of the inner products of the rows of `z` is the
  decoder's output. Every entry-gather and row-gather reads at a position in range (no clamping), and every segment-sum
  update lands.
-/
import proofs.«100069_j65712999629271_2_alg».proof.Proof.Gen.ReferenceIdeal.Read
import proofs.«100069_j65712999629271_2_alg».proof.Proof.Spec
import proofs.«100069_j65712999629271_2_alg».proof.Proof.RefIdx
import proofs.«100069_j65712999629271_2_alg».proof.Proof.LibGatherRows
import proofs.«100069_j65712999629271_2_alg».proof.Proof.LibRows3
import proofs.«100069_j65712999629271_2_alg».proof.Proof.LibScatterEntries
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

variable (x0 : Spec.XArr) (x1 : Spec.EArr) (x2 : Spec.WArr) (x3 : Spec.BArr)

/-! ## Degrees and edge weights -/

/-- The scalar segment sum of ones by target, from zero: the in-degree. -/
theorem deg_at (hIn : Spec.InRange x1) (i : Fin 8192) :
    val_main_v11 (F := Ideal) x1 (ix1 i) = Spec.deg x1 i := by
  unfold val_main_v11
  show Ideal.hostScatterAdd (scatterEntriesDims 8192 270336 scatter_S8192_S270336x1_S270336_n_0_0_1_wf)
    (val_main_v9 (F := Ideal)) (val_main_v10 (F := Ideal) x1) (val_main_v8 (F := Ideal)) (ix1 i) = _
  rw [hostScatterAdd_entries_apply, val_main_v9_apply, val_main_cst_0_apply]
  unfold Spec.deg
  rw [Finset.sum_filter]
  refine congrArg₂ (· + ·) ?_ ?_
  · exact Ideal.ofBits_zero_f32
  · refine Finset.sum_congr rfl (fun e _ => ?_)
    rw [degpos_at x1 hIn e, val_main_v8_apply, val_main_cst_apply]
    by_cases h : Spec.dst x1 e = i
    · rw [if_pos h, if_pos ((wordOf_toInt_eq_iff _ _).2 h)]
      exact Ideal.ofBits_one_f32
    · rw [if_neg h, if_neg (fun h' => h ((wordOf_toInt_eq_iff _ _).1 h'))]

/-- The reciprocal square root of the in-degree. -/
theorem dinv_at (hIn : Spec.InRange x1) (i : Fin 8192) :
    val_main_v12 (F := Ideal) x1 (ix1 i) = Spec.dinv x1 i := by
  rw [val_main_v12_apply, deg_at x1 hIn i]
  unfold Spec.dinv
  generalize Spec.deg x1 i = d
  rfl

/-- The reciprocal square roots taken at the sources. -/
theorem dinv_src_at (hIn : Spec.InRange x1) (e : Fin 270336) :
    val_main_v19 (F := Ideal) x1 (ix1 e) = Spec.dinv x1 (Spec.src x1 e) := by
  unfold val_main_v19
  show Host.gather (entriesDims 8192 270336 gather_S8192_S270336x1_S270336_n_0_n_n_0_1_1_wf)
    (val_main_v12 (F := Ideal) x1) (val_main_v18 (F := Ideal) x1) (ix1 e) = _
  rw [gather_entries_apply (by norm_num), clampRow_of_word _ e _ (srcpos_at x1 hIn e), dinv_at x1 hIn]

/-- The reciprocal square roots taken at the targets. -/
theorem dinv_dst_at (hIn : Spec.InRange x1) (e : Fin 270336) :
    val_main_v26 (F := Ideal) x1 (ix1 e) = Spec.dinv x1 (Spec.dst x1 e) := by
  unfold val_main_v26
  show Host.gather (entriesDims 8192 270336 gather_S8192_S270336x1_S270336_n_0_n_n_0_1_1_wf)
    (val_main_v12 (F := Ideal) x1) (val_main_v25 (F := Ideal) x1) (ix1 e) = _
  rw [gather_entries_apply (by norm_num), clampRow_of_word _ e _ (dstpos_at x1 hIn e), dinv_at x1 hIn]

/-- The edge weight. -/
theorem norm_at (hIn : Spec.InRange x1) (e : Fin 270336) :
    val_main_v27 (F := Ideal) x1 (ix1 e) = Spec.norm x1 e := by
  rw [val_main_v27_apply, dinv_src_at x1 hIn e, dinv_dst_at x1 hIn e]
  unfold Spec.norm
  generalize Spec.dinv x1 (Spec.src x1 e) = a
  generalize Spec.dinv x1 (Spec.dst x1 e) = b
  rfl

/-! ## The transformed features and the messages -/

/-- The transformed features `h = x W`. -/
theorem hmat_at (n : Fin 8192) (c : Fin 128) :
    val_main_v0 (F := Ideal) x0 x2 (ix2 n c) = Spec.hmat x0 x2 n c := by
  rw [val_main_v0_apply]
  unfold Spec.hmat
  refine Finset.sum_congr rfl (fun k _ => ?_)
  have hl : lidx_main_v0 (ix2 n c) k = ix2 n k := by
    funext a
    match a with
    | ⟨0, _⟩ => rfl
    | ⟨1, _⟩ => rfl
  have hr : ridx_main_v0 (ix2 n c) k = ix2 k c := by
    funext a
    match a with
    | ⟨0, _⟩ => rfl
    | ⟨1, _⟩ => rfl
  rw [hl, hr]

/-- The rows of `h` taken at the sources. -/
theorem hrow_at (hIn : Spec.InRange x1) (e : Fin 270336) (c : Fin 128) :
    val_main_v34 (F := Ideal) x0 x1 x2 (ix2 e c) = Spec.hmat x0 x2 (Spec.src x1 e) c := by
  unfold val_main_v34
  show Host.gather (rowsDims 8192 270336 128 gather_S8192x128_S270336x1_S270336x128_1_0_n_n_0_1_1128_wf)
    (val_main_v0 (F := Ideal) x0 x2) (val_main_v33 (F := Ideal) x1) (ix2 e c) = _
  rw [gather_rows_apply (by norm_num), clampRow_of_word _ e _ (rowpos_at x1 hIn e), hmat_at]

/-- The message along edge `e`: the source's row of `h` scaled by the edge weight. -/
theorem msg_at (hIn : Spec.InRange x1) (e : Fin 270336) (c : Fin 128) :
    val_main_v37 (F := Ideal) x0 x1 x2 (ix2 e c) = Spec.hmat x0 x2 (Spec.src x1 e) c * Spec.norm x1 e := by
  rw [val_main_v37_apply, hrow_at x0 x1 x2 hIn e c, val_main_v36_apply, val_main_v35_apply]
  have hi : idx_main_v35 (idx_main_v36 (ix2 e c)) = ix1 e := by
    funext a
    match a with
    | ⟨0, _⟩ => rfl
  rw [hi, norm_at x1 hIn e]
  generalize Spec.hmat x0 x2 (Spec.src x1 e) c = a
  generalize Spec.norm x1 e = b
  rfl

/-! ## The aggregate and the layer's output -/

/-- The row segment sum of the messages by target, from zero: the aggregate. -/
theorem agg_at (hIn : Spec.InRange x1) (i : Fin 8192) (c : Fin 128) :
    val_main_v40 (F := Ideal) x0 x1 x2 (ix2 i c) = Spec.agg x0 x1 x2 i c := by
  unfold val_main_v40
  show Ideal.hostScatterAdd (scatterRowsDims 8192 270336 128 scatter_S8192x128_S270336x1_S270336x128_1_0_0_1_wf)
    (val_main_v38 (F := Ideal)) (val_main_v39 (F := Ideal) x1) (val_main_v37 (F := Ideal) x0 x1 x2) (ix2 i c) = _
  rw [hostScatterAdd_rows_apply, val_main_v38_apply, val_main_cst_6_apply]
  unfold Spec.agg
  rw [Finset.sum_filter]
  refine congrArg₂ (· + ·) ?_ ?_
  · exact Ideal.ofBits_zero_f32
  · refine Finset.sum_congr rfl (fun e _ => ?_)
    rw [aggpos_at x1 hIn e, msg_at x0 x1 x2 hIn e c]
    by_cases h : Spec.dst x1 e = i
    · rw [if_pos h, if_pos ((wordOf_toInt_eq_iff _ _).2 h)]
    · rw [if_neg h, if_neg (fun h' => h ((wordOf_toInt_eq_iff _ _).1 h'))]

/-- The layer's output: aggregate plus bias, clipped below at zero. -/
theorem z_at (hIn : Spec.InRange x1) (i : Fin 8192) (c : Fin 128) :
    val_main_v44 (F := Ideal) x0 x1 x2 x3 (ix2 i c) = Spec.z x0 x1 x2 x3 i c := by
  rw [val_main_v44_apply, val_main_v43_apply, agg_at x0 x1 x2 hIn i c, val_main_v42_apply, val_main_v41_apply,
    val_main_call0_v0_apply, val_main_call0_cst_apply]
  have hi : idx_main_v41 (idx_main_v42 (ix2 i c)) = ix1 c := by
    funext a
    match a with
    | ⟨0, _⟩ => rfl
  rw [hi]
  unfold Spec.z
  generalize Spec.agg x0 x1 x2 i c = a
  show max (a + x3 (ix1 c)) (Ideal.ofBits .f32 0x00000000#32) = _
  rw [Ideal.ofBits_zero_f32]

/-! ## The decoder -/

/-- The inner product of two output rows. -/
theorem score_at (hIn : Spec.InRange x1) (i j : Fin 8192) :
    val_main_v46 (F := Ideal) x0 x1 x2 x3 (ix2 i j) = Spec.score x0 x1 x2 x3 i j := by
  rw [val_main_v46_apply]
  unfold Spec.score
  refine Finset.sum_congr rfl (fun k _ => ?_)
  have hl : lidx_main_v46 (ix2 i j) k = ix2 i k := by
    funext a
    match a with
    | ⟨0, _⟩ => rfl
    | ⟨1, _⟩ => rfl
  have hr : idx_main_v45 (ridx_main_v46 (ix2 i j) k) = ix2 j k := by
    funext a
    match a with
    | ⟨0, _⟩ => rfl
    | ⟨1, _⟩ => rfl
  rw [val_main_v45_apply, hl, hr, z_at x0 x1 x2 x3 hIn i k, z_at x0 x1 x2 x3 hIn j k]

/-- The decoder's output: one over one plus the exponential of the negated score. -/
theorem out_at (hIn : Spec.InRange x1) (i j : Fin 8192) :
    val_main_v52 (F := Ideal) x0 x1 x2 x3 (ix2 i j) = Spec.outRef (Spec.score x0 x1 x2 x3 i j) := by
  rw [val_main_v52_apply, val_main_v51_apply, val_main_cst_8_apply, val_main_v50_apply, val_main_v49_apply,
    val_main_cst_7_apply, val_main_v48_apply, val_main_v47_apply, score_at x0 x1 x2 x3 hIn i j]
  generalize Spec.score x0 x1 x2 x3 i j = s
  rfl

/-! ## The two results as whole arrays -/

/-- The layer's output array. -/
theorem z_array (hIn : Spec.InRange x1) :
    val_main_v44 (F := Ideal) x0 x1 x2 x3 = fun idx => Spec.z x0 x1 x2 x3 (idx 0) (idx 1) := by
  funext idx
  obtain ⟨p, q, rfl⟩ : ∃ (p : Fin 8192) (q : Fin 128), idx = ix2 p q := ⟨idx 0, idx 1, eq_ix2 idx⟩
  exact z_at x0 x1 x2 x3 hIn p q

/-- The decoder's output array. -/
theorem out_array (hIn : Spec.InRange x1) :
    val_main_v52 (F := Ideal) x0 x1 x2 x3 = fun idx => Spec.outRef (Spec.score x0 x1 x2 x3 (idx 0) (idx 1)) := by
  funext idx
  obtain ⟨p, q, rfl⟩ : ∃ (p : Fin 8192) (q : Fin 8192), idx = ix2 p q := ⟨idx 0, idx 1, eq_ix2 idx⟩
  exact out_at x0 x1 x2 x3 hIn p q

end Cert.ReferenceIdeal.RefValue

end
-- ==== Proof.LibScatterPairs.lean ====
/-
  Single entries added into a matrix at pairs of positions: updates `[E]` sent to the entries of an operand `[N, M]` by
  a table `idx : [E, 2]` of start index pairs (row position in column 0, column position in column 1), read at an entry
  written by its coordinates. Update `e` lands on the operand entry `(idx[e, 0], idx[e, 1])` when both start indices,
  read as signed integers and NOT clamped, are inside the operand, and is dropped otherwise. So entry `(n, k)` of the
  result is the operand's entry plus the sum, over the updates `e` whose two start indices read signed are exactly
  `n` and `k`, of the update `e`.
-/
import Idealize.ShloMosaic.PureOps.Ideal
import Idealize.ShloMosaic.Lib.ValueIdx
import proofs.«100069_j65712999629271_2_alg».proof.Proof.LibScatterSet

open scoped BigOperators

namespace Idealize.ShloMosaic.ValueIdx

open Idealize.ShloMosaic

section ScatterPairs

/-- A rank-1 index set is its one coordinate range … -/
def pairs_idxEquiv {n : Nat} : (⟨1, ![n]⟩ : Shape).Idx ≃ Fin n where
  toFun i := i 0
  invFun a := ix1 a
  left_inv i := (eq_ix1 i).symm
  right_inv _ := rfl

/-- … so a sum over it is the sum over the coordinate. -/
theorem pairs_sum_idx {M : Type*} [AddCommMonoid M] {n : Nat} (f : (⟨1, ![n]⟩ : Shape).Idx → M) :
    ∑ i, f i = ∑ a : Fin n, f (ix1 a) := by
  rw [← Equiv.sum_comp (pairs_idxEquiv (n := n)).symm f]
  rfl

/-- The dimension numbers of "add single entries into a matrix at pairs of positions": operand `[N, M]`, scatter
    indices `[E, 2]` (the index vector along axis 1, its two components the row and the column position), updates
    `[E]`; both operand axes are inserted and indexed, there is no window axis. -/
abbrev scatterPairsDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Where an update lands: update `e` lands on the operand entry `(n, k)` exactly when its two start indices
    `idx[e, 0]` and `idx[e, 1]`, read signed, are `n` and `k`. -/
theorem scatterPairs_lands_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (n : Fin N) (k : Fin M) :
    (scatterPairsDims N M E wf).resultIdx? (ix1 e) idx = some (ix2 n k) ↔
      (idx (ix2 e (0 : Fin 2))).toInt = (n.val : Int) ∧ (idx (ix2 e (1 : Fin 2))).toInt = (k.val : Int) := by
  rw [LibScatterSet.resultIdx?_eq_some_iff]
  -- the start of the window on each operand axis: that axis's start index read signed
  have hs0 : (scatterPairsDims N M E wf).start (ix1 e) idx 0 = (idx (ix2 e (0 : Fin 2))).toInt := by
    unfold ScatterDims.start
    rw [dif_pos (show (0 : Fin 2) ∈ (scatterPairsDims N M E wf).scatterDimsToOperandDims from
      (by decide : (0 : Fin 2) ∈ [(0 : Fin 2), 1]))]
    have hsi : (scatterPairsDims N M E wf).siIdx (ix1 e)
        ⟨List.idxOf (0 : Fin 2) (scatterPairsDims N M E wf).scatterDimsToOperandDims,
          List.idxOf_lt_length_iff.2 (by decide : (0 : Fin 2) ∈ [(0 : Fin 2), 1])⟩ = ix2 e (0 : Fin 2) := by
      funext b; refine Fin.ext ?_
      match b with
      | ⟨0, _⟩ => rfl
      | ⟨1, _⟩ => rfl
    rw [hsi]
  have hs1 : (scatterPairsDims N M E wf).start (ix1 e) idx 1 = (idx (ix2 e (1 : Fin 2))).toInt := by
    unfold ScatterDims.start
    rw [dif_pos (show (1 : Fin 2) ∈ (scatterPairsDims N M E wf).scatterDimsToOperandDims from
      (by decide : (1 : Fin 2) ∈ [(0 : Fin 2), 1]))]
    have hsi : (scatterPairsDims N M E wf).siIdx (ix1 e)
        ⟨List.idxOf (1 : Fin 2) (scatterPairsDims N M E wf).scatterDimsToOperandDims,
          List.idxOf_lt_length_iff.2 (by decide : (1 : Fin 2) ∈ [(0 : Fin 2), 1])⟩ = ix2 e (1 : Fin 2) := by
      funext b; refine Fin.ext ?_
      match b with
      | ⟨0, _⟩ => rfl
      | ⟨1, _⟩ => rfl
    rw [hsi]
  -- both operand axes are inserted: the window coordinate is 0 on each
  have hw : ∀ a : Fin 2, (scatterPairsDims N M E wf).window (ix1 e) a = 0 := by
    intro a
    unfold ScatterDims.window
    have hn : a ∉ (scatterPairsDims N M E wf).sKept := by
      have hk : (scatterPairsDims N M E wf).sKept = [] :=
        (by decide : (List.finRange 2).filter (fun x => x ∉ [(0 : Fin 2), 1]) = [])
      rw [hk]; exact List.not_mem_nil
    rw [dif_neg hn]
  constructor
  · intro h
    have h0 : (n.val : Int) = (scatterPairsDims N M E wf).start (ix1 e) idx 0
        + ((scatterPairsDims N M E wf).window (ix1 e) 0 : Nat) := h 0
    have h1 : (k.val : Int) = (scatterPairsDims N M E wf).start (ix1 e) idx 1
        + ((scatterPairsDims N M E wf).window (ix1 e) 1 : Nat) := h 1
    rw [hs0, hw 0] at h0
    rw [hs1, hw 1] at h1
    exact ⟨by omega, by omega⟩
  · rintro ⟨h0, h1⟩ a
    match a with
    | ⟨0, _⟩ =>
      show (n.val : Int) = (scatterPairsDims N M E wf).start (ix1 e) idx 0
        + ((scatterPairsDims N M E wf).window (ix1 e) 0 : Nat)
      rw [hs0, hw 0]; omega
    | ⟨1, _⟩ =>
      show (k.val : Int) = (scatterPairsDims N M E wf).start (ix1 e) idx 1
        + ((scatterPairsDims N M E wf).window (ix1 e) 1 : Nat)
      rw [hs1, hw 1]; omega

/-- Single entries added into a matrix at pairs of positions: the result at `(n, k)` is the operand's entry plus the
    sum, over the updates `e` whose start indices `idx[e, 0]`, `idx[e, 1]` read signed are `n` and `k`, of the
    update `e`. -/
theorem hostScatterAdd_pairs_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w)
    (upd : (⟨1, ![E]⟩ : Shape).Idx → EReal) (n : Fin N) (k : Fin M) :
    Ideal.hostScatterAdd (scatterPairsDims N M E wf) x idx upd (ix2 n k)
      = x (ix2 n k) + ∑ e : Fin E,
          if (idx (ix2 e (0 : Fin 2))).toInt = (n.val : Int) ∧ (idx (ix2 e (1 : Fin 2))).toInt = (k.val : Int)
          then upd (ix1 e) else 0 := by
  unfold Ideal.hostScatterAdd
  congr 1
  rw [Finset.sum_filter, pairs_sum_idx]
  refine Finset.sum_congr rfl (fun e _ => ?_)
  by_cases h : (idx (ix2 e (0 : Fin 2))).toInt = (n.val : Int) ∧ (idx (ix2 e (1 : Fin 2))).toInt = (k.val : Int)
  · rw [if_pos h, if_pos ((scatterPairs_lands_iff wf idx e n k).2 h)]
  · rw [if_neg h, if_neg (fun hl => h ((scatterPairs_lands_iff wf idx e n k).1 hl))]

end ScatterPairs

end Idealize.ShloMosaic.ValueIdx
-- ==== Proof.KernelHost.lean ====
/- The dense normalised adjacency the kernel's host operations build before the first call, read at an entry.

   The host joins each row of the edge list with the loop edges into 270336 sources and targets, computes the edge
   weights norm e = deg(src e)^(-1/2) · deg(dst e)^(-1/2), replaces a negative position k by k + 8192 (which changes
   nothing when every listed node number is in range), lays the targets and the sources side by side as a table of
   270336 index pairs (target, source), and adds weight e into entry (dst e, src e) of an 8192 × 8192 matrix of zeros.
   Entry (i, j) of the result is therefore zero plus the sum of the weights of the edges from j to i. These are the
   same operations, on the same inputs, as the first stages of the reference program, so each intermediate array is
   that stage's array and is read by the lemmas about the reference's stages; what is new here is the table of pairs
   and the sum into the matrix. The closing change of float format is the identity over the extended reals. -/
import proofs.«100069_j65712999629271_2_alg».proof.Proof.Gen.KernelIdeal.Launch
import proofs.«100069_j65712999629271_2_alg».proof.Proof.Gen.ReferenceIdeal.Read
import proofs.«100069_j65712999629271_2_alg».proof.Proof.Spec
import proofs.«100069_j65712999629271_2_alg».proof.Proof.RefIdx
import proofs.«100069_j65712999629271_2_alg».proof.Proof.RefStages
import proofs.«100069_j65712999629271_2_alg».proof.Proof.LibScatterPairs
import Idealize.ShloMosaic.Lib.StableHlo.Run
import Idealize.ShloMosaic.Lib.Pipeline.Value
import Idealize.ShloMosaic.Lib.ValueIdx

set_option maxRecDepth 16384

open scoped BigOperators

noncomputable section

namespace Cert.KernelIdeal.Host

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.RefValue

variable (m : (ℓ : Loc nD τ sig) → Buf (Elt Ideal) ℓ)

/-- Core `c`'s buffers after the host operations that precede the first call. -/
abbrev Wh (c : Dev nD) : Valuation τ sig (Elt Ideal) := StableHlo.after (hostOps0 (F := Ideal)) (fun b => m (c, b))

/-! ## The pieces, named -/

/-- The table of index pairs: column 0 the targets' positions, column 1 the sources' positions. -/
def idxPairs (ei : Spec.EArr) : S270336x2.Idx → BitVec 32 :=
  concatenate S270336x2 1 [⟨S270336x1, Cert.ReferenceIdeal.Read.val_main_v25 (F := Ideal) ei⟩,
    ⟨S270336x1, Cert.ReferenceIdeal.Read.val_main_v18 (F := Ideal) ei⟩] concatenates_S270336x1_S270336x1_S270336x2_d1

/-- The matrix of zeros the weights are added into. -/
def zeros2 : FVec Ideal S8192x8192 .f32 :=
  broadcastInDim S8192x8192 ![] bcast_S_S8192x8192 (constant (F := Ideal) S_ .f32 0x00000000#32)

/-- The matrix after the weights are added at the index pairs. -/
def adjArr (ei : Spec.EArr) : FVec Ideal S8192x8192 .f32 :=
  Host.scatterAdd (F := Ideal) (φ := .f32) scatter_S8192x8192_S270336x2_S270336_n_01_01_1 zeros2 (idxPairs ei)
    (Cert.ReferenceIdeal.Read.val_main_v27 (F := Ideal) ei)

set_option maxHeartbeats 4000000 in
/-- The buffer the first call reads as its first operand is that matrix (the change of float format aside). -/
theorem v43_eq (c : Dev nD) :
    (Wh m c (Proc.devRef .tc main_v43) : S8192x8192.Idx → EReal)
      = (truncf .bf16 (adjArr (m ((c : Thread nD τ).loc main_arg1))) bitsLt_bf16_f32 : FVec Ideal S8192x8192 .bf16) := by
  dsimp only [Wh, hostOps0]
  after_results_simp
  rfl

/-! ## The table of pairs at an edge -/

/-- Column 0 of row `e` of the table is the word of `dst e`. -/
theorem pairs_dst (ei : Spec.EArr) (hIn : Spec.InRange ei) (e : Fin 270336) :
    idxPairs ei (ix2 e (0 : Fin 2)) = wordOf (Spec.dst ei e) := by
  unfold idxPairs
  rw [concatenate_pair_apply_left (1 : Fin 2) (Cert.ReferenceIdeal.Read.val_main_v25 (F := Ideal) ei)
    (Cert.ReferenceIdeal.Read.val_main_v18 (F := Ideal) ei) _ (ix2 e (0 : Fin 2)) rfl (ix2 e (0 : Fin 1))
    (fun b => match b with | ⟨0, _⟩ => rfl | ⟨1, _⟩ => rfl)]
  exact dstpos_at ei hIn e

/-- Column 1 of row `e` of the table is the word of `src e`. -/
theorem pairs_src (ei : Spec.EArr) (hIn : Spec.InRange ei) (e : Fin 270336) :
    idxPairs ei (ix2 e (1 : Fin 2)) = wordOf (Spec.src ei e) := by
  unfold idxPairs
  rw [concatenate_pair_apply_right (1 : Fin 2) (Cert.ReferenceIdeal.Read.val_main_v25 (F := Ideal) ei)
    (Cert.ReferenceIdeal.Read.val_main_v18 (F := Ideal) ei) _ (ix2 e (1 : Fin 2)) rfl rfl (ix2 e (0 : Fin 1))
    (fun b hb => match b, hb with | ⟨0, _⟩, _ => rfl | ⟨1, _⟩, hb => absurd rfl hb) rfl]
  exact srcpos_at ei hIn e

/-! ## The matrix at an entry -/

/-- Entry `(i, j)` of the matrix: zero plus the weights of the edges from `j` to `i`. -/
theorem adjArr_apply (ei : Spec.EArr) (hIn : Spec.InRange ei) (i j : Fin 8192) :
    adjArr ei (ix2 i j) = Spec.adj ei i j := by
  unfold adjArr
  show Ideal.hostScatterAdd (scatterPairsDims 8192 8192 270336 scatter_S8192x8192_S270336x2_S270336_n_01_01_1_wf)
    zeros2 (idxPairs ei) (Cert.ReferenceIdeal.Read.val_main_v27 (F := Ideal) ei) (ix2 i j) = _
  rw [hostScatterAdd_pairs_apply]
  unfold Spec.adj
  rw [Finset.sum_filter]
  refine congrArg₂ (· + ·) ?_ ?_
  · exact Ideal.ofBits_zero_f32
  · refine Finset.sum_congr rfl (fun e _ => ?_)
    rw [pairs_dst ei hIn e, pairs_src ei hIn e, norm_at ei hIn e]
    by_cases h : Spec.dst ei e = i ∧ Spec.src ei e = j
    · rw [if_pos h, if_pos ⟨(wordOf_toInt_eq_iff _ _).2 h.1, (wordOf_toInt_eq_iff _ _).2 h.2⟩]
    · rw [if_neg h, if_neg (fun h' => h ⟨(wordOf_toInt_eq_iff _ _).1 h'.1, (wordOf_toInt_eq_iff _ _).1 h'.2⟩)]

/-- The first call's first operand, read at an entry: the dense normalised adjacency. -/
theorem v43_apply (c : Dev nD) (hIn : Spec.InRange (m ((c : Thread nD τ).loc main_arg1))) (i j : Fin 8192) :
    (Wh m c (Proc.devRef .tc main_v43) : S8192x8192.Idx → EReal) (ix2 i j)
      = Spec.adj (m ((c : Thread nD τ).loc main_arg1)) i j := by
  rw [v43_eq]
  exact adjArr_apply _ hIn i j

end Cert.KernelIdeal.Host

end
-- ==== Proof.KernelHostA.lean ====
/-
  The host operations before the first call, read at an index as the specification's quantities.

  Before the first call the program forms, on the host, the transformed features h = x W (then narrowed to a shorter
  float format, which changes nothing over the extended reals), the bias as a one-row matrix, and the edge weights:
  the edge list extended by one loop per node, the in-degree as a sum of ones by target, its reciprocal square root
  taken at each edge's source and target, and the product of the two. These are, operation for operation, the terms
  the reference program forms for the same quantities, so each buffer holds the reference's term of the same
  arguments, and the reference's stage-by-stage readings give its entries: h at (n, k) is the sum over the 256
  features, the bias row at (0, k) is the bias at k, and the weight of edge e is the specification's weight when every
  listed node number is in range.
-/
import proofs.«100069_j65712999629271_2_alg».proof.Proof.KI.Run
import proofs.«100069_j65712999629271_2_alg».proof.Proof.RefStages
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## Each buffer as one term of the arguments -/

set_option maxHeartbeats 4000000 in
/-- The bias buffer is the bias argument given a leading axis of length one. -/
theorem v45_eq (c : Dev nD) : (HandRun.V1 m c main_v45 : S1x128.Idx → EReal)
    = shapeCast S1x128 (m ((c : Thread nD τ).loc main_arg3) : S128.Idx → EReal) shapeCasts_S128_S1x128 := by
  dsimp only [HandRun.V1, HandRun.W1, HandRun.W0, hostOps0]
  after_results_simp
  rfl

set_option maxHeartbeats 4000000 in
/-- The feature buffer is the reference's product of the features with the weights; the narrowing is the identity. -/
theorem v44_eq (c : Dev nD) : (HandRun.V1 m c main_v44 : S8192x128.Idx → EReal)
    = Cert.ReferenceIdeal.Read.val_main_v0 (F := Ideal) (m ((c : Thread nD τ).loc main_arg0)) (m ((c : Thread nD τ).loc main_arg2)) := by
  dsimp only [HandRun.V1, HandRun.W1, HandRun.W0, hostOps0]
  after_results_simp
  rfl

set_option maxHeartbeats 4000000 in
/-- The edge-weight buffer is the reference's edge-weight term of the edge list: the same operations in the same order. -/
theorem v27_eq (c : Dev nD) : (HandRun.V1 m c main_v27 : S270336.Idx → EReal)
    = Cert.ReferenceIdeal.Read.val_main_v27 (F := Ideal) (m ((c : Thread nD τ).loc main_arg1)) := by
  dsimp only [HandRun.V1, HandRun.W1, HandRun.W0, hostOps0]
  after_results_simp
  rfl

/-! ## Read at an index -/

/-- The transformed features at node n, feature k. -/
theorem v44_apply (c : Dev nD) (n : Fin 8192) (k : Fin 128) :
    (HandRun.V1 m c main_v44 : S8192x128.Idx → EReal) (ix2 n k)
      = Spec.hmat (m ((c : Thread nD τ).loc main_arg0) : Spec.XArr) (m ((c : Thread nD τ).loc main_arg2) : Spec.WArr) n k :=
  (congrFun (v44_eq m c) (ix2 n k)).trans
    (Cert.ReferenceIdeal.RefValue.hmat_at (m ((c : Thread nD τ).loc main_arg0)) (m ((c : Thread nD τ).loc main_arg2)) n k)

/-- The bias row at feature k. -/
theorem v45_apply (c : Dev nD) (k : Fin 128) :
    (HandRun.V1 m c main_v45 : S1x128.Idx → EReal) (ix2 (0 : Fin 1) k)
      = (m ((c : Thread nD τ).loc main_arg3) : Spec.BArr) (ix1 k) :=
  (congrFun (v45_eq m c) (ix2 (0 : Fin 1) k)).trans
    (shapeCast_a_1a_apply (m ((c : Thread nD τ).loc main_arg3) : S128.Idx → EReal) shapeCasts_S128_S1x128 (0 : Fin 1) k)

/-- The weight of edge e, when every listed node number is in range. -/
theorem v27_apply (c : Dev nD) (hIn : Spec.InRange (m ((c : Thread nD τ).loc main_arg1) : Spec.EArr)) (e : Fin 270336) :
    (HandRun.V1 m c main_v27 : S270336.Idx → EReal) (ix1 e)
      = Spec.norm (m ((c : Thread nD τ).loc main_arg1) : Spec.EArr) e :=
  (congrFun (v27_eq m c) (ix1 e)).trans
    (Cert.ReferenceIdeal.RefValue.norm_at (m ((c : Thread nD τ).loc main_arg1)) hIn e)

end Cert.KernelIdeal.Host

end
-- ==== Proof.RefValue.lean ====
/-
  The reference program's run, with its two results stated by the specification.

  When every listed node number is in range, every weakly fair execution of the reference terminates with the decoder's
  output array holding the logistic function of the inner products of the rows of the layer's output `z`, the second
  result holding `z` itself, and the four arguments unchanged.
-/
import proofs.«100069_j65712999629271_2_alg».proof.Proof.Gen.ReferenceIdeal.Read
import proofs.«100069_j65712999629271_2_alg».proof.Proof.Spec
import proofs.«100069_j65712999629271_2_alg».proof.Proof.RefStages

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The reference's run: both results are the specification's, the arguments are unchanged. -/
theorem ref_run (m' : (ℓ : Loc nD τ sig) → Buf (Elt Ideal) ℓ) (ρ' : Dev nD → PrngReg)
    (hIn : ∀ c : Dev nD, Spec.InRange (m' ((c.tc : Thread nD τ).loc main_arg1))) :
    θ_run (defs (F := Ideal)) (onTc (τ := τ) (main (F := Ideal))) ⟨m', fun _ => 0, ρ'⟩ fun r => ∀ c : Dev nD,
      r.2.mem ((c.tc : Thread nD τ).loc main_v52)
          = (fun idx => Spec.outRef (Spec.score (m' ((c.tc : Thread nD τ).loc main_arg0))
              (m' ((c.tc : Thread nD τ).loc main_arg1)) (m' ((c.tc : Thread nD τ).loc main_arg2))
              (m' ((c.tc : Thread nD τ).loc main_arg3)) (idx 0) (idx 1)))
      ∧ r.2.mem ((c.tc : Thread nD τ).loc main_v44)
          = (fun idx => Spec.z (m' ((c.tc : Thread nD τ).loc main_arg0))
              (m' ((c.tc : Thread nD τ).loc main_arg1)) (m' ((c.tc : Thread nD τ).loc main_arg2))
              (m' ((c.tc : Thread nD τ).loc main_arg3)) (idx 0) (idx 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run (defs (F := Ideal)) _ _).mono
    (fun _ h c =>
      ⟨(h c).1.trans ((Read.val_main_v52_eq m' c).trans (out_array _ _ _ _ (hIn c))),
        (h c).2.1.trans ((Read.val_main_v44_eq m' c).trans (z_array _ _ _ _ (hIn c))),
        (h c).2.2⟩)
    (Cert.ReferenceIdeal.Value.run (F := Ideal) m' ρ')

end Cert.ReferenceIdeal.RefValue

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.PreDecode.lean ====
/-
  The precondition read back: what "the check returns true" says about the four arguments.

  The check is the conjunction of five all-reductions: the absolute value of every entry of the features, of the
  weights and of the bias is below +∞, and every entry of the edge list, read as a signed number, is at least 0 and
  below 8192. A conjunction that is 1 has every conjunct 1; an all-reduction that is 1 had a 1 at every index; an
  extended real whose absolute value is below +∞ is a real; and a signed comparison that is 1 is the inequality of the
  signed readings. So the three float arguments have real entries and every listed node number is in range.
-/
import proofs.«100069_j65712999629271_2_alg».proof.Pre_finite_inputs
import proofs.«100069_j65712999629271_2_alg».proof.Proof.Spec
import proofs.«100069_j65712999629271_2_alg».proof.Proof.LibFinite

noncomputable section

namespace Cert.PreDecode

open Idealize.ShloMosaic Idealize.ShloMosaic.ValueIdx

variable [Cert.Pre_finite_inputs.Facts]

/-- If the check returns true, the features, weights and bias have real entries and every entry of the edge list is
    a node number. -/
theorem decode (x : FVec Ideal Cert.Pre_finite_inputs.S8192x256 .f32) (ei : IVec Cert.Pre_finite_inputs.S2x262144 32)
    (w : FVec Ideal Cert.Pre_finite_inputs.S256x128 .f32) (b : FVec Ideal Cert.Pre_finite_inputs.S128 .f32)
    (h : Cert.Pre_finite_inputs.fn (F := Ideal) x ei w b = fun _ => 1#1) :
    Spec.IsRealArr (S := Spec.S8192x256) x ∧ Spec.InRange ei ∧ Spec.IsRealArr (S := Spec.S256x128) w
      ∧ Spec.IsRealArr (S := Spec.S128) b := by
  have e := congrFun h ix0
  obtain ⟨e17, e20⟩ := IntOp.andi_eq_one.1 e
  obtain ⟨e13, e16⟩ := IntOp.andi_eq_one.1 e17
  obtain ⟨e8, e12⟩ := IntOp.andi_eq_one.1 e13
  obtain ⟨e3, e7⟩ := IntOp.andi_eq_one.1 e8
  refine ⟨fun i => LibFinite.all_real_of_reduce x _ _ _ e3 i, fun idx => ⟨?_, ?_⟩,
    fun i => LibFinite.all_real_of_reduce w _ _ _ e7 i, fun i => LibFinite.all_real_of_reduce b _ _ _ e12 i⟩
  · have t := IntOp.cmpi_sge.1 (Host.reduce_andi_all _ _ _ _ ix0 e16 idx)
    change (0#32 : BitVec 32).toInt ≤ (ei idx).toInt at t
    have h0 : (0#32 : BitVec 32).toInt = 0 := by decide
    rw [h0] at t
    exact t
  · have t := IntOp.cmpi_slt.1 (Host.reduce_andi_all _ _ _ _ ix0 e20 idx)
    change (ei idx).toInt < (8192#32 : BitVec 32).toInt at t
    have h8 : (8192#32 : BitVec 32).toInt = 8192 := by decide
    rw [h8] at t
    exact t

end Cert.PreDecode

end
-- ==== Proof.lean ====
/-
  A graph-convolution layer followed by a dense inner-product decoder, in two arrangements.

  Both programs take node features x (8192 x 256), an edge list (2 x 262144 node numbers), a weight matrix W
  (256 x 128) and a bias b (128), add a loop edge at every node, and with h = x W, deg the number of edges arriving
  at a node and norm e = deg(src e)^(-1/2) * deg(dst e)^(-1/2) return z = max(agg + b, 0) and the logistic function
  of the inner products z i . z j. The reference gathers the rows h (src e), scales them by norm e and adds them into
  row dst e. The kernel adds the weights norm e into a dense 8192 x 8192 matrix at (dst e, src e) and computes the
  matrix product with h in 8 x 8 blocks of 1024, accumulating over the eight column blocks of a row block, adds the
  bias and clamps at the last one; its decoder computes the inner products block by block and applies
  (tanh (s / 2) + 1) / 2. On real numbers the two aggregates are one sum regrouped by source node, and
  (tanh (s / 2) + 1) / 2 = 1 / (1 + exp (-s)). Every intermediate is a real number because the inputs are finite and
  every node has at least its loop edge, so no inverse square root of zero occurs. The edge list is required to hold
  node numbers: an edge whose source lies outside the nodes is skipped by the dense arrangement while the reference
  clamps it onto the last node, so without that requirement the two programs differ.

  The frames: each program's @main is host operations, the aggregation call, one conversion, the decoding call. Each
  call is run point by point over its grid; the aggregation call carries its accumulator from point to point, the
  decoding call reads one array through two windows.
-/
import proofs.«100069_j65712999629271_2_alg».proof.Defs
import proofs.«100069_j65712999629271_2_alg».proof.Proof.Gen.Kernel
import proofs.«100069_j65712999629271_2_alg».proof.Proof.Gen.KernelIdeal
import proofs.«100069_j65712999629271_2_alg».proof.Proof.Gen.ReferenceIdeal
import proofs.«100069_j65712999629271_2_alg».proof.Proof.Gen.Pre_finite_inputs
import proofs.«100069_j65712999629271_2_alg».proof.Proof.K.Run
import proofs.«100069_j65712999629271_2_alg».proof.Proof.KI.Run
import proofs.«100069_j65712999629271_2_alg».proof.Proof.KI.Bridge
import proofs.«100069_j65712999629271_2_alg».proof.Proof.KernelHost
import proofs.«100069_j65712999629271_2_alg».proof.Proof.KernelHostA
import proofs.«100069_j65712999629271_2_alg».proof.Proof.RefValue
import proofs.«100069_j65712999629271_2_alg».proof.Proof.PreDecode
import Idealize.ShloMosaic.Adequacy
import Idealize.ShloMosaic.Init

noncomputable section

namespace Cert.Proof

open Idealize.ShloMosaic Idealize.SL.Sem

/-- The word-level program runs to the end, faults nowhere and leaves its arguments as they were. -/
theorem frame_k : Cert.frame_Kernel := fun m ρ _ => Cert.Kernel.HandRun.frame (F := Bits) m ρ

/-- So does the idealized program. -/
theorem frame_ki : Cert.frame_KernelIdeal := fun m ρ _ => Cert.KernelIdeal.HandRun.frame (F := Ideal) m ρ

/-- The reference is a straight line of host operations: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read at the extended reals. -/
theorem preserves : Cert.preserves_Kernel_KernelIdeal := trivial

/-- From memories that agree on the arguments, finite and with node numbers in the edge list, both programs end with
    z = max (agg + b, 0) and the logistic function of its inner products. -/
theorem algebraic : Cert.algebraic_KernelIdeal_ReferenceIdeal := by
  intro m ρ m' ρ' hpre hagree
  have hd := fun c => Cert.PreDecode.decode _ _ _ _ (hpre c)
  refine ⟨_, _, Cert.KernelIdeal.Bridge.ker_run m ρ (fun c => (hd c).1) (fun c => (hd c).2.1) (fun c => (hd c).2.2.1) (fun c => (hd c).2.2.2)
      (fun c i j => Cert.KernelIdeal.Host.v43_apply m c (hd c).2.1 i j)
      (fun c n k => Cert.KernelIdeal.Host.v44_apply m c n k)
      (fun c k => Cert.KernelIdeal.Host.v45_apply m c k), ?_⟩
  refine (θ_run Cert.ReferenceIdeal.defs _ _).mono (fun r h c => ?_)
    (Cert.ReferenceIdeal.RefValue.ref_run m' ρ' (fun c => by rw [(hagree c).2.1]; exact (hd c).2.1))
  obtain ⟨h52, h44, hrest⟩ := h c
  refine ⟨h52.trans ?_, h44.trans ?_, hrest⟩
  · rw [(hagree c).1, (hagree c).2.1, (hagree c).2.2.1, (hagree c).2.2.2] <;> rfl
  · rw [(hagree c).1, (hagree c).2.1, (hagree c).2.2.1, (hagree c).2.2.2] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
